-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x800000 : Shape := ⟨2, ![2, 800000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_arg6 : FVec F S64x64 .f32) (main_arg7 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x64 .f32) (main_arg1 : IVec S2x800000 32) (main_arg2 : FVec F S64x64 .f32) (main_arg3 : FVec F S64 .f32) (main_arg4 : FVec F S64 .f32) (main_arg5 : FVec F S64 .f32) (main_arg6 : FVec F S64x64 .f32) (main_arg7 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_v13 main_v16
-- ==== Kernel.lean ====
abbrev S100000x64 : Shape := ⟨2, ![100000, 64]⟩
abbrev S2x800000 : Shape := ⟨2, ![2, 800000]⟩
abbrev S64x64 : Shape := ⟨2, ![64, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S1x64 : Shape := ⟨2, ![1, 64]⟩
abbrev S5000x64 : Shape := ⟨2, ![5000, 64]⟩

abbrev nBuf : Space → Nat
  | .hbm => 64
  | .vmem => 20
  | .smem => 0
  | _ => 0

abbrev bufTy : (tb : Table) → Fin (tcTables nBuf tb) → BufTy
  | .hbm, ⟨0, _⟩ => ⟨S100000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x64, .f32⟩
  | .hbm, ⟨21, _⟩ => ⟨S_, .f32⟩
  | .hbm, ⟨22, _⟩ => ⟨S100000x64, .f32⟩
  | .hbm, ⟨23, _⟩ => ⟨S800000x1, .i32⟩
  | .hbm, ⟨24, _⟩ => ⟨S100000x64, .f32⟩
  | .hbm, ⟨25, _⟩ => ⟨S100000x64, .f32⟩
  | .hbm, ⟨26, _⟩ => ⟨S1x64, .f32⟩
  | .hbm, ⟨27, _⟩ => ⟨S100000x64, .f32⟩
  | .hbm, ⟨28, _⟩ => ⟨S1x64, .f32⟩
  | .hbm, ⟨29, _⟩ => ⟨S1x64, .f32⟩
  | .hbm, ⟨30, _⟩ => ⟨S_, .f32⟩
  | .hbm, ⟨31, _⟩ => ⟨S1x64, .f32⟩
  | .hbm, ⟨32, _⟩ => ⟨S1x64, .f32⟩
  | .hbm, ⟨33, _⟩ => ⟨S_, .f32⟩
  | .hbm, ⟨34, _⟩ => ⟨S1x64, .f32⟩
  | .hbm, ⟨35, _⟩ => ⟨S1x64, .f32⟩
  | .hbm, ⟨36, _⟩ => ⟨S1x64, .f32⟩
  | .hbm, ⟨37, _⟩ => ⟨S1x64, .f32⟩
  | .hbm, ⟨38, _⟩ => ⟨S1x64, .f32⟩
  | .hbm, ⟨39, _⟩ => ⟨S_, .f32⟩
  | .hbm, ⟨40, _⟩ => ⟨S1x64, .f32⟩
  | .hbm, ⟨41, _⟩ => ⟨S1x64, .f32⟩
  | .hbm, ⟨42, _⟩ => ⟨S1x64, .f32⟩
  | .hbm, ⟨43, _⟩ => ⟨S1x64, .f32⟩
  | .hbm, ⟨44, _⟩ => ⟨S1x64, .f32⟩
  | .hbm, ⟨45, _⟩ => ⟨S1x64, .f32⟩
  | .hbm, ⟨46, _⟩ => ⟨S1x64, .f32⟩
  | .hbm, ⟨47, _⟩ => ⟨S100000x64, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x64, .f32⟩
  | .hbm, ⟨57, _⟩ => ⟨S_, .f32⟩
  | .hbm, ⟨58, _⟩ => ⟨S100000x64, .f32⟩
  | .hbm, ⟨59, _⟩ => ⟨S800000x1, .i32⟩
  | .hbm, ⟨60, _⟩ => ⟨S100000x64, .f32⟩
  | .hbm, ⟨61, _⟩ => ⟨S100000x64, .f32⟩
  | .hbm, ⟨62, _⟩ => ⟨S1x64, .f32⟩
  | .hbm, ⟨63, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S1x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S1x64, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S64x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16_0 : Ref sig .tc := ⟨.hbm, 27, rfl⟩
abbrev main_v16_1 : Ref sig .tc := ⟨.hbm, 28, rfl⟩
abbrev main_v16_2 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S100000x64 : S_.BroadcastsInDim S100000x64 (![] : Fin 0 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S1x64_S1x64 : S1x64.ShapeCasts S1x64
  broadcasts_S1x64_S5000x64 : S1x64.Broadcasts S5000x64
  reduces_S5000x64_S64 : S5000x64.Reduces [0] S64
  bcast_S_S1x64 : S_.BroadcastsInDim S1x64 (![] : Fin 0 → Fin S1x64.rank)
  gather_S100000x64_S800000x1_S800000x64_1_0_n_n_0_1_164_wf : GatherDims.WF S100000x64 S800000x1 S800000x64 [1] [0] [] [0] [] 1 ![1, 64]
  scatter_S100000x64_S800000x1_S800000x64_1_0_0_1_wf : ScatterDims.WF S100000x64 S800000x1 S800000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)

variable [Facts₀]

def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v14) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16_0) S5000x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v16_1) S1x64.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16_2) S1x64.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v16_0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v30) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v42) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v44) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x800000 : Shape := ⟨2, ![2, 800000]⟩
abbrev S64x64 : Shape := ⟨2, ![64, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S1x64 : Shape := ⟨2, ![1, 64]⟩

abbrev nBuf : Space → Nat
  | .hbm => 95
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x64, .f32⟩
  | .hbm, ⟨21, _⟩ => ⟨S_, .f32⟩
  | .hbm, ⟨22, _⟩ => ⟨S100000x64, .f32⟩
  | .hbm, ⟨23, _⟩ => ⟨S800000x1, .i32⟩
  | .hbm, ⟨24, _⟩ => ⟨S100000x64, .f32⟩
  | .hbm, ⟨25, _⟩ => ⟨S100000x64, .f32⟩
  | .hbm, ⟨26, _⟩ => ⟨S100000x64, .f32⟩
  | .hbm, ⟨27, _⟩ => ⟨S1x64, .f32⟩
  | .hbm, ⟨28, _⟩ => ⟨S100000x64, .f32⟩
  | .hbm, ⟨29, _⟩ => ⟨S100000x64, .f32⟩
  | .hbm, ⟨30, _⟩ => ⟨S_, .f32⟩
  | .hbm, ⟨31, _⟩ => ⟨S64, .f32⟩
  | .hbm, ⟨32, _⟩ => ⟨S_, .f32⟩
  | .hbm, ⟨33, _⟩ => ⟨S64, .f32⟩
  | .hbm, ⟨34, _⟩ => ⟨S64, .f32⟩
  | .hbm, ⟨35, _⟩ => ⟨S_, .i32⟩
  | .hbm, ⟨36, _⟩ => ⟨S_, .f32⟩
  | .hbm, ⟨37, _⟩ => ⟨S64, .f32⟩
  | .hbm, ⟨38, _⟩ => ⟨S1x64, .f32⟩
  | .hbm, ⟨39, _⟩ => ⟨S_, .f32⟩
  | .hbm, ⟨40, _⟩ => ⟨S1x64, .f32⟩
  | .hbm, ⟨41, _⟩ => ⟨S1x64, .f32⟩
  | .hbm, ⟨42, _⟩ => ⟨S100000x64, .f32⟩
  | .hbm, ⟨43, _⟩ => ⟨S100000x64, .f32⟩
  | .hbm, ⟨44, _⟩ => ⟨S100000x64, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S64, .f32⟩
  | .hbm, ⟨50, _⟩ => ⟨S64, .f32⟩
  | .hbm, ⟨51, _⟩ => ⟨S64, .f32⟩
  | .hbm, ⟨52, _⟩ => ⟨S_, .f32⟩
  | .hbm, ⟨53, _⟩ => ⟨S_, .i1⟩
  | .hbm, ⟨54, _⟩ => ⟨S_, .f32⟩
  | .hbm, ⟨55, _⟩ => ⟨S_, .f32⟩
  | .hbm, ⟨56, _⟩ => ⟨S64, .f32⟩
  | .hbm, ⟨57, _⟩ => ⟨S64, .f32⟩
  | .hbm, ⟨58, _⟩ => ⟨S1x64, .f32⟩
  | .hbm, ⟨59, _⟩ => ⟨S100000x64, .f32⟩
  | .hbm, ⟨60, _⟩ => ⟨S100000x64, .f32⟩
  | .hbm, ⟨61, _⟩ => ⟨S_, .f32⟩
  | .hbm, ⟨62, _⟩ => ⟨S64, .f32⟩
  | .hbm, ⟨63, _⟩ => ⟨S64, .f32⟩
  | .hbm, ⟨64, _⟩ => ⟨S64, .f32⟩
  | .hbm, ⟨65, _⟩ => ⟨S1x64, .f32⟩
  | .hbm, ⟨66, _⟩ => ⟨S100000x64, .f32⟩
  | .hbm, ⟨67, _⟩ => ⟨S100000x64, .f32⟩
  | .hbm, ⟨68, _⟩ => ⟨S1x64, .f32⟩
  | .hbm, ⟨69, _⟩ => ⟨S100000x64, .f32⟩
  | .hbm, ⟨70, _⟩ => ⟨S100000x64, .f32⟩
  | .hbm, ⟨71, _⟩ => ⟨S1x64, .f32⟩
  | .hbm, ⟨72, _⟩ => ⟨S100000x64, .f32⟩
  | .hbm, ⟨73, _⟩ => ⟨S100000x64, .f32⟩
  | .hbm, ⟨74, _⟩ => ⟨S_, .f32⟩
  | .hbm, ⟨75, _⟩ => ⟨S100000x64, .f32⟩
  | .hbm, ⟨76, _⟩ => ⟨S100000x64, .f32⟩
  | .hbm, ⟨77, _⟩ => ⟨S_, .i32⟩
  | .hbm, ⟨78, _⟩ => ⟨S800000, .i32⟩
  | .hbm, ⟨79, _⟩ => ⟨S800000, .i1⟩
  | .hbm, ⟨80, _⟩ => ⟨S_, .i32⟩
  | .hbm, ⟨81, _⟩ => ⟨S800000, .i32⟩
  | .hbm, ⟨82, _⟩ => ⟨S800000, .i32⟩
  | .hbm, ⟨83, _⟩ => ⟨S800000, .i32⟩
  | .hbm, ⟨84, _⟩ => ⟨S800000x1, .i32⟩
  | .hbm, ⟨85, _⟩ => ⟨S800000x64, .f32⟩
  | .hbm, ⟨86, _⟩ => ⟨S_, .f32⟩
  | .hbm, ⟨87, _⟩ => ⟨S100000x64, .f32⟩
  | .hbm, ⟨88, _⟩ => ⟨S800000x1, .i32⟩
  | .hbm, ⟨89, _⟩ => ⟨S100000x64, .f32⟩
  | .hbm, ⟨90, _⟩ => ⟨S100000x64, .f32⟩
  | .hbm, ⟨91, _⟩ => ⟨S100000x64, .f32⟩
  | .hbm, ⟨92, _⟩ => ⟨S1x64, .f32⟩
  | .hbm, ⟨93, _⟩ => ⟨S100000x64, .f32⟩
  | .hbm, ⟨94, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_call0_cst : Ref sig .tc := ⟨.hbm, 36, rfl⟩
abbrev main_call0_v0 : Ref sig .tc := ⟨.hbm, 37, rfl⟩
abbrev main_call0_v1 : Ref sig .tc := ⟨.hbm, 38, rfl⟩
abbrev main_call0_cst_0 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_v5 : Ref sig .tc := ⟨.hbm, 43, rfl⟩
abbrev main_call0_v6 : Ref sig .tc := ⟨.hbm, 44, rfl⟩
abbrev main_call0_v7 : Ref sig .tc := ⟨.hbm, 45, rfl⟩
abbrev main_call0_cst_1 : Ref sig .tc := ⟨.hbm, 46, rfl⟩
abbrev main_call0_v8 : Ref sig .tc := ⟨.hbm, 47, rfl⟩
abbrev main_call0_cst_2 : Ref sig .tc := ⟨.hbm, 48, rfl⟩
abbrev main_call0_v9 : Ref sig .tc := ⟨.hbm, 49, rfl⟩
abbrev main_call0_v10 : Ref sig .tc := ⟨.hbm, 50, rfl⟩
abbrev main_call0_v11 : Ref sig .tc := ⟨.hbm, 51, rfl⟩
abbrev main_call0_cst_3 : Ref sig .tc := ⟨.hbm, 52, rfl⟩
abbrev main_call0_v12 : Ref sig .tc := ⟨.hbm, 53, rfl⟩
abbrev main_call0_cst_4 : Ref sig .tc := ⟨.hbm, 54, rfl⟩
abbrev main_call0_call0_v0 : Ref sig .tc := ⟨.hbm, 55, rfl⟩
abbrev main_call0_call0_v1 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_cst_4 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_call1_cst : Ref sig .tc := ⟨.hbm, 74, rfl⟩
abbrev main_call1_v0 : Ref sig .tc := ⟨.hbm, 75, rfl⟩
abbrev main_v38 : Ref sig .tc := ⟨.hbm, 76, rfl⟩
abbrev main_c_5 : Ref sig .tc := ⟨.hbm, 77, rfl⟩
abbrev main_v39 : Ref sig .tc := ⟨.hbm, 78, rfl⟩
abbrev main_v40 : Ref sig .tc := ⟨.hbm, 79, rfl⟩
abbrev main_c_6 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_cst_7 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  gather_S100000x64_S800000x1_S800000x64_1_0_n_n_0_1_164_wf : GatherDims.WF S100000x64 S800000x1 S800000x64 [1] [0] [] [0] [] 1 ![1, 64]
  scatter_S100000x64_S800000x1_S800000x64_1_0_0_1_wf : ScatterDims.WF S100000x64 S800000x1 S800000x64 [1] [0] [0] 1
  dot_S100000x64_S64x64_S100000x64_1_0_0_1_n_n_wf : DotDims.WF S100000x64 S64x64 S100000x64 [1] [0] [0] [1] [] []

variable [Facts₀]

def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelRun.lean ====
/-
  The kernel program's run with its RESULT named.  The program is three kernel regions among stretches of host
  operations; the contents of every buffer at each boundary are a fold from the launch memory (`Gen.W1` … `Gen.W6`:
  a stretch applies its operations, a region leaves in each of its arrays what its write-backs leave).  Every weakly
  fair execution terminates, nothing faulting, with every unscoped buffer at the last boundary's contents `Gen.W6`:
  read at the result buffer this names the program's result, and read at the arguments it gives them back unchanged.
-/
import proofs.«149663_j27539330301987_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    boundary's contents, and the argument arrays end as launched. -/
theorem run : θ_run defs (onTc (τ := τ) (main (F := F))) ⟨m, fun _ => 0, ρ⟩ (fun r => ∀ c : Dev nD,
      r.2.mem ((c.tc : Thread nD τ).loc main_v44) = W6 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v44 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Cert.KernelIdeal.RunValue

end
-- ==== Proof.RefTerms.lean ====
/-
  The reference program's stages as functions, each the printed operations in the printed order, at the extended
  reals.  `aggregate` adds to every node's row the sum of the rows its incoming edges gather; `lin` is a dense
  layer; `colMean` / `colVar` are the per-feature mean and biased variance over the nodes; `bnRelu` normalises with
  them and rectifies; `out` is the whole program: two aggregate-then-dense layers with the normalisation between.
-/
import proofs.«149663_j27539330301987_1_alg».proof.ReferenceIdeal
import proofs.«149663_j27539330301987_1_alg».proof.Proof.Gen.ReferenceIdeal
import Idealize.ShloMosaic.PureOps.Ideal

noncomputable section

namespace Cert.ReferenceIdeal.Terms

open Cert.ReferenceIdeal Cert.ReferenceIdeal.Facts₀
open Idealize.ShloMosaic

/-- The row of source nodes and the row of destination nodes of the edge list. -/
def srcRow (ei : IVec S2x800000 32) : IVec S800000 32 :=
  shapeCast S800000 (extractStridedSlice S1x800000 ![0, 0] ei slices_S2x800000_S1x800000_0_0) shapeCasts_S1x800000_S800000
def dstRow (ei : IVec S2x800000 32) : IVec S800000 32 :=
  shapeCast S800000 (extractStridedSlice S1x800000 ![1, 0] ei slices_S2x800000_S1x800000_1_0) shapeCasts_S1x800000_S800000

/-- A feature matrix plus, scattered onto the destination rows, the rows gathered at the (normalised) sources. -/
def aggregate (x : FVec Ideal S100000x64 .f32) (src dst : IVec S800000 32) : FVec Ideal S100000x64 .f32 :=
  addf x (Host.scatterAdd scatter_S100000x64_S800000x1_S800000x64_1_0_0_1
    (broadcastInDim S100000x64 ![] bcast_S_S100000x64 (constant (F := Ideal) S_ .f32 0x00000000#32))
    (broadcastInDim S800000x1 ![0] bcast_S800000_S800000x1_0 dst)
    (Host.gather gather_S100000x64_S800000x1_S800000x64_1_0_n_n_0_1_164 x
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 100000#32))) src))))

/-- A 64-vector repeated down the 100000 rows. -/
def rows (v : FVec Ideal S64 .f32) : FVec Ideal S100000x64 .f32 :=
  broadcastInDim S100000x64 ![0, 1] bcast_S1x64_S100000x64_0_1 (broadcastInDim S1x64 ![1] bcast_S64_S1x64_1 v)

/-- A dense layer: the matrix product with the weights, plus the bias on every row. -/
def lin (a : FVec Ideal S100000x64 .f32) (W : FVec Ideal S64x64 .f32) (b : FVec Ideal S64 .f32) : FVec Ideal S100000x64 .f32 :=
  addf (Host.dotGeneral (F := Ideal) dot_S100000x64_S64x64_S100000x64_1_0_0_1_n_n none a W) (rows b)

/-- The per-feature sum over the nodes, from zero. -/
def colSum (h : FVec Ideal S100000x64 .f32) : FVec Ideal S64 .f32 :=
  Host.reduceAdd (F := Ideal) h (constant (F := Ideal) S_ .f32 0x00000000#32) reducesTo_S100000x64_S64_d0 h_S_

/-- The per-feature mean: the sum divided by 100000. -/
def colMean (h : FVec Ideal S100000x64 .f32) : FVec Ideal S64 .f32 :=
  Host.divf (F := Ideal) (colSum h) (broadcastInDim S64 ![] bcast_S_S64 (constant (F := Ideal) S_ .f32 0x47C35000#32))

/-- The divisor of the variance: 100000 less the (zero) degrees-of-freedom correction. -/
def varDivisor : FVec Ideal S_ .f32 :=
  subf (constant (F := Ideal) S_ .f32 0x47C35000#32) (sitofp (F := Ideal) .f32 (constantI S_ 32 0#32))

/-- The deviations from the mean (the mean taken through a 1 x 64 row, as the variance's own function does). -/
def deviations (h : FVec Ideal S100000x64 .f32) : FVec Ideal S100000x64 .f32 :=
  subf h (broadcastInDim S100000x64 ![0, 1] bcast_S1x64_S100000x64_0_1
    (Host.divf (F := Ideal) (broadcastInDim S1x64 ![1] bcast_S64_S1x64_1 (colSum h))
      (broadcastInDim S1x64 ![] bcast_S_S1x64 (constant (F := Ideal) S_ .f32 0x47C35000#32))))

/-- The per-feature biased variance: the mean of the squared deviations, kept when the divisor is positive. -/
def colVar (h : FVec Ideal S100000x64 .f32) : FVec Ideal S64 .f32 :=
  select (broadcastInDim S64 ![] bcast_S_S64 (cmpf .ogt varDivisor (constant (F := Ideal) S_ .f32 0x00000000#32)))
    (Host.divf (F := Ideal) (colSum (mulf (deviations h) (deviations h))) (broadcastInDim S64 ![] bcast_S_S64 varDivisor))
    (broadcastInDim S64 ![] bcast_S_S64 (id (constant (F := Ideal) S_ .f32 0x7FC00000#32)))

/-- Normalise by the column statistics, scale, shift, rectify. -/
def bnRelu (h : FVec Ideal S100000x64 .f32) (g be : FVec Ideal S64 .f32) : FVec Ideal S100000x64 .f32 :=
  maximumf
    (addf
      (mulf
        (mulf (subf h (rows (colMean h)))
          (rows (Host.rsqrt (F := Ideal) (addf (colVar h) (broadcastInDim S64 ![] bcast_S_S64 (constant (F := Ideal) S_ .f32 0x3727C5AC#32))))))
        (rows g))
      (rows be))
    (broadcastInDim S100000x64 ![] bcast_S_S100000x64 (constant (F := Ideal) S_ .f32 0x00000000#32))

/-- The reference's result as a function of its eight arguments. -/
def out (x : FVec Ideal S100000x64 .f32) (ei : IVec S2x800000 32) (W1 : FVec Ideal S64x64 .f32) (b1 g1 be1 : FVec Ideal S64 .f32)
    (W2 : FVec Ideal S64x64 .f32) (b2 : FVec Ideal S64 .f32) : FVec Ideal S100000x64 .f32 :=
  lin (aggregate (bnRelu (lin (aggregate x (srcRow ei) (dstRow ei)) W1 b1) g1 be1) (srcRow ei) (dstRow ei)) W2 b2

end Cert.ReferenceIdeal.Terms

end
-- ==== Proof.RefRun.lean ====
/-
  The reference program's run.

  The reference's @main calls three module-local functions (the column variance, which itself calls the
  three-way select, and the rectifier).  A call executes the callee's body on the call's own buffers, so @main
  is one straight line of eighty-seven operations.  From any memory, every weakly fair execution of it ends with
  each buffer at the composition of the operations that lead to it: the result buffer at `Terms.out` of the eight
  argument arrays (aggregate, dense layer, normalise and rectify, aggregate again, dense layer), the arguments
  unchanged.

  Both aggregations use the same source and destination rows: the second recomputes the wrapped source indices
  from the same two slices of the edge table with the same operations, so its term is the first one's at
  another feature matrix.
-/
import proofs.«149663_j27539330301987_1_alg».proof.Proof.Gen.ReferenceIdeal
import proofs.«149663_j27539330301987_1_alg».proof.Proof.RefTerms
import Idealize.ShloMosaic.Lib.StableHlo.Run
import Idealize.ShloMosaic.PureOps.Ideal

noncomputable section

namespace Cert.ReferenceIdeal.RefRun

open Cert.ReferenceIdeal Cert.ReferenceIdeal.Facts₀ Idealize.ShloMosaic Idealize.ShloMosaic.TcCoe Idealize.SL.Sem
  Idealize.ShloMosaic.StableHlo

/-! ## The program as one straight line -/

variable {F : FTy → Type} [FloatOps F]

/-- @main's operations in order, each call's body written out at the call's buffers: the variance's nineteen and
    its select's three after @main's first twenty-eight, the rectifier's three after the next sixteen. -/
abbrev ops : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_c (constantI S_ 32 0#32),
    StableHlo.unary main_c main_v4 (broadcastInDim S800000 ![] bcast_S_S800000 : (⟨S_, .i32⟩ : BufTy).Contents (Elt F) → (⟨S800000, .i32⟩ : BufTy).Contents (Elt F)),
    StableHlo.binary main_v1 main_v4 main_v5 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 100000#32),
    StableHlo.unary main_c_0 main_v6 (broadcastInDim S800000 ![] bcast_S_S800000 : (⟨S_, .i32⟩ : BufTy).Contents (Elt F) → (⟨S800000, .i32⟩ : BufTy).Contents (Elt F)),
    StableHlo.binary main_v1 main_v6 main_v7 (addi : (⟨S800000, .i32⟩ : BufTy).Contents (Elt F) → (⟨S800000, .i32⟩ : BufTy).Contents (Elt F) → (⟨S800000, .i32⟩ : BufTy).Contents (Elt F)),
    StableHlo.ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v8 main_v9 (broadcastInDim S800000x1 ![0] bcast_S800000_S800000x1_0 : (⟨S800000, .i32⟩ : BufTy).Contents (Elt F) → (⟨S800000x1, .i32⟩ : BufTy).Contents (Elt F)),
    StableHlo.binary main_arg0 main_v9 main_v10 ((fun x i => Host.gather gather_S100000x64_S800000x1_S800000x64_1_0_n_n_0_1_164 x i) : (⟨S100000x64, .f32⟩ : BufTy).Contents (Elt F) → (⟨S800000x1, .i32⟩ : BufTy).Contents (Elt F) → (⟨S800000x64, .f32⟩ : BufTy).Contents (Elt F)),
    StableHlo.nullary main_cst (constant S_ .f32 0x00000000#32),
    StableHlo.unary main_cst main_v11 (broadcastInDim S100000x64 ![] bcast_S_S100000x64 : (⟨S_, .f32⟩ : BufTy).Contents (Elt F) → (⟨S100000x64, .f32⟩ : BufTy).Contents (Elt F)),
    StableHlo.unary main_v3 main_v12 (broadcastInDim S800000x1 ![0] bcast_S800000_S800000x1_0 : (⟨S800000, .i32⟩ : BufTy).Contents (Elt F) → (⟨S800000x1, .i32⟩ : BufTy).Contents (Elt F)),
    StableHlo.ternary main_v11 main_v12 main_v10 main_v13 ((fun x i u => Host.scatterAdd scatter_S100000x64_S800000x1_S800000x64_1_0_0_1 x i u) : (⟨S100000x64, .f32⟩ : BufTy).Contents (Elt F) → (⟨S800000x1, .i32⟩ : BufTy).Contents (Elt F) → (⟨S800000x64, .f32⟩ : BufTy).Contents (Elt F) → (⟨S100000x64, .f32⟩ : BufTy).Contents (Elt F)),
    StableHlo.binary main_arg0 main_v13 main_v14 (addf : (⟨S100000x64, .f32⟩ : BufTy).Contents (Elt F) → (⟨S100000x64, .f32⟩ : BufTy).Contents (Elt F) → (⟨S100000x64, .f32⟩ : BufTy).Contents (Elt F)),
    StableHlo.binary main_v14 main_arg2 main_v15 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg3 main_v16 (broadcastInDim S1x64 ![1] bcast_S64_S1x64_1 : (⟨S64, .f32⟩ : BufTy).Contents (Elt F) → (⟨S1x64, .f32⟩ : BufTy).Contents (Elt F)),
    StableHlo.unary main_v16 main_v17 (broadcastInDim S100000x64 ![0, 1] bcast_S1x64_S100000x64_0_1 : (⟨S1x64, .f32⟩ : BufTy).Contents (Elt F) → (⟨S100000x64, .f32⟩ : BufTy).Contents (Elt F)),
    StableHlo.binary main_v15 main_v17 main_v18 (addf : (⟨S100000x64, .f32⟩ : BufTy).Contents (Elt F) → (⟨S100000x64, .f32⟩ : BufTy).Contents (Elt F) → (⟨S100000x64, .f32⟩ : BufTy).Contents (Elt F)),
    StableHlo.nullary main_cst_1 (constant S_ .f32 0x00000000#32),
    StableHlo.binary main_v18 main_cst_1 main_v19 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_2 (constant S_ .f32 0x47C35000#32),
    StableHlo.unary main_cst_2 main_v20 (broadcastInDim S64 ![] bcast_S_S64 : (⟨S_, .f32⟩ : BufTy).Contents (Elt F) → (⟨S64, .f32⟩ : BufTy).Contents (Elt F)),
    StableHlo.binary main_v19 main_v20 main_v21 (Host.divf : (⟨S64, .f32⟩ : BufTy).Contents (Elt F) → (⟨S64, .f32⟩ : BufTy).Contents (Elt F) → (⟨S64, .f32⟩ : BufTy).Contents (Elt F)),
    StableHlo.nullary main_c_3 (constantI S_ 32 0#32),
    StableHlo.TRef.nullary main_call0.cst (constant S_ .f32 0x00000000#32),
    StableHlo.TRef.binary (TRef.of main_v18 : TRef sig ⟨S100000x64, .f32⟩) main_call0.cst main_call0.v0 (fun x v => Host.reduceAdd x v reducesTo_S100000x64_S64_d0 h_S_),
    StableHlo.TRef.unary main_call0.v0 main_call0.v1 (broadcastInDim S1x64 ![1] bcast_S64_S1x64_1),
    StableHlo.TRef.nullary main_call0.cst_0 (constant S_ .f32 0x47C35000#32),
    StableHlo.TRef.unary main_call0.cst_0 main_call0.v2 (broadcastInDim S1x64 ![] bcast_S_S1x64),
    StableHlo.TRef.binary main_call0.v1 main_call0.v2 main_call0.v3 Host.divf,
    StableHlo.TRef.unary main_call0.v3 main_call0.v4 (broadcastInDim S100000x64 ![0, 1] bcast_S1x64_S100000x64_0_1),
    StableHlo.TRef.binary (TRef.of main_v18 : TRef sig ⟨S100000x64, .f32⟩) main_call0.v4 main_call0.v5 subf,
    StableHlo.TRef.binary main_call0.v5 main_call0.v5 main_call0.v6 mulf,
    StableHlo.TRef.unary (TRef.of main_c_3 : TRef sig ⟨S_, .i32⟩) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x64_S64_d0 h_S_),
    StableHlo.TRef.unary main_call0.v8 main_call0.v10 (broadcastInDim S64 ![] bcast_S_S64),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S64 ![] bcast_S_S64),
    StableHlo.TRef.ternary main_call0.v12 main_call0.v11 main_call0.call0.v1 main_call0.call0.v2 (fun p a b => select (broadcastInDim S64 ![] bcast_S_S64 p) a b),
    StableHlo.unary main_v21 main_v23 (broadcastInDim S1x64 ![1] bcast_S64_S1x64_1 : (⟨S64, .f32⟩ : BufTy).Contents (Elt F) → (⟨S1x64, .f32⟩ : BufTy).Contents (Elt F)),
    StableHlo.unary main_v23 main_v24 (broadcastInDim S100000x64 ![0, 1] bcast_S1x64_S100000x64_0_1 : (⟨S1x64, .f32⟩ : BufTy).Contents (Elt F) → (⟨S100000x64, .f32⟩ : BufTy).Contents (Elt F)),
    StableHlo.binary main_v18 main_v24 main_v25 (subf : (⟨S100000x64, .f32⟩ : BufTy).Contents (Elt F) → (⟨S100000x64, .f32⟩ : BufTy).Contents (Elt F) → (⟨S100000x64, .f32⟩ : BufTy).Contents (Elt F)),
    StableHlo.nullary main_cst_4 (constant S_ .f32 0x3727C5AC#32),
    StableHlo.unary main_cst_4 main_v26 (broadcastInDim S64 ![] bcast_S_S64 : (⟨S_, .f32⟩ : BufTy).Contents (Elt F) → (⟨S64, .f32⟩ : BufTy).Contents (Elt F)),
    StableHlo.binary main_v22 main_v26 main_v27 (addf : (⟨S64, .f32⟩ : BufTy).Contents (Elt F) → (⟨S64, .f32⟩ : BufTy).Contents (Elt F) → (⟨S64, .f32⟩ : BufTy).Contents (Elt F)),
    StableHlo.unary main_v27 main_v28 (Host.rsqrt : (⟨S64, .f32⟩ : BufTy).Contents (Elt F) → (⟨S64, .f32⟩ : BufTy).Contents (Elt F)),
    StableHlo.unary main_v28 main_v29 (broadcastInDim S1x64 ![1] bcast_S64_S1x64_1 : (⟨S64, .f32⟩ : BufTy).Contents (Elt F) → (⟨S1x64, .f32⟩ : BufTy).Contents (Elt F)),
    StableHlo.unary main_v29 main_v30 (broadcastInDim S100000x64 ![0, 1] bcast_S1x64_S100000x64_0_1 : (⟨S1x64, .f32⟩ : BufTy).Contents (Elt F) → (⟨S100000x64, .f32⟩ : BufTy).Contents (Elt F)),
    StableHlo.binary main_v25 main_v30 main_v31 (mulf : (⟨S100000x64, .f32⟩ : BufTy).Contents (Elt F) → (⟨S100000x64, .f32⟩ : BufTy).Contents (Elt F) → (⟨S100000x64, .f32⟩ : BufTy).Contents (Elt F)),
    StableHlo.unary main_arg4 main_v32 (broadcastInDim S1x64 ![1] bcast_S64_S1x64_1 : (⟨S64, .f32⟩ : BufTy).Contents (Elt F) → (⟨S1x64, .f32⟩ : BufTy).Contents (Elt F)),
    StableHlo.unary main_v32 main_v33 (broadcastInDim S100000x64 ![0, 1] bcast_S1x64_S100000x64_0_1 : (⟨S1x64, .f32⟩ : BufTy).Contents (Elt F) → (⟨S100000x64, .f32⟩ : BufTy).Contents (Elt F)),
    StableHlo.binary main_v31 main_v33 main_v34 (mulf : (⟨S100000x64, .f32⟩ : BufTy).Contents (Elt F) → (⟨S100000x64, .f32⟩ : BufTy).Contents (Elt F) → (⟨S100000x64, .f32⟩ : BufTy).Contents (Elt F)),
    StableHlo.unary main_arg5 main_v35 (broadcastInDim S1x64 ![1] bcast_S64_S1x64_1 : (⟨S64, .f32⟩ : BufTy).Contents (Elt F) → (⟨S1x64, .f32⟩ : BufTy).Contents (Elt F)),
    StableHlo.unary main_v35 main_v36 (broadcastInDim S100000x64 ![0, 1] bcast_S1x64_S100000x64_0_1 : (⟨S1x64, .f32⟩ : BufTy).Contents (Elt F) → (⟨S100000x64, .f32⟩ : BufTy).Contents (Elt F)),
    StableHlo.binary main_v34 main_v36 main_v37 (addf : (⟨S100000x64, .f32⟩ : BufTy).Contents (Elt F) → (⟨S100000x64, .f32⟩ : BufTy).Contents (Elt F) → (⟨S100000x64, .f32⟩ : BufTy).Contents (Elt F)),
    StableHlo.TRef.nullary main_call1.cst (constant S_ .f32 0x00000000#32),
    StableHlo.TRef.unary main_call1.cst main_call1.v0 (broadcastInDim S100000x64 ![] bcast_S_S100000x64),
    StableHlo.TRef.binary (TRef.of main_v37 : TRef sig ⟨S100000x64, .f32⟩) main_call1.v0 main_call1.v1 maximumf,
    StableHlo.nullary main_c_5 (constantI S_ 32 0#32),
    StableHlo.unary main_c_5 main_v39 (broadcastInDim S800000 ![] bcast_S_S800000 : (⟨S_, .i32⟩ : BufTy).Contents (Elt F) → (⟨S800000, .i32⟩ : BufTy).Contents (Elt F)),
    StableHlo.binary main_v1 main_v39 main_v40 (cmpi .slt : (⟨S800000, .i32⟩ : BufTy).Contents (Elt F) → (⟨S800000, .i32⟩ : BufTy).Contents (Elt F) → (⟨S800000, .i1⟩ : BufTy).Contents (Elt F)),
    StableHlo.nullary main_c_6 (constantI S_ 32 100000#32),
    StableHlo.unary main_c_6 main_v41 (broadcastInDim S800000 ![] bcast_S_S800000 : (⟨S_, .i32⟩ : BufTy).Contents (Elt F) → (⟨S800000, .i32⟩ : BufTy).Contents (Elt F)),
    StableHlo.binary main_v1 main_v41 main_v42 (addi : (⟨S800000, .i32⟩ : BufTy).Contents (Elt F) → (⟨S800000, .i32⟩ : BufTy).Contents (Elt F) → (⟨S800000, .i32⟩ : BufTy).Contents (Elt F)),
    StableHlo.ternary main_v40 main_v42 main_v1 main_v43 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v43 main_v44 (broadcastInDim S800000x1 ![0] bcast_S800000_S800000x1_0 : (⟨S800000, .i32⟩ : BufTy).Contents (Elt F) → (⟨S800000x1, .i32⟩ : BufTy).Contents (Elt F)),
    StableHlo.binary main_v38 main_v44 main_v45 ((fun x i => Host.gather gather_S100000x64_S800000x1_S800000x64_1_0_n_n_0_1_164 x i) : (⟨S100000x64, .f32⟩ : BufTy).Contents (Elt F) → (⟨S800000x1, .i32⟩ : BufTy).Contents (Elt F) → (⟨S800000x64, .f32⟩ : BufTy).Contents (Elt F)),
    StableHlo.nullary main_cst_7 (constant S_ .f32 0x00000000#32),
    StableHlo.unary main_cst_7 main_v46 (broadcastInDim S100000x64 ![] bcast_S_S100000x64 : (⟨S_, .f32⟩ : BufTy).Contents (Elt F) → (⟨S100000x64, .f32⟩ : BufTy).Contents (Elt F)),
    StableHlo.unary main_v3 main_v47 (broadcastInDim S800000x1 ![0] bcast_S800000_S800000x1_0 : (⟨S800000, .i32⟩ : BufTy).Contents (Elt F) → (⟨S800000x1, .i32⟩ : BufTy).Contents (Elt F)),
    StableHlo.ternary main_v46 main_v47 main_v45 main_v48 ((fun x i u => Host.scatterAdd scatter_S100000x64_S800000x1_S800000x64_1_0_0_1 x i u) : (⟨S100000x64, .f32⟩ : BufTy).Contents (Elt F) → (⟨S800000x1, .i32⟩ : BufTy).Contents (Elt F) → (⟨S800000x64, .f32⟩ : BufTy).Contents (Elt F) → (⟨S100000x64, .f32⟩ : BufTy).Contents (Elt F)),
    StableHlo.binary main_v38 main_v48 main_v49 (addf : (⟨S100000x64, .f32⟩ : BufTy).Contents (Elt F) → (⟨S100000x64, .f32⟩ : BufTy).Contents (Elt F) → (⟨S100000x64, .f32⟩ : BufTy).Contents (Elt F)),
    StableHlo.binary main_v49 main_arg6 main_v50 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg7 main_v51 (broadcastInDim S1x64 ![1] bcast_S64_S1x64_1 : (⟨S64, .f32⟩ : BufTy).Contents (Elt F) → (⟨S1x64, .f32⟩ : BufTy).Contents (Elt F)),
    StableHlo.unary main_v51 main_v52 (broadcastInDim S100000x64 ![0, 1] bcast_S1x64_S100000x64_0_1 : (⟨S1x64, .f32⟩ : BufTy).Contents (Elt F) → (⟨S100000x64, .f32⟩ : BufTy).Contents (Elt F)),
    StableHlo.binary main_v50 main_v52 main_v53 (addf : (⟨S100000x64, .f32⟩ : BufTy).Contents (Elt F) → (⟨S100000x64, .f32⟩ : BufTy).Contents (Elt F) → (⟨S100000x64, .f32⟩ : BufTy).Contents (Elt F)) ]

-- eighty-seven binds re-associated: the rewrite under the chain recurses once per statement
set_option maxRecDepth 8192 in
set_option maxHeartbeats 4000000 in
/-- @main is that straight line: the two windows and the three functions unfolded at their calls, both sides are
    one chain of steps once sequencing is re-associated. -/
theorem main_eq (c : Dev nD) : main (F := F) c = seq ops := by
  simp only [main, main_part0, main_part1, fn_var.body, fn_where.body, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub ..⟩

/-! ## What the line leaves in each buffer -/

attribute [local irreducible] Host.gather Host.scatterAdd Host.reduceAdd in
set_option maxRecDepth 65536 in
set_option maxHeartbeats 40000000 in
/-- The result buffer after the line is `Terms.out` of the arguments' contents: each operation's result at its own
    buffer is its function of its operands' contents, every other buffer is untouched, and what this leaves is
    the stages' composition term for term (the gather, the accumulating scatter and the column sums stay
    folded: the equation never looks inside them). -/
theorem out_eq (V : Valuation τ sig (Elt Ideal)) :
    after (ops (F := Ideal)) V (main_v53 : DevRef τ sig) = Terms.out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) := by
  after_results_simp
  rfl

set_option maxRecDepth 8192 in
set_option maxHeartbeats 4000000 in
/-- No operation writes argument 0: it holds at the end what it held at the start. -/
theorem arg0_eq (V : Valuation τ sig (Elt Ideal)) : after (ops (F := Ideal)) V (main_arg0 : DevRef τ sig) = V (main_arg0 : DevRef τ sig) := by
  after_results_simp

set_option maxRecDepth 8192 in
set_option maxHeartbeats 4000000 in
/-- No operation writes argument 1: it holds at the end what it held at the start. -/
theorem arg1_eq (V : Valuation τ sig (Elt Ideal)) : after (ops (F := Ideal)) V (main_arg1 : DevRef τ sig) = V (main_arg1 : DevRef τ sig) := by
  after_results_simp

set_option maxRecDepth 8192 in
set_option maxHeartbeats 4000000 in
/-- No operation writes argument 2: it holds at the end what it held at the start. -/
theorem arg2_eq (V : Valuation τ sig (Elt Ideal)) : after (ops (F := Ideal)) V (main_arg2 : DevRef τ sig) = V (main_arg2 : DevRef τ sig) := by
  after_results_simp

set_option maxRecDepth 8192 in
set_option maxHeartbeats 4000000 in
/-- No operation writes argument 3: it holds at the end what it held at the start. -/
theorem arg3_eq (V : Valuation τ sig (Elt Ideal)) : after (ops (F := Ideal)) V (main_arg3 : DevRef τ sig) = V (main_arg3 : DevRef τ sig) := by
  after_results_simp

set_option maxRecDepth 8192 in
set_option maxHeartbeats 4000000 in
/-- No operation writes argument 4: it holds at the end what it held at the start. -/
theorem arg4_eq (V : Valuation τ sig (Elt Ideal)) : after (ops (F := Ideal)) V (main_arg4 : DevRef τ sig) = V (main_arg4 : DevRef τ sig) := by
  after_results_simp

set_option maxRecDepth 8192 in
set_option maxHeartbeats 4000000 in
/-- No operation writes argument 5: it holds at the end what it held at the start. -/
theorem arg5_eq (V : Valuation τ sig (Elt Ideal)) : after (ops (F := Ideal)) V (main_arg5 : DevRef τ sig) = V (main_arg5 : DevRef τ sig) := by
  after_results_simp

set_option maxRecDepth 8192 in
set_option maxHeartbeats 4000000 in
/-- No operation writes argument 6: it holds at the end what it held at the start. -/
theorem arg6_eq (V : Valuation τ sig (Elt Ideal)) : after (ops (F := Ideal)) V (main_arg6 : DevRef τ sig) = V (main_arg6 : DevRef τ sig) := by
  after_results_simp

set_option maxRecDepth 8192 in
set_option maxHeartbeats 4000000 in
/-- No operation writes argument 7: it holds at the end what it held at the start. -/
theorem arg7_eq (V : Valuation τ sig (Elt Ideal)) : after (ops (F := Ideal)) V (main_arg7 : DevRef τ sig) = V (main_arg7 : DevRef τ sig) := by
  after_results_simp

/-- On every device, from any memory with zero counters: every weakly fair execution of @main terminates with the
    result buffer at `Terms.out` of the eight arguments' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v53) = Terms.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c main_v53).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _)⟩)
    (run_seq scopedRefs_eq scopedSems_eq defs main (fun _ => ops) main_eq (fun _ => ops_sub) m ρ)

end Cert.ReferenceIdeal.RefRun

end
-- ==== Proof.LibBatchMoments.lean ====
import Mathlib.Data.EReal.Inv
import Mathlib.Algebra.BigOperators.Fin
import Mathlib.Algebra.Order.BigOperators.Ring.Finset
import Mathlib.Tactic.Ring
import Mathlib.Tactic.Linarith

/-!
# Mean and biased variance of a finite family of reals, on the extended reals

For a finite family `X` of extended reals all of whose members are real numbers, and a real `c` with
`c · (number of members) = 1`, the biased variance written as the mean of the squared deviations,
`(∑ (X i − μ)²) · c` with `μ = (∑ X i) · c`, equals the one-pass form `max ((∑ X i²) · c − μ², 0)`:
over the reals `∑ (xᵢ − μ)² = ∑ xᵢ² − n μ²`, and the clamp at zero changes nothing because a mean of squares is
not negative.  Finiteness is what lets the extended reals' sums, products and differences be the reals' here.

Also: a finite sum of reals read in the extended reals is the real sum (`coe_sum`), and members that are real keep
sums, products, differences real (`isReal_*`).
-/

namespace Cert.LibBatchMoments

open Finset

variable {ι : Type*}

/-- An extended real that is a real number. -/
def IsReal (x : EReal) : Prop := ∃ r : ℝ, x = (r : EReal)

theorem isReal_coe (r : ℝ) : IsReal (r : EReal) := ⟨r, rfl⟩
theorem isReal_zero : IsReal (0 : EReal) := ⟨0, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  rcases le_total x y with h | h
  · rwa [max_eq_right h]
  · rwa [max_eq_left h]

/-- A finite sum of reals, read in the extended reals, is the real sum. -/
theorem coe_sum (x : ι → ℝ) (s : Finset ι) : (∑ i ∈ s, (x i : EReal)) = ((∑ i ∈ s, x i : ℝ) : EReal) := by
  classical
  induction s using Finset.induction_on with
  | empty => simp
  | insert a s ha ih => rw [Finset.sum_insert ha, Finset.sum_insert ha, ih, EReal.coe_add]

theorem isReal_sum (X : ι → EReal) (s : Finset ι) (hX : ∀ i ∈ s, IsReal (X i)) : IsReal (∑ i ∈ s, X i) := by
  classical
  induction s using Finset.induction_on with
  | empty => exact ⟨0, by simp⟩
  | insert a s ha ih =>
    rw [Finset.sum_insert ha]
    exact (hX a (Finset.mem_insert_self a s)).add (ih fun i hi => hX i (Finset.mem_insert_of_mem hi))

variable [Fintype ι]

/-- Over the reals: the mean of the squared deviations from the mean is the mean of the squares less the squared
    mean, when `c` is the reciprocal of the number of members. -/
theorem real_variance (x : ι → ℝ) (c : ℝ) (hc : c * (Fintype.card ι : ℝ) = 1) (S Q μ : ℝ)
    (hS : S = ∑ j, x j) (hQ : Q = ∑ i, x i * x i) (hμ : μ = S * c) :
    (∑ i, (x i - μ) * (x i - μ)) * c = Q * c - μ * μ := by
  have h1 : ∑ i, (x i - μ) * (x i - μ) = Q - 2 * μ * S + (Fintype.card ι : ℝ) * (μ * μ) := by
    have : ∀ i, (x i - μ) * (x i - μ) = x i * x i - 2 * μ * x i + μ * μ := fun i => by ring
    simp only [this, Finset.sum_add_distrib, Finset.sum_sub_distrib, ← Finset.mul_sum, Finset.sum_const,
      Finset.card_univ, nsmul_eq_mul, ← hS, ← hQ]
    ring
  have hN : (Fintype.card ι : ℝ) * c = 1 := by rw [mul_comm]; exact hc
  rw [h1]
  calc (Q - 2 * μ * S + (Fintype.card ι : ℝ) * (μ * μ)) * c
      = Q * c - 2 * μ * (S * c) + ((Fintype.card ι : ℝ) * c) * (μ * μ) := by ring
    _ = Q * c - 2 * μ * μ + 1 * (μ * μ) := by rw [← hμ, hN]
    _ = Q * c - μ * μ := by ring

theorem recip_card_nonneg (c : ℝ) (hc : c * (Fintype.card ι : ℝ) = 1) : 0 ≤ c := by
  by_contra h
  have h : c < 0 := lt_of_not_ge h
  have hN : (0 : ℝ) ≤ (Fintype.card ι : ℝ) := Nat.cast_nonneg _
  nlinarith

/-- The sum of the squared deviations of reals from a real, read in the extended reals, is the real sum. -/
theorem coe_sum_sq_dev (x : ι → ℝ) (a : ℝ) :
    (∑ i, (((x i : ℝ) : EReal) - (a : EReal)) * (((x i : ℝ) : EReal) - (a : EReal)))
      = ((∑ i, (x i - a) * (x i - a) : ℝ) : EReal) := by
  rw [← coe_sum]
  exact Finset.sum_congr rfl fun i _ => by rw [← EReal.coe_sub, ← EReal.coe_mul]

/-- THE TWO SPELLINGS OF A BIASED VARIANCE AGREE on a family of real numbers: the mean of the squared deviations
    is the clamped difference of the mean of the squares and the squared mean. -/
theorem variance_two_ways (X : ι → EReal) (hX : ∀ i, IsReal (X i)) (c : ℝ) (hc : c * (Fintype.card ι : ℝ) = 1)
    (μ : EReal) (hμ : μ = (∑ i, X i) * (c : EReal)) :
    (∑ i, (X i - μ) * (X i - μ)) * (c : EReal) = max ((∑ i, X i * X i) * (c : EReal) - μ * μ) 0 := by
  obtain ⟨x, rfl⟩ : ∃ x : ι → ℝ, X = fun i => (x i : EReal) :=
    ⟨fun i => (hX i).choose, funext fun i => (hX i).choose_spec⟩
  have hμ' : μ = (((∑ i, x i) * c : ℝ) : EReal) := by
    rw [hμ, coe_sum, EReal.coe_mul]
  subst hμ'
  have e1 := coe_sum_sq_dev x ((∑ i, x i) * c)
  have e2 : (∑ i, ((x i : ℝ) : EReal) * ((x i : ℝ) : EReal)) = ((∑ i, x i * x i : ℝ) : EReal) := by
    rw [← coe_sum]
    exact Finset.sum_congr rfl fun i _ => by rw [← EReal.coe_mul]
  rw [e1, e2, ← EReal.coe_mul, ← EReal.coe_mul, ← EReal.coe_mul, ← EReal.coe_sub,
    ← real_variance x c hc _ _ _ rfl rfl rfl]
  rw [max_eq_left]
  rw [← EReal.coe_zero, EReal.coe_le_coe_iff]
  exact mul_nonneg (Finset.sum_nonneg fun i _ => mul_self_nonneg _) (recip_card_nonneg c hc)

/-- The variance above is a real number, and not negative. -/
theorem variance_isReal_nonneg (X : ι → EReal) (hX : ∀ i, IsReal (X i)) (c : ℝ) (hc : c * (Fintype.card ι : ℝ) = 1)
    (μ : EReal) (hμ : μ = (∑ i, X i) * (c : EReal)) :
    ∃ v : ℝ, 0 ≤ v ∧ (∑ i, (X i - μ) * (X i - μ)) * (c : EReal) = (v : EReal) := by
  obtain ⟨x, rfl⟩ : ∃ x : ι → ℝ, X = fun i => (x i : EReal) :=
    ⟨fun i => (hX i).choose, funext fun i => (hX i).choose_spec⟩
  have hμ' : μ = (((∑ i, x i) * c : ℝ) : EReal) := by
    rw [hμ, coe_sum, EReal.coe_mul]
  subst hμ'
  refine ⟨(∑ i, (x i - (∑ i, x i) * c) * (x i - (∑ i, x i) * c)) * c,
    mul_nonneg (Finset.sum_nonneg fun i _ => mul_self_nonneg _) (recip_card_nonneg c hc), ?_⟩
  have e1 := coe_sum_sq_dev x ((∑ i, x i) * c)
  simp only [] at e1 ⊢
  rw [e1, ← EReal.coe_mul]

end Cert.LibBatchMoments
-- ==== Proof.FiniteInputs.lean ====
/-
  What the precondition says.  It is the conjunction, over the seven float arguments, of "every entry's absolute
  value is below +inf" (each an `and`-reduction of the entrywise comparisons to a single bit).  On the extended reals
  an entry `x` with max x (-x) < ⊤ is neither infinity, that is, a real number.  So under the precondition every
  float argument is an array of real numbers — what the distributive laws of the value proof need.
-/
import proofs.«149663_j27539330301987_1_alg».proof.Pre_finite_inputs
import proofs.«149663_j27539330301987_1_alg».proof.Proof.Gen.Pre_finite_inputs
import proofs.«149663_j27539330301987_1_alg».proof.Proof.LibBatchMoments
import Idealize.ShloMosaic.Lib.ReduceAll
import Idealize.ShloMosaic.Lib.Affine
import Idealize.ShloMosaic.Lib.ValueIdx
import Idealize.ShloMosaic.PureOps.Ideal

noncomputable section

namespace Cert.FiniteInputs

open Idealize.ShloMosaic Cert.Pre_finite_inputs Cert.LibBatchMoments

variable [Cert.Pre_finite_inputs.Facts]

/-- The scalar shape has one index. -/
instance : Subsingleton S_.Idx := ⟨fun a b => funext fun d => d.elim0⟩

/-- An extended real whose absolute value is below +inf (the f32 pattern of +inf denotes ⊤) is a real number. -/
theorem isReal_of_abs_lt_top (x : EReal)
    (h : Ideal.cmp .olt (max x (-x)) (Ideal.ofBits .f32 0x7F800000#32) = 1#1) : IsReal x := by
  have ht : Ideal.ofBits .f32 0x7F800000#32 = ⊤ := by simp [Ideal.ofBits, Ideal.ieee]
  rw [ht] at h
  induction x using EReal.rec with
  | bot => simp [Ideal.cmp] at h
  | coe r => exact ⟨r, rfl⟩
  | top => simp [Ideal.cmp] at h

/-- Under the precondition every float argument is an array of real numbers. -/
theorem real_of_pre (a0 : FVec Ideal S100000x64 .f32) (a1 : IVec S2x800000 32) (a2 : FVec Ideal S64x64 .f32)
    (a3 a4 a5 : FVec Ideal S64 .f32) (a6 : FVec Ideal S64x64 .f32) (a7 : FVec Ideal S64 .f32)
    (h : fn (F := Ideal) a0 a1 a2 a3 a4 a5 a6 a7 = fun _ => 1#1) :
    (∀ i, IsReal (a0 i)) ∧ (∀ i, IsReal (a2 i)) ∧ (∀ i, IsReal (a3 i)) ∧ (∀ i, IsReal (a4 i))
      ∧ (∀ i, IsReal (a5 i)) ∧ (∀ i, IsReal (a6 i)) ∧ (∀ i, IsReal (a7 i)) := by
  have h0 := congrFun h ValueIdx.ix0
  dsimp only [fn, fn_part1] at h0
  simp only [andi, IntOp.andi_eq_one] at h0
  obtain ⟨⟨⟨⟨⟨⟨e0, e2⟩, e3⟩, e4⟩, e5⟩, e6⟩, e7⟩ := h0
  exact ⟨fun i => isReal_of_abs_lt_top _ (Host.reduce_andi_all _ _ _ _ _ e0 i),
    fun i => isReal_of_abs_lt_top _ (Host.reduce_andi_all _ _ _ _ _ e2 i),
    fun i => isReal_of_abs_lt_top _ (Host.reduce_andi_all _ _ _ _ _ e3 i),
    fun i => isReal_of_abs_lt_top _ (Host.reduce_andi_all _ _ _ _ _ e4 i),
    fun i => isReal_of_abs_lt_top _ (Host.reduce_andi_all _ _ _ _ _ e5 i),
    fun i => isReal_of_abs_lt_top _ (Host.reduce_andi_all _ _ _ _ _ e6 i),
    fun i => isReal_of_abs_lt_top _ (Host.reduce_andi_all _ _ _ _ _ e7 i)⟩

end Cert.FiniteInputs

end
-- ==== Proof.KernelTerms.lean ====
/-
  The host-side stages of the kernel program as functions, each the printed operations in the printed order, at
  the extended reals.  `aggregate` adds to every node's row the sum of the rows its incoming edges gather (the same
  composition serves both layers); `biasRow` lays a 64-vector out as a 1 x 64 row; `meanRow`, `scaleRow`, `shiftRow`
  turn the accumulated column sums `s` and sums of squares `q` into the normalisation's mean, scale γ·rsqrt(var+ε) and
  shift β − mean·scale, the variance taken as the mean of the squares less the squared mean.
-/
import proofs.«149663_j27539330301987_1_alg».proof.KernelIdeal
import proofs.«149663_j27539330301987_1_alg».proof.Proof.Gen.KernelIdeal
import Idealize.ShloMosaic.PureOps.Ideal

noncomputable section

namespace Cert.KernelIdeal.Terms

open Cert.KernelIdeal Cert.KernelIdeal.Facts₀
open Idealize.ShloMosaic

/-- The row of source nodes and the row of destination nodes of the edge list. -/
def srcRow (ei : IVec S2x800000 32) : IVec S800000 32 :=
  shapeCast S800000 (extractStridedSlice S1x800000 ![0, 0] ei slices_S2x800000_S1x800000_0_0) shapeCasts_S1x800000_S800000
def dstRow (ei : IVec S2x800000 32) : IVec S800000 32 :=
  shapeCast S800000 (extractStridedSlice S1x800000 ![1, 0] ei slices_S2x800000_S1x800000_1_0) shapeCasts_S1x800000_S800000

/-- A feature matrix plus, scattered onto the destination rows, the rows gathered at the (normalised) sources. -/
def aggregate (x : FVec Ideal S100000x64 .f32) (src dst : IVec S800000 32) : FVec Ideal S100000x64 .f32 :=
  addf x (Host.scatterAdd scatter_S100000x64_S800000x1_S800000x64_1_0_0_1
    (broadcastInDim S100000x64 ![] bcast_S_S100000x64 (constant (F := Ideal) S_ .f32 0x00000000#32))
    (broadcastInDim S800000x1 ![0] bcast_S800000_S800000x1_0 dst)
    (Host.gather gather_S100000x64_S800000x1_S800000x64_1_0_n_n_0_1_164 x
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 100000#32))) src))))

/-- A 64-vector as a 1 x 64 row. -/
def biasRow (b : FVec Ideal S64 .f32) : FVec Ideal S1x64 .f32 := shapeCast S1x64 b shapeCasts_S64_S1x64

/-- A row of column totals divided by 100000. -/
def meanRow (s : FVec Ideal S1x64 .f32) : FVec Ideal S1x64 .f32 :=
  Host.divf (F := Ideal) s (broadcastInDim S1x64 ![] bcast_S_S1x64 (constant (F := Ideal) S_ .f32 0x47C35000#32))

/-- The normalisation's scale: γ · rsqrt (E[h²] − E[h]² + ε). -/
def scaleRow (g : FVec Ideal S64 .f32) (s q : FVec Ideal S1x64 .f32) : FVec Ideal S1x64 .f32 :=
  mulf (biasRow g) (Host.rsqrt (F := Ideal) (addf (subf (meanRow q) (mulf (meanRow s) (meanRow s)))
    (broadcastInDim S1x64 ![] bcast_S_S1x64 (constant (F := Ideal) S_ .f32 0x3727C5AC#32))))

/-- The normalisation's shift: β − E[h] · scale. -/
def shiftRow (be g : FVec Ideal S64 .f32) (s q : FVec Ideal S1x64 .f32) : FVec Ideal S1x64 .f32 :=
  subf (biasRow be) (mulf (meanRow s) (scaleRow g s q))

end Cert.KernelIdeal.Terms

end
-- ==== Proof.HostStretches.lean ====
/-
  The kernel program's buffers at each region's entry, read through the stretches of host operations.
  The program is: stretch 0 (the edge rows, the first aggregate, the first bias as a row), region 0 (dense layer
  and its column statistics), stretch 1 (mean, variance, scale and shift rows), region 1 (normalise and rectify),
  stretch 2 (the second aggregate, the second bias as a row), region 2 (dense layer).  A stretch's result is its
  operations applied to the contents before it; a region changes only its own arrays, so the edge rows computed in
  stretch 0 and the program's arguments are still there, unchanged, in stretches 1 and 2.
-/
import proofs.«149663_j27539330301987_1_alg».proof.Proof.Gen.KernelIdeal.Frame
import proofs.«149663_j27539330301987_1_alg».proof.Proof.KernelTerms
import Idealize.ShloMosaic.Lib.StableHlo.Run
import Idealize.ShloMosaic.PureOps.Ideal

noncomputable section

namespace Cert.KernelIdeal.Stretches

open Cert.KernelIdeal Cert.KernelIdeal.Gen Cert.KernelIdeal.Terms
open Idealize.ShloMosaic Idealize.ShloMosaic.TcCoe Idealize.SL.Sem

variable (m : (ℓ : Loc nD τ sig) → Buf (Elt Ideal) ℓ) (ρ : Dev nD → PrngReg)

/-! ## Stretch 0: region 0's entry -/

set_option maxHeartbeats 4000000 in
/-- Region 0's row-block operand is the first aggregate of the node features. -/
theorem V1_v14 (c : Dev nD) : V1 m ρ c main_v14
    = aggregate (m ((c : Thread nD τ).loc main_arg0)) (srcRow (m ((c : Thread nD τ).loc main_arg1)))
        (dstRow (m ((c : Thread nD τ).loc main_arg1))) := by
  show StableHlo.after (hostOps0 (F := Ideal)) (W0 m ρ c) (Proc.devRef .tc main_v14) = _
  after_results_simp
  rfl

set_option maxHeartbeats 4000000 in
theorem V1_arg2 (c : Dev nD) : V1 m ρ c main_arg2 = m ((c : Thread nD τ).loc main_arg2) := by
  show StableHlo.after (hostOps0 (F := Ideal)) (W0 m ρ c) (Proc.devRef .tc main_arg2) = _
  after_results_simp

set_option maxHeartbeats 4000000 in
theorem V1_v15 (c : Dev nD) : V1 m ρ c main_v15 = biasRow (m ((c : Thread nD τ).loc main_arg3)) := by
  show StableHlo.after (hostOps0 (F := Ideal)) (W0 m ρ c) (Proc.devRef .tc main_v15) = _
  after_results_simp
  rfl

set_option maxHeartbeats 4000000 in
theorem W1_v1 (c : Dev nD) : W1 m ρ c (Proc.devRef .tc main_v1) = srcRow (m ((c : Thread nD τ).loc main_arg1)) := by
  show StableHlo.after (hostOps0 (F := Ideal)) (W0 m ρ c) (Proc.devRef .tc main_v1) = _
  after_results_simp
  rfl

set_option maxHeartbeats 4000000 in
theorem W1_v3 (c : Dev nD) : W1 m ρ c (Proc.devRef .tc main_v3) = dstRow (m ((c : Thread nD τ).loc main_arg1)) := by
  show StableHlo.after (hostOps0 (F := Ideal)) (W0 m ρ c) (Proc.devRef .tc main_v3) = _
  after_results_simp
  rfl

set_option maxHeartbeats 4000000 in
/-- No operation of stretch 0 writes an argument. -/
theorem W1_arg (c : Dev nD) :
    W1 m ρ c (Proc.devRef .tc main_arg4) = m ((c : Thread nD τ).loc main_arg4)
    ∧ W1 m ρ c (Proc.devRef .tc main_arg5) = m ((c : Thread nD τ).loc main_arg5)
    ∧ W1 m ρ c (Proc.devRef .tc main_arg6) = m ((c : Thread nD τ).loc main_arg6)
    ∧ W1 m ρ c (Proc.devRef .tc main_arg7) = m ((c : Thread nD τ).loc main_arg7) := by
  refine ⟨?_, ?_, ?_, ?_⟩
  · show StableHlo.after (hostOps0 (F := Ideal)) (W0 m ρ c) (Proc.devRef .tc main_arg4) = _
    after_results_simp
  · show StableHlo.after (hostOps0 (F := Ideal)) (W0 m ρ c) (Proc.devRef .tc main_arg5) = _
    after_results_simp
  · show StableHlo.after (hostOps0 (F := Ideal)) (W0 m ρ c) (Proc.devRef .tc main_arg6) = _
    after_results_simp
  · show StableHlo.after (hostOps0 (F := Ideal)) (W0 m ρ c) (Proc.devRef .tc main_arg7) = _
    after_results_simp

/-! ## Region 0's exit: its three outputs named, everything else as entered -/

theorem W2_v16_0 (c : Dev nD) : W2 m ρ c (Proc.devRef .tc main_v16_0) = (dat0 (V1 m ρ) c).arrAt 3 cfg0.N := W2_arr m ρ c 3
theorem W2_v16_1 (c : Dev nD) : W2 m ρ c (Proc.devRef .tc main_v16_1) = (dat0 (V1 m ρ) c).arrAt 4 cfg0.N := W2_arr m ρ c 4
theorem W2_v16_2 (c : Dev nD) : W2 m ρ c (Proc.devRef .tc main_v16_2) = (dat0 (V1 m ρ) c).arrAt 5 cfg0.N := W2_arr m ρ c 5
theorem W2_v1 (c : Dev nD) : W2 m ρ c (Proc.devRef .tc main_v1) = srcRow (m ((c : Thread nD τ).loc main_arg1)) :=
  (W2_of_ne m ρ c main_v1 (by decide)).trans (W1_v1 m ρ c)
theorem W2_v3 (c : Dev nD) : W2 m ρ c (Proc.devRef .tc main_v3) = dstRow (m ((c : Thread nD τ).loc main_arg1)) :=
  (W2_of_ne m ρ c main_v3 (by decide)).trans (W1_v3 m ρ c)
theorem W2_arg4 (c : Dev nD) : W2 m ρ c (Proc.devRef .tc main_arg4) = m ((c : Thread nD τ).loc main_arg4) :=
  (W2_of_ne m ρ c main_arg4 (by decide)).trans (W1_arg m ρ c).1
theorem W2_arg5 (c : Dev nD) : W2 m ρ c (Proc.devRef .tc main_arg5) = m ((c : Thread nD τ).loc main_arg5) :=
  (W2_of_ne m ρ c main_arg5 (by decide)).trans (W1_arg m ρ c).2.1
theorem W2_arg6 (c : Dev nD) : W2 m ρ c (Proc.devRef .tc main_arg6) = m ((c : Thread nD τ).loc main_arg6) :=
  (W2_of_ne m ρ c main_arg6 (by decide)).trans (W1_arg m ρ c).2.2.1
theorem W2_arg7 (c : Dev nD) : W2 m ρ c (Proc.devRef .tc main_arg7) = m ((c : Thread nD τ).loc main_arg7) :=
  (W2_of_ne m ρ c main_arg7 (by decide)).trans (W1_arg m ρ c).2.2.2

/-! ## Stretch 1: region 1's entry -/

set_option maxHeartbeats 4000000 in
/-- Region 1's row-block operand is region 0's first output, the pre-activations. -/
theorem V3_v16_0 (c : Dev nD) : V3 m ρ c main_v16_0 = (dat0 (V1 m ρ) c).arrAt 3 cfg0.N := by
  show StableHlo.after (hostOps1 (F := Ideal)) (W2 m ρ c) (Proc.devRef .tc main_v16_0) = _
  after_results_simp
  exact W2_v16_0 m ρ c

set_option maxHeartbeats 4000000 in
/-- The scale row, from region 0's column sums and sums of squares. -/
theorem V3_v27 (c : Dev nD) : V3 m ρ c main_v27
    = scaleRow (m ((c : Thread nD τ).loc main_arg4)) ((dat0 (V1 m ρ) c).arrAt 4 cfg0.N) ((dat0 (V1 m ρ) c).arrAt 5 cfg0.N) := by
  show StableHlo.after (hostOps1 (F := Ideal)) (W2 m ρ c) (Proc.devRef .tc main_v27) = _
  after_results_simp
  rw [W2_arg4, W2_v16_1, W2_v16_2]
  rfl

set_option maxHeartbeats 4000000 in
/-- The shift row. -/
theorem V3_v30 (c : Dev nD) : V3 m ρ c main_v30
    = shiftRow (m ((c : Thread nD τ).loc main_arg5)) (m ((c : Thread nD τ).loc main_arg4))
        ((dat0 (V1 m ρ) c).arrAt 4 cfg0.N) ((dat0 (V1 m ρ) c).arrAt 5 cfg0.N) := by
  show StableHlo.after (hostOps1 (F := Ideal)) (W2 m ρ c) (Proc.devRef .tc main_v30) = _
  after_results_simp
  rw [W2_arg4, W2_arg5, W2_v16_1, W2_v16_2]
  rfl

set_option maxHeartbeats 4000000 in
theorem W3_carried (c : Dev nD) :
    W3 m ρ c (Proc.devRef .tc main_v1) = srcRow (m ((c : Thread nD τ).loc main_arg1))
    ∧ W3 m ρ c (Proc.devRef .tc main_v3) = dstRow (m ((c : Thread nD τ).loc main_arg1))
    ∧ W3 m ρ c (Proc.devRef .tc main_arg7) = m ((c : Thread nD τ).loc main_arg7)
    ∧ W3 m ρ c (Proc.devRef .tc main_arg6) = m ((c : Thread nD τ).loc main_arg6) := by
  refine ⟨?_, ?_, ?_, ?_⟩
  · show StableHlo.after (hostOps1 (F := Ideal)) (W2 m ρ c) (Proc.devRef .tc main_v1) = _
    after_results_simp
    exact W2_v1 m ρ c
  · show StableHlo.after (hostOps1 (F := Ideal)) (W2 m ρ c) (Proc.devRef .tc main_v3) = _
    after_results_simp
    exact W2_v3 m ρ c
  · show StableHlo.after (hostOps1 (F := Ideal)) (W2 m ρ c) (Proc.devRef .tc main_arg7) = _
    after_results_simp
    exact W2_arg7 m ρ c
  · show StableHlo.after (hostOps1 (F := Ideal)) (W2 m ρ c) (Proc.devRef .tc main_arg6) = _
    after_results_simp
    exact W2_arg6 m ρ c

/-! ## Region 1's exit -/

theorem W4_v31 (c : Dev nD) : W4 m ρ c (Proc.devRef .tc main_v31) = (dat1 (V3 m ρ) c).arrAt 3 cfg1.N := W4_arr m ρ c 3
theorem W4_v1 (c : Dev nD) : W4 m ρ c (Proc.devRef .tc main_v1) = srcRow (m ((c : Thread nD τ).loc main_arg1)) :=
  (W4_of_ne m ρ c main_v1 (by decide)).trans (W3_carried m ρ c).1
theorem W4_v3 (c : Dev nD) : W4 m ρ c (Proc.devRef .tc main_v3) = dstRow (m ((c : Thread nD τ).loc main_arg1)) :=
  (W4_of_ne m ρ c main_v3 (by decide)).trans (W3_carried m ρ c).2.1
theorem W4_arg7 (c : Dev nD) : W4 m ρ c (Proc.devRef .tc main_arg7) = m ((c : Thread nD τ).loc main_arg7) :=
  (W4_of_ne m ρ c main_arg7 (by decide)).trans (W3_carried m ρ c).2.2.1
theorem W4_arg6 (c : Dev nD) : W4 m ρ c (Proc.devRef .tc main_arg6) = m ((c : Thread nD τ).loc main_arg6) :=
  (W4_of_ne m ρ c main_arg6 (by decide)).trans (W3_carried m ρ c).2.2.2

/-! ## Stretch 2: region 2's entry -/

set_option maxHeartbeats 4000000 in
/-- Region 2's row-block operand is the second aggregate, of region 1's output. -/
theorem V5_v42 (c : Dev nD) : V5 m ρ c main_v42
    = aggregate ((dat1 (V3 m ρ) c).arrAt 3 cfg1.N) (srcRow (m ((c : Thread nD τ).loc main_arg1)))
        (dstRow (m ((c : Thread nD τ).loc main_arg1))) := by
  show StableHlo.after (hostOps2 (F := Ideal)) (W4 m ρ c) (Proc.devRef .tc main_v42) = _
  after_results_simp
  rw [W4_v31, W4_v1, W4_v3]
  rfl

set_option maxHeartbeats 4000000 in
/-- The second weight matrix is the argument as launched. -/
theorem V5_arg6 (c : Dev nD) : V5 m ρ c main_arg6 = m ((c : Thread nD τ).loc main_arg6) := by
  show StableHlo.after (hostOps2 (F := Ideal)) (W4 m ρ c) (Proc.devRef .tc main_arg6) = _
  after_results_simp
  exact W4_arg6 m ρ c

set_option maxHeartbeats 4000000 in
theorem V5_v43 (c : Dev nD) : V5 m ρ c main_v43 = biasRow (m ((c : Thread nD τ).loc main_arg7)) := by
  show StableHlo.after (hostOps2 (F := Ideal)) (W4 m ρ c) (Proc.devRef .tc main_v43) = _
  after_results_simp
  rw [W4_arg7]
  rfl

/-! ## Region 2's exit: the program's result -/

theorem W6_v44 (c : Dev nD) : W6 m ρ c (Proc.devRef .tc main_v44) = (dat2 (V5 m ρ) c).arrAt 3 cfg2.N := W6_arr m ρ c 3

end Cert.KernelIdeal.Stretches

end
-- ==== Proof.Spec.lean ====
/-
  The shared vocabulary of this certificate's value proofs, over the extended reals and literal shapes; no program
  is imported.  A node-feature matrix has 100000 rows (nodes) and 64 columns (features); the row blocks the three
  kernels walk have 5000 rows, twenty of them.

  * `dense A W b i j` is the entry (i, j) of a dense layer: row `i` of `A` against column `j` of `W`, plus the
    bias `b` held as a 1 x 64 row.
  * `rowOf t r` is the row of the whole matrix that position `r` of block `t` holds: 5000 t + r.
-/
import Idealize.ShloMosaic.PureOps.Ideal
import Idealize.ShloMosaic.Lib.ValueIdx

noncomputable section

namespace Cert.Spec

open Idealize.ShloMosaic Idealize.ShloMosaic.ValueIdx

/-- The index types of the arrays the value proofs speak of. -/
abbrev NodeIdx : Type := (⟨2, ![100000, 64]⟩ : Shape).Idx
abbrev WeightIdx : Type := (⟨2, ![64, 64]⟩ : Shape).Idx
abbrev RowIdx : Type := (⟨2, ![1, 64]⟩ : Shape).Idx

/-- Entry (i, j) of a dense layer: the sum over the 64 input features `k` of A(i,k) * W(k,j), plus the bias at
    column `j` (the bias is a 1 x 64 row). -/
def dense (A : NodeIdx → EReal) (W : WeightIdx → EReal) (b : RowIdx → EReal) (i : Fin 100000) (j : Fin 64) : EReal :=
  (∑ k : Fin 64, A (ix2 i k) * W (ix2 k j)) + b (ix2 0 j)

/-- The row of the whole matrix at position `r` of row block `t`: 5000 t + r. -/
def rowOf (t : Fin 20) (r : Fin 5000) : Fin 100000 := ⟨5000 * t.val + r.val, by have := t.isLt; have := r.isLt; omega⟩

theorem rowOf_val (t : Fin 20) (r : Fin 5000) : (rowOf t r).val = 5000 * t.val + r.val := rfl

end Cert.Spec

end
-- ==== Proof.BlockValues.lean ====
/-
  Regions 1 and 2 of the kernel program, read as arrays over the extended reals.

  Each of the two regions walks the 100000 x 64 matrix it reads in twenty row blocks of 5000 rows. At block t it loads
  the whole block and the whole of its two small operands, computes one 5000 x 64 block of the result, and stores it
  as block t of the result matrix. So after the region the result matrix is ONE function of the arrays the region
  finds, entry by entry:

  * region 1: entry (i, j) is max (A(i,j) * s(0,j) + b(0,j), 0) — every column scaled, shifted, and clamped below
    at zero (`affineRelu`);
  * region 2: entry (i, j) is (the sum over k of A(i,k) * W(k,j)) + b(0,j) — a dense layer (`Spec.dense`).

  For each region, in order: the body's result at an entry of a block, over any loaded values; which entry of which
  array a loaded or stored block entry is (on each axis: block index times block size plus the coordinate inside
  the block, the block index maps decided once over the twenty points); what point t writes back is block t of the
  function; every row i lies in the block of point i / 5000; hence the array after the region.
-/
import proofs.«149663_j27539330301987_1_alg».proof.Proof.Gen.KernelIdeal.Frame
import proofs.«149663_j27539330301987_1_alg».proof.Proof.Spec
import Idealize.ShloMosaic.Lib.Pipeline.Value
import Idealize.ShloMosaic.Lib.ValueLayout
import Idealize.ShloMosaic.PureOps.Ideal.Laws

noncomputable section

namespace Cert.KernelIdeal.BlockValues

open Cert.KernelIdeal Cert.KernelIdeal.Gen Cert.Spec Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-- The zero offsets of a whole-block access, as a constant function. -/
theorem zero_offsets : (![0, 0] : Fin 2 → Nat) = fun _ => 0 := funext fun a => by fin_cases a <;> rfl

/-- The row of the whole matrix that row `r` of the block at grid point `t` holds (the grid has twenty points). -/
abbrev rowAt {N : Nat} (hN : N = 20) (t : Fin N) (r : Fin 5000) : Fin 100000 := rowOf (Fin.cast hN t) r

theorem rowAt_val {N : Nat} (hN : N = 20) (t : Fin N) (r : Fin 5000) : (rowAt hN t r).val = 5000 * t.val + r.val := rfl

/-! ## Region 1: scale, shift, clamp at zero -/

/-- Entry (r, j) of the body's result: the block entry times the scale row's entry j, plus the shift row's entry j,
    and the larger of that and zero. -/
theorem scaleShiftClamp_apply (x0 : Vec Ideal S5000x64 .f32) (x1 x2 : Vec Ideal S1x64 .f32) (r : Fin 5000) (j : Fin 64) :
    k1_pay1 x0 x1 x2 (ix2 r j) = max (x0 (ix2 r j) * x1 (ix2 0 j) + x2 (ix2 0 j)) 0 := by
  unfold k1_pay1
  simp only [shapeCast_self]
  rw [maximumf_apply, addf_apply, mulf_apply, broadcastTo_1b_ab_apply, broadcastTo_1b_ab_apply, broadcast_apply]
  exact congrArg (max _) Ideal.ofBits_zero_f32

/-- Entry (i, j) of a matrix scaled column by column, shifted column by column and clamped below at zero: A(i,j) times
    the scale row's entry j, plus the shift row's entry j, and the larger of that and zero. -/
def affineRelu (A : NodeIdx → EReal) (s b : RowIdx → EReal) (i : Fin 100000) (j : Fin 64) : EReal :=
  max (A (ix2 i j) * s (ix2 0 j) + b (ix2 0 j)) 0

theorem affineRelu_def (A : NodeIdx → EReal) (s b : RowIdx → EReal) (i : Fin 100000) (j : Fin 64) :
    affineRelu A s b i j = max (A (ix2 i j) * s (ix2 0 j) + b (ix2 0 j)) 0 := rfl

/-- The whole output matrix of region 1 as one function of the three arrays the region reads. -/
def scaleShiftClamp (A : NodeIdx → EReal) (s b : RowIdx → EReal) : NodeIdx → EReal :=
  fun x => affineRelu A s b (x 0) (x 1)

theorem scaleShiftClamp_ix2 (A : NodeIdx → EReal) (s b : RowIdx → EReal) (i : Fin 100000) (j : Fin 64) :
    scaleShiftClamp A s b (ix2 i j) = affineRelu A s b i j := rfl

/-- The block index maps of region 1, decided over its twenty grid points: the row-block windows (0 and 3) are at
    block (t, 0), the two row windows (1 and 2) at block (0, 0). -/
theorem index_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Entry (r, j) of the input row block at point `t` is entry (5000 t + r, j) of the matrix. -/
theorem block1_0_apply (c : Dev nD) (t : Fin cfg1.N) (r : Fin 5000) (j : Fin 64) :
    (iblk1 V c 0 t : Vec Ideal S5000x64 .f32) (ix2 r j) = (V c main_v16_0 : NodeIdx → EReal) (ix2 (rowAt N_1 t r) j) := by
  obtain ⟨e0, e1, -⟩ := index_facts1 t
  unfold iblk1
  rw [View.read_apply]
  show V c main_v16_0 _ = V c main_v16_0 _
  refine congrArg (V c main_v16_0) (funext fun a => Fin.ext ?_)
  match a with
  | ⟨0, _⟩ => show win1_0.index t (0 : Fin 2) * 5000 + 1 * r.val = 5000 * t.val + r.val; rw [e0]; omega
  | ⟨1, _⟩ => show win1_0.index t (1 : Fin 2) * 64 + 1 * j.val = j.val; rw [e1]; omega

/-- The scale row's block at any point is the scale row. -/
theorem block1_1_apply (c : Dev nD) (t : Fin cfg1.N) (j : Fin 64) :
    (iblk1 V c 1 t : Vec Ideal S1x64 .f32) (ix2 0 j) = (V c main_v27 : RowIdx → EReal) (ix2 0 j) := by
  obtain ⟨-, -, e2, e3, -⟩ := index_facts1 t
  unfold iblk1
  rw [View.read_apply]
  show V c main_v27 _ = V c main_v27 _
  refine congrArg (V c main_v27) (funext fun a => Fin.ext ?_)
  match a with
  | ⟨0, _⟩ => show win1_1.index t (0 : Fin 2) * 1 + 1 * 0 = 0; rw [e2]
  | ⟨1, _⟩ => show win1_1.index t (1 : Fin 2) * 64 + 1 * j.val = j.val; rw [e3]; omega

/-- The shift row's block at any point is the shift row. -/
theorem block1_2_apply (c : Dev nD) (t : Fin cfg1.N) (j : Fin 64) :
    (iblk1 V c 2 t : Vec Ideal S1x64 .f32) (ix2 0 j) = (V c main_v30 : RowIdx → EReal) (ix2 0 j) := by
  obtain ⟨-, -, -, -, e4, e5, -⟩ := index_facts1 t
  unfold iblk1
  rw [View.read_apply]
  show V c main_v30 _ = V c main_v30 _
  refine congrArg (V c main_v30) (funext fun a => Fin.ext ?_)
  match a with
  | ⟨0, _⟩ => show win1_2.index t (0 : Fin 2) * 1 + 1 * 0 = 0; rw [e4]
  | ⟨1, _⟩ => show win1_2.index t (1 : Fin 2) * 64 + 1 * j.val = j.val; rw [e5]; omega

/-- Entry (r, j) of the output block at point `t` sits at entry (5000 t + r, j) of the output matrix. -/
theorem place1 (t : Fin cfg1.N) (r : Fin 5000) (j : Fin 64) :
    ((cfg1.win 3).blk t).view.emb (ix2 r j : S5000x64.Idx) = (ix2 (rowAt N_1 t r) j : NodeIdx) := by
  obtain ⟨-, -, -, -, -, -, e6, e7⟩ := index_facts1 t
  funext a; apply Fin.ext
  match a with
  | ⟨0, _⟩ => show win1_3.index t (0 : Fin 2) * 5000 + 1 * r.val = 5000 * t.val + r.val; rw [e6]; omega
  | ⟨1, _⟩ => show win1_3.index t (1 : Fin 2) * 64 + 1 * j.val = j.val; rw [e7]; omega

/-- What point `t` writes back is block `t` of `scaleShiftClamp` of the arrays the region finds. -/
theorem flushed1 (c : Dev nD) (t : Fin cfg1.N) :
    (dat1 V c).flushed 3 t
      = ((cfg1.win 3).blk t).view.read (Elt Ideal) (scaleShiftClamp (V c main_v16_0) (V c main_v27) (V c main_v30)) := by
  show (cfg1.win 3).cut (grid1.coords t) ((dat1 V c).after 3 t) = _
  rw [after1_3]
  unfold out1_3
  rw [View.canon_unit_zero zero_offsets]
  simp only [View.ld_unit_zero (S := S5000x64) zero_offsets, View.ld_unit_zero (S := S1x64) zero_offsets]
  funext y
  obtain ⟨r, j, rfl⟩ : ∃ (r : Fin 5000) (j : Fin 64), y = (ix2 r j : S5000x64.Idx) := ⟨y 0, y 1, eq_ix2 y⟩
  rw [View.read_apply]
  refine ((scaleShiftClamp_apply (iblk1 V c 0 t) (iblk1 V c 1 t) (iblk1 V c 2 t) r j).trans ?_).trans
    (congrArg (scaleShiftClamp (V c main_v16_0) (V c main_v27) (V c main_v30)) (place1 t r j)).symm
  rw [block1_0_apply V c t r j, block1_1_apply V c t j, block1_2_apply V c t j]
  rfl

/-- An index of the output matrix is in point `t`'s block iff each coordinate is in the block's range on its axis. -/
theorem mem_block1 (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v31).slice (win1_3.rect t)).set ↔ _
  rw [View.set_slice_whole, Rect.mem_set_unit]
  exact Iff.rfl

/-- Row `i` of the output matrix is in the block of point `i / 5000`. -/
theorem cover1 (i : S100000x64.Idx) : ∃ t : Fin cfg1.N, (cfg1.win 3).flush t = true ∧ i ∈ ((cfg1.win 3).blk t).view.set := by
  have hi0 : (i 0).val < 100000 := idx2_lt0 i
  have hi1 : (i 1).val < 64 := idx2_lt1 i
  have hN : cfg1.N = 20 := N_1
  obtain ⟨t, ht⟩ : ∃ t : Fin cfg1.N, t.val = (i 0).val / 5000 := ⟨⟨(i 0).val / 5000, by omega⟩, rfl⟩
  obtain ⟨-, -, -, -, -, -, e6, e7⟩ := index_facts1 t
  refine ⟨t, flush1_3 t, ?_⟩
  rw [mem_block1]
  intro a
  match a with
  | ⟨0, _⟩ => show win1_3.index t (0 : Fin 2) * 5000 ≤ (i 0).val ∧ (i 0).val < win1_3.index t (0 : Fin 2) * 5000 + 5000; rw [e6, ht]; omega
  | ⟨1, _⟩ => show win1_3.index t (1 : Fin 2) * 64 ≤ (i 1).val ∧ (i 1).val < win1_3.index t (1 : Fin 2) * 64 + 64; rw [e7]; omega

/-- The output matrix of region 1 after the region is `scaleShiftClamp` of the arrays the region finds. -/
theorem array1 (c : Dev nD) :
    (dat1 (F := Ideal) V c).arrAt 3 cfg1.N = scaleShiftClamp (V c main_v16_0) (V c main_v27) (V c main_v30) :=
  (dat1 V c).arrAt_eq_of_cover 3 _ (fun t _ => flushed1 V c t) cover1

/-- REGION 1, entry by entry: the input matrix's entry times the scale row's, plus the shift row's, clamped below at zero. -/
theorem region1_out (c : Dev nD) (i : Fin 100000) (j : Fin 64) :
    ((Gen.dat1 (F := Ideal) V c).arrAt 3 cfg1.N : NodeIdx → EReal) (ix2 i j)
      = affineRelu (V c main_v16_0) (V c main_v27) (V c main_v30) i j :=
  congrFun (array1 V c) (ix2 i j)

/-! ## Region 2: a dense layer -/

/-- The contraction of the body's product: rows of the left block against columns of the right one. -/
abbrev rowsByCols : DotDims S5000x64 S64x64 S5000x64 := dot_S5000x64_S64x64_S5000x64_1_0_0_1_n_n

/-- At output entry (r, j) and contraction position k the left operand is read at (r, k) … -/
theorem rowsByCols_lhs (r : Fin 5000) (j k : Fin 64) :
    rowsByCols.lhsIdx (ix2 r j) ((contrEquiv1 rowsByCols 64 rfl rfl).symm k) = ix2 r k := by
  have hk := contrEquiv1_symm_val rowsByCols 64 rfl rfl k
  funext ax; apply Fin.ext
  match ax with
  | ⟨0, _⟩ => simp [DotDims.lhsIdx, dot_S5000x64_S64x64_S5000x64_1_0_0_1_n_n]; rfl
  | ⟨1, _⟩ => simp [DotDims.lhsIdx, dot_S5000x64_S64x64_S5000x64_1_0_0_1_n_n]; exact hk

/-- … and the right operand at (k, j). -/
theorem rowsByCols_rhs (r : Fin 5000) (j k : Fin 64) :
    rowsByCols.rhsIdx (ix2 r j) ((contrEquiv1 rowsByCols 64 rfl rfl).symm k) = ix2 k j := by
  have hk := contrEquiv1_symm_val rowsByCols 64 rfl rfl k
  funext ax; apply Fin.ext
  match ax with
  | ⟨0, _⟩ => simp [DotDims.rhsIdx, dot_S5000x64_S64x64_S5000x64_1_0_0_1_n_n]; exact hk
  | ⟨1, _⟩ => simp [DotDims.rhsIdx, dot_S5000x64_S64x64_S5000x64_1_0_0_1_n_n]; rfl

/-- Entry (r, j) of the body's result: row r of the block against column j of the weights (the change of float format
    of both operands is the identity on extended reals, and the product accumulates into zero), plus the bias row's entry j. -/
theorem denseBlock_apply (x0 : Vec Ideal S5000x64 .f32) (x1 : Vec Ideal S64x64 .f32) (x2 : Vec Ideal S1x64 .f32) (r : Fin 5000) (j : Fin 64) :
    k2_pay1 x0 x1 x2 (ix2 r j) = (∑ k : Fin 64, x0 (ix2 r k) * x1 (ix2 k j)) + x2 (ix2 0 j) := by
  unfold k2_pay1
  simp only [shapeCast_self]
  rw [addf_apply, broadcastTo_1b_ab_apply]
  refine congrArg (· + x2 (ix2 0 j)) ?_
  refine (Ideal.matmul_constant_zero_apply rowsByCols none _ _ (ix2 r j)).trans ?_
  rw [← Equiv.sum_comp (contrEquiv1 rowsByCols 64 rfl rfl).symm]
  refine Finset.sum_congr rfl fun k _ => ?_
  rw [rowsByCols_lhs, rowsByCols_rhs, truncf_apply, truncf_apply]

/-- The whole output matrix of region 2 as one function of the three arrays the region reads. -/
def denseArray (A : NodeIdx → EReal) (W : WeightIdx → EReal) (b : RowIdx → EReal) : NodeIdx → EReal :=
  fun x => dense A W b (x 0) (x 1)

theorem denseArray_ix2 (A : NodeIdx → EReal) (W : WeightIdx → EReal) (b : RowIdx → EReal) (i : Fin 100000) (j : Fin 64) :
    denseArray A W b (ix2 i j) = dense A W b i j := rfl

/-- The block index maps of region 2, decided over its twenty grid points: the row-block windows (0 and 3) are at
    block (t, 0), the weights and the bias row (windows 1 and 2) at block (0, 0). -/
theorem index_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Entry (r, k) of the input row block at point `t` is entry (5000 t + r, k) of the matrix. -/
theorem block2_0_apply (c : Dev nD) (t : Fin cfg2.N) (r : Fin 5000) (k : Fin 64) :
    (iblk2 V c 0 t : Vec Ideal S5000x64 .f32) (ix2 r k) = (V c main_v42 : NodeIdx → EReal) (ix2 (rowAt N_2 t r) k) := by
  obtain ⟨e0, e1, -⟩ := index_facts2 t
  unfold iblk2
  rw [View.read_apply]
  show V c main_v42 _ = V c main_v42 _
  refine congrArg (V c main_v42) (funext fun a => Fin.ext ?_)
  match a with
  | ⟨0, _⟩ => show win2_0.index t (0 : Fin 2) * 5000 + 1 * r.val = 5000 * t.val + r.val; rw [e0]; omega
  | ⟨1, _⟩ => show win2_0.index t (1 : Fin 2) * 64 + 1 * k.val = k.val; rw [e1]; omega

/-- The weights' block at any point is the whole weight matrix. -/
theorem block2_1_apply (c : Dev nD) (t : Fin cfg2.N) (k j : Fin 64) :
    (iblk2 V c 1 t : Vec Ideal S64x64 .f32) (ix2 k j) = (V c main_arg6 : WeightIdx → EReal) (ix2 k j) := by
  obtain ⟨-, -, e2, e3, -⟩ := index_facts2 t
  unfold iblk2
  rw [View.read_apply]
  show V c main_arg6 _ = V c main_arg6 _
  refine congrArg (V c main_arg6) (funext fun a => Fin.ext ?_)
  match a with
  | ⟨0, _⟩ => show win2_1.index t (0 : Fin 2) * 64 + 1 * k.val = k.val; rw [e2]; omega
  | ⟨1, _⟩ => show win2_1.index t (1 : Fin 2) * 64 + 1 * j.val = j.val; rw [e3]; omega

/-- The bias row's block at any point is the bias row. -/
theorem block2_2_apply (c : Dev nD) (t : Fin cfg2.N) (j : Fin 64) :
    (iblk2 V c 2 t : Vec Ideal S1x64 .f32) (ix2 0 j) = (V c main_v43 : RowIdx → EReal) (ix2 0 j) := by
  obtain ⟨-, -, -, -, e4, e5, -⟩ := index_facts2 t
  unfold iblk2
  rw [View.read_apply]
  show V c main_v43 _ = V c main_v43 _
  refine congrArg (V c main_v43) (funext fun a => Fin.ext ?_)
  match a with
  | ⟨0, _⟩ => show win2_2.index t (0 : Fin 2) * 1 + 1 * 0 = 0; rw [e4]
  | ⟨1, _⟩ => show win2_2.index t (1 : Fin 2) * 64 + 1 * j.val = j.val; rw [e5]; omega

/-- Entry (r, j) of the output block at point `t` sits at entry (5000 t + r, j) of the output matrix. -/
theorem place2 (t : Fin cfg2.N) (r : Fin 5000) (j : Fin 64) :
    ((cfg2.win 3).blk t).view.emb (ix2 r j : S5000x64.Idx) = (ix2 (rowAt N_2 t r) j : NodeIdx) := by
  obtain ⟨-, -, -, -, -, -, e6, e7⟩ := index_facts2 t
  funext a; apply Fin.ext
  match a with
  | ⟨0, _⟩ => show win2_3.index t (0 : Fin 2) * 5000 + 1 * r.val = 5000 * t.val + r.val; rw [e6]; omega
  | ⟨1, _⟩ => show win2_3.index t (1 : Fin 2) * 64 + 1 * j.val = j.val; rw [e7]; omega

/-- What point `t` writes back is block `t` of `denseArray` of the arrays the region finds. -/
theorem flushed2 (c : Dev nD) (t : Fin cfg2.N) :
    (dat2 V c).flushed 3 t
      = ((cfg2.win 3).blk t).view.read (Elt Ideal) (denseArray (V c main_v42) (V c main_arg6) (V c main_v43)) := by
  show (cfg2.win 3).cut (grid2.coords t) ((dat2 V c).after 3 t) = _
  rw [after2_3]
  unfold out2_3
  rw [View.canon_unit_zero zero_offsets]
  simp only [View.ld_unit_zero (S := S5000x64) zero_offsets, View.ld_unit_zero (S := S64x64) zero_offsets,
    View.ld_unit_zero (S := S1x64) zero_offsets]
  funext y
  obtain ⟨r, j, rfl⟩ : ∃ (r : Fin 5000) (j : Fin 64), y = (ix2 r j : S5000x64.Idx) := ⟨y 0, y 1, eq_ix2 y⟩
  rw [View.read_apply]
  refine ((denseBlock_apply (iblk2 V c 0 t) (iblk2 V c 1 t) (iblk2 V c 2 t) r j).trans ?_).trans
    (congrArg (denseArray (V c main_v42) (V c main_arg6) (V c main_v43)) (place2 t r j)).symm
  rw [block2_2_apply V c t j, denseArray_ix2]
  unfold dense
  refine congrArg (· + (V c main_v43 : RowIdx → EReal) (ix2 0 j)) (Finset.sum_congr rfl fun k _ => ?_)
  rw [block2_0_apply V c t r k, block2_1_apply V c t k j]

/-- An index of the output matrix is in point `t`'s block iff each coordinate is in the block's range on its axis. -/
theorem mem_block2 (t : Fin cfg2.N) (i : S100000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v44).slice (win2_3.rect t)).set ↔ _
  rw [View.set_slice_whole, Rect.mem_set_unit]
  exact Iff.rfl

/-- Row `i` of the output matrix is in the block of point `i / 5000`. -/
theorem cover2 (i : S100000x64.Idx) : ∃ t : Fin cfg2.N, (cfg2.win 3).flush t = true ∧ i ∈ ((cfg2.win 3).blk t).view.set := by
  have hi0 : (i 0).val < 100000 := idx2_lt0 i
  have hi1 : (i 1).val < 64 := idx2_lt1 i
  have hN : cfg2.N = 20 := N_2
  obtain ⟨t, ht⟩ : ∃ t : Fin cfg2.N, t.val = (i 0).val / 5000 := ⟨⟨(i 0).val / 5000, by omega⟩, rfl⟩
  obtain ⟨-, -, -, -, -, -, e6, e7⟩ := index_facts2 t
  refine ⟨t, flush2_3 t, ?_⟩
  rw [mem_block2]
  intro a
  match a with
  | ⟨0, _⟩ => show win2_3.index t (0 : Fin 2) * 5000 ≤ (i 0).val ∧ (i 0).val < win2_3.index t (0 : Fin 2) * 5000 + 5000; rw [e6, ht]; omega
  | ⟨1, _⟩ => show win2_3.index t (1 : Fin 2) * 64 ≤ (i 1).val ∧ (i 1).val < win2_3.index t (1 : Fin 2) * 64 + 64; rw [e7]; omega

/-- The output matrix of region 2 after the region is `denseArray` of the arrays the region finds. -/
theorem array2 (c : Dev nD) :
    (dat2 (F := Ideal) V c).arrAt 3 cfg2.N = denseArray (V c main_v42) (V c main_arg6) (V c main_v43) :=
  (dat2 V c).arrAt_eq_of_cover 3 _ (fun t _ => flushed2 V c t) cover2

/-- REGION 2, entry by entry: row i of the input matrix against column j of the weights, plus the bias row's entry j. -/
theorem region2_out (c : Dev nD) (i : Fin 100000) (j : Fin 64) :
    ((Gen.dat2 (F := Ideal) V c).arrAt 3 cfg2.N : NodeIdx → EReal) (ix2 i j)
      = dense (V c main_v42) (V c main_arg6) (V c main_v43) i j :=
  congrFun (array2 V c) (ix2 i j)

end Cert.KernelIdeal.BlockValues

end
-- ==== Proof.StatsRegion.lean ====
/-
  Region 0 of the kernel program — the dense layer with its column statistics — read as values over the extended reals.

  The region walks the 100000 x 64 node matrix A in twenty row blocks of 5000 rows. At block t it forms
  H_t = A_t · W + b (A_t the block, W the 64 x 64 weights, b the 1 x 64 bias row repeated over the rows), stores H_t as
  block row t of output 3, and adds to two 1 x 64 accumulators the sums over the block's 5000 rows of each column of
  H_t and of each column of the entrywise square of H_t; the first block first sets both accumulators to zero. Each
  accumulator is written to its array once, after the last block.

  With h i j := dense A W b i j (row i of A against column j of W, plus b at j):
  * region0_h — output 3 ends holding h at every entry: row i is written by block i / 5000, where it is position
    i - 5000 (i / 5000);
  * region0_sum, region0_sumsq — outputs 4 and 5 end holding, at column j, the sum over the twenty blocks t and the
    5000 positions r of h (rowOf t r) j, and of its square. Addition on the extended reals is a commutative monoid:
    0 + x = x and splitting the last term off a running sum are all that is used; nothing needs finiteness.

  In order: the block product and the three stored values read at an index; what the body leaves in each output's
  buffer at the first block and at a later block; the buffers' contents by recursion over the blocks; the windows'
  blocks as rows of the arrays; output 3 by covering the array with the blocks; the accumulators by induction over
  the blocks, and their arrays from the one write after the last block.
-/
import proofs.«149663_j27539330301987_1_alg».proof.Proof.Gen.KernelIdeal.Frame
import proofs.«149663_j27539330301987_1_alg».proof.Proof.Spec
import Idealize.ShloMosaic.Lib.Pipeline.Value
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)

namespace Cert.KernelIdeal.StatsRegion

open Cert.KernelIdeal Cert.KernelIdeal.Gen Cert.Spec Idealize.ShloMosaic.ValueIdx

/-! ## The block product at an index -/

theorem lhs_row (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl

theorem lhs_col (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q

theorem rhs_row (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q

theorem rhs_col (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- Entry (r, j) of the product of a 5000 x 64 block with a 64 x 64 matrix, accumulated into zeros: the sum over the
    64 shared coordinates of the products of the entries. -/
theorem matmul_ix (A : FVec Ideal S5000x64 .bf16) (W : FVec Ideal S64x64 .bf16) (r : Fin 5000) (j : Fin 64) :
    matmul dot_S5000x64_S64x64_S5000x64_1_0_0_1_n_n none A W (constant S5000x64 .f32 0x00000000#32) (ix2 r j)
      = ∑ k : Fin 64, A (ix2 r k) * W (ix2 k j) := by
  simp only [matmul]
  rw [Ideal.matmul_constant_zero_apply,
    ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 r j)
      ((contrEquiv1 dot_S5000x64_S64x64_S5000x64_1_0_0_1_n_n 64 rfl rfl).symm k) = ix2 r k :=
    funext fun a => Fin.ext (by
      match a with
      | ⟨0, _⟩ => exact lhs_row _ _
      | ⟨1, _⟩ => exact (lhs_col _ _).trans hk)
  have er : dot_S5000x64_S64x64_S5000x64_1_0_0_1_n_n.rhsIdx (ix2 r j)
      ((contrEquiv1 dot_S5000x64_S64x64_S5000x64_1_0_0_1_n_n 64 rfl rfl).symm k) = ix2 k j :=
    funext fun a => Fin.ext (by
      match a with
      | ⟨0, _⟩ => exact (rhs_row _ _).trans hk
      | ⟨1, _⟩ => exact rhs_col _ _)
  rw [el, er]

/-! ## The three stored values at an index -/

/-- The dense layer's block: entry (r, j) is row r of the block against column j of the weights, plus the bias. -/
theorem pay3_apply (x0 : Vec Ideal S5000x64 .f32) (x1 : Vec Ideal S64x64 .f32) (x2 : Vec Ideal S1x64 .f32)
    (r : Fin 5000) (j : Fin 64) :
    k0_pay3 (F := Ideal) x0 x1 x2 (ix2 r j) = (∑ k : Fin 64, x0 (ix2 r k) * x1 (ix2 k j)) + x2 (ix2 0 j) := by
  unfold k0_pay3
  refine (addf_apply _ _ _).trans ?_
  refine congrArg₂ (· + ·) ?_ ?_
  · refine (matmul_ix _ _ r j).trans ?_
    refine Finset.sum_congr rfl fun k _ => ?_
    refine congrArg₂ (· * ·) ?_ rfl
    exact congrFun (shapeCast_self x0 _) _
  · refine (broadcastTo_1b_ab_apply _ _ r j).trans ?_
    exact congrFun (shapeCast_self x2 _) _

/-- A column sum over the block's 5000 rows, read at column j. -/
theorem colsum_apply (src : FVec Ideal S5000x64 .f32) (hφ : FKind.Formats .f32)
    (hacc : (0x00000000#32 : BitVec 32) = FKind.add.neutral .f32 hφ) (j : Fin 64) :
    shapeCast S1x64 (multiReduction .add [0] S64 src 0x00000000#32 reduces_S5000x64_S64 hφ hacc) shapeCasts_S64_S1x64 (ix2 0 j)
      = ∑ r : Fin 5000, src (ix2 r j) := by
  refine (shapeCast_a_1a_apply _ _ 0 j).trans ?_
  refine (Ideal.multiReduction_add_single src 0x00000000#32 reduces_S5000x64_S64 hφ hacc (ix1 j)).trans ?_
  refine Finset.sum_congr rfl fun r _ => ?_
  refine congrArg src (funext fun a => Fin.ext ?_)
  match a with
  | ⟨0, _⟩ => rfl
  | ⟨1, _⟩ => rfl

/-- The running column sum: what was there plus the block's column sums. -/
theorem pay4_apply (x0 : Vec Ideal S5000x64 .f32) (x1 : Vec Ideal S64x64 .f32) (x2 : Vec Ideal S1x64 .f32)
    (acc : Vec Ideal S1x64 .f32) (j : Fin 64) :
    k0_pay4 (F := Ideal) x0 x1 x2 acc (ix2 0 j)
      = acc (ix2 0 j) + ∑ r : Fin 5000, k0_pay3 (F := Ideal) x0 x1 x2 (ix2 r j) := by
  unfold k0_pay4
  refine (addf_apply _ _ _).trans ?_
  refine congrArg₂ (· + ·) ?_ ?_
  · exact congrFun (shapeCast_self acc _) _
  · exact colsum_apply _ _ _ j

/-- The running column sum of squares. -/
theorem pay5_apply (x0 : Vec Ideal S5000x64 .f32) (x1 : Vec Ideal S64x64 .f32) (x2 : Vec Ideal S1x64 .f32)
    (acc : Vec Ideal S1x64 .f32) (j : Fin 64) :
    k0_pay5 (F := Ideal) x0 x1 x2 acc (ix2 0 j)
      = acc (ix2 0 j) + ∑ r : Fin 5000, k0_pay3 (F := Ideal) x0 x1 x2 (ix2 r j) * k0_pay3 (F := Ideal) x0 x1 x2 (ix2 r j) := by
  unfold k0_pay5
  refine (addf_apply _ _ _).trans ?_
  refine congrArg₂ (· + ·) ?_ ?_
  · exact congrFun (shapeCast_self acc _) _
  · refine (colsum_apply _ _ _ j).trans ?_
    rfl

/-- The zero row the first point stores. -/
theorem pay1_apply (j : Fin 64) : k0_pay1 (F := Ideal) (ix2 0 j) = 0 := by
  unfold k0_pay1
  exact Ideal.ofBits_zero_f32

theorem pay2_apply (j : Fin 64) : k0_pay2 (F := Ideal) (ix2 0 j) = 0 := by
  unfold k0_pay2
  exact Ideal.ofBits_zero_f32

/-! ## What each case of the body leaves in the three outputs' buffers -/

section Pieces

variable {F : FTy → Type} [FloatOps F]

theorem hz : (![0, 0] : Fin 2 → Nat) = fun _ => 0 := funext fun a => by fin_cases a <;> rfl

theorem out_B_3 (c : Dev nD) (i : grid0.Coords) (a1 : Memref sig .tc .vmem S5000x64 .f32) (h1 : a1.IsWhole) (a2 : Memref sig .tc .vmem S64x64 .f32) (h2 : a2.IsWhole) (a3 : Memref sig .tc .vmem S1x64 .f32) (h3 : a3.IsWhole) (a4 : Memref sig .tc .vmem S5000x64 .f32) (h4 : a4.IsWhole) (a5 : Memref sig .tc .vmem S1x64 .f32) (h5 : a5.IsWhole) (a6 : Memref sig .tc .vmem S1x64 .f32) (h6 : a6.IsWhole) (hc : ¬cond0_0 i)
    (x0 : Vec F S5000x64 .f32) (x1 : Vec F S64x64 .f32) (x2 : Vec F S1x64 .f32) (xo4 xo5 : Vec F S1x64 .f32) :
    out0_B_3 c i a1 h1 a2 h2 a3 h3 a4 h4 a5 h5 a6 h6 hc x0 x1 x2 xo4 xo5 = k0_pay3 x0 x1 x2 := by
  unfold out0_B_3
  rw [View.read_writes_eq_canon _ _ _ (cover0_B_3 c i a1 h1 a2 h2 a3 h3 a4 h4 a5 h5 a6 h6 hc x0 x1 x2 xo4 xo5)]
  unfold kernelRun0_B
  dsimp only
  try sl_unfold_words
  rw [View.canon_unit_zero hz]
  simp only [View.readAt_eq_ld, h1.read_unread, h2.read_unread, h3.read_unread, h5.read_unread, h6.read_unread,
    View.ld_unit_zero (S := S5000x64) hz, View.ld_unit_zero (S := S64x64) hz, View.ld_unit_zero (S := S1x64) hz]

theorem out_B_4 (c : Dev nD) (i : grid0.Coords) (a1 : Memref sig .tc .vmem S5000x64 .f32) (h1 : a1.IsWhole) (a2 : Memref sig .tc .vmem S64x64 .f32) (h2 : a2.IsWhole) (a3 : Memref sig .tc .vmem S1x64 .f32) (h3 : a3.IsWhole) (a4 : Memref sig .tc .vmem S5000x64 .f32) (h4 : a4.IsWhole) (a5 : Memref sig .tc .vmem S1x64 .f32) (h5 : a5.IsWhole) (a6 : Memref sig .tc .vmem S1x64 .f32) (h6 : a6.IsWhole) (hc : ¬cond0_0 i)
    (x0 : Vec F S5000x64 .f32) (x1 : Vec F S64x64 .f32) (x2 : Vec F S1x64 .f32) (xo4 xo5 : Vec F S1x64 .f32) :
    out0_B_4 c i a1 h1 a2 h2 a3 h3 a4 h4 a5 h5 a6 h6 hc x0 x1 x2 xo4 xo5 = k0_pay4 x0 x1 x2 xo4 := by
  unfold out0_B_4
  rw [View.read_writes_eq_canon _ _ _ (cover0_B_4 c i a1 h1 a2 h2 a3 h3 a4 h4 a5 h5 a6 h6 hc x0 x1 x2 xo4 xo5)]
  unfold kernelRun0_B
  dsimp only
  try sl_unfold_words
  rw [View.canon_unit_zero hz]
  simp only [View.readAt_eq_ld, h1.read_unread, h2.read_unread, h3.read_unread, h5.read_unread, h6.read_unread,
    View.ld_unit_zero (S := S5000x64) hz, View.ld_unit_zero (S := S64x64) hz, View.ld_unit_zero (S := S1x64) hz]

theorem out_B_5 (c : Dev nD) (i : grid0.Coords) (a1 : Memref sig .tc .vmem S5000x64 .f32) (h1 : a1.IsWhole) (a2 : Memref sig .tc .vmem S64x64 .f32) (h2 : a2.IsWhole) (a3 : Memref sig .tc .vmem S1x64 .f32) (h3 : a3.IsWhole) (a4 : Memref sig .tc .vmem S5000x64 .f32) (h4 : a4.IsWhole) (a5 : Memref sig .tc .vmem S1x64 .f32) (h5 : a5.IsWhole) (a6 : Memref sig .tc .vmem S1x64 .f32) (h6 : a6.IsWhole) (hc : ¬cond0_0 i)
    (x0 : Vec F S5000x64 .f32) (x1 : Vec F S64x64 .f32) (x2 : Vec F S1x64 .f32) (xo4 xo5 : Vec F S1x64 .f32) :
    out0_B_5 c i a1 h1 a2 h2 a3 h3 a4 h4 a5 h5 a6 h6 hc x0 x1 x2 xo4 xo5 = k0_pay5 x0 x1 x2 xo5 := by
  unfold out0_B_5
  rw [View.read_writes_eq_canon _ _ _ (cover0_B_5 c i a1 h1 a2 h2 a3 h3 a4 h4 a5 h5 a6 h6 hc x0 x1 x2 xo4 xo5)]
  unfold kernelRun0_B
  dsimp only
  try sl_unfold_words
  rw [View.canon_unit_zero hz]
  simp only [View.readAt_eq_ld, h1.read_unread, h2.read_unread, h3.read_unread, h5.read_unread, h6.read_unread,
    View.ld_unit_zero (S := S5000x64) hz, View.ld_unit_zero (S := S64x64) hz, View.ld_unit_zero (S := S1x64) hz]

theorem out_A_3 (c : Dev nD) (i : grid0.Coords) (a1 : Memref sig .tc .vmem S5000x64 .f32) (h1 : a1.IsWhole) (a2 : Memref sig .tc .vmem S64x64 .f32) (h2 : a2.IsWhole) (a3 : Memref sig .tc .vmem S1x64 .f32) (h3 : a3.IsWhole) (a4 : Memref sig .tc .vmem S5000x64 .f32) (h4 : a4.IsWhole) (a5 : Memref sig .tc .vmem S1x64 .f32) (h5 : a5.IsWhole) (a6 : Memref sig .tc .vmem S1x64 .f32) (h6 : a6.IsWhole) (hc : cond0_0 i)
    (x0 : Vec F S5000x64 .f32) (x1 : Vec F S64x64 .f32) (x2 : Vec F S1x64 .f32) :
    out0_A_3 c i a1 h1 a2 h2 a3 h3 a4 h4 a5 h5 a6 h6 hc x0 x1 x2 = k0_pay3 x0 x1 x2 := by
  unfold out0_A_3
  rw [View.read_writes_eq_canon _ _ _ (cover0_A_3 c i a1 h1 a2 h2 a3 h3 a4 h4 a5 h5 a6 h6 hc x0 x1 x2)]
  unfold kernelRun0_A
  dsimp only
  try sl_unfold_words
  rw [View.canon_unit_zero hz]
  simp only [View.readAt_eq_ld, h1.read_unread, h2.read_unread, h3.read_unread,
    View.ld_unit_zero (S := S5000x64) hz, View.ld_unit_zero (S := S64x64) hz, View.ld_unit_zero (S := S1x64) hz]

theorem out_A_4 (c : Dev nD) (i : grid0.Coords) (a1 : Memref sig .tc .vmem S5000x64 .f32) (h1 : a1.IsWhole) (a2 : Memref sig .tc .vmem S64x64 .f32) (h2 : a2.IsWhole) (a3 : Memref sig .tc .vmem S1x64 .f32) (h3 : a3.IsWhole) (a4 : Memref sig .tc .vmem S5000x64 .f32) (h4 : a4.IsWhole) (a5 : Memref sig .tc .vmem S1x64 .f32) (h5 : a5.IsWhole) (a6 : Memref sig .tc .vmem S1x64 .f32) (h6 : a6.IsWhole) (hc : cond0_0 i)
    (x0 : Vec F S5000x64 .f32) (x1 : Vec F S64x64 .f32) (x2 : Vec F S1x64 .f32) :
    out0_A_4 c i a1 h1 a2 h2 a3 h3 a4 h4 a5 h5 a6 h6 hc x0 x1 x2 = k0_pay4 x0 x1 x2 k0_pay1 := by
  unfold out0_A_4
  rw [View.read_writes_eq_canon _ _ _ (cover0_A_4 c i a1 h1 a2 h2 a3 h3 a4 h4 a5 h5 a6 h6 hc x0 x1 x2)]
  unfold kernelRun0_A
  dsimp only
  try sl_unfold_words
  rw [View.canon_cons_unit_zero (S := S1x64) hz, View.readCov_unit_zero (S := S1x64) _ hz]
  simp only [View.readAt_eq_ld, h1.read_unread, h2.read_unread, h3.read_unread,
    View.ld_unit_zero (S := S5000x64) hz, View.ld_unit_zero (S := S64x64) hz, View.ld_unit_zero (S := S1x64) hz]

theorem out_A_5 (c : Dev nD) (i : grid0.Coords) (a1 : Memref sig .tc .vmem S5000x64 .f32) (h1 : a1.IsWhole) (a2 : Memref sig .tc .vmem S64x64 .f32) (h2 : a2.IsWhole) (a3 : Memref sig .tc .vmem S1x64 .f32) (h3 : a3.IsWhole) (a4 : Memref sig .tc .vmem S5000x64 .f32) (h4 : a4.IsWhole) (a5 : Memref sig .tc .vmem S1x64 .f32) (h5 : a5.IsWhole) (a6 : Memref sig .tc .vmem S1x64 .f32) (h6 : a6.IsWhole) (hc : cond0_0 i)
    (x0 : Vec F S5000x64 .f32) (x1 : Vec F S64x64 .f32) (x2 : Vec F S1x64 .f32) :
    out0_A_5 c i a1 h1 a2 h2 a3 h3 a4 h4 a5 h5 a6 h6 hc x0 x1 x2 = k0_pay5 x0 x1 x2 k0_pay2 := by
  unfold out0_A_5
  rw [View.read_writes_eq_canon _ _ _ (cover0_A_5 c i a1 h1 a2 h2 a3 h3 a4 h4 a5 h5 a6 h6 hc x0 x1 x2)]
  unfold kernelRun0_A
  dsimp only
  try sl_unfold_words
  rw [View.canon_cons_unit_zero (S := S1x64) hz, View.readCov_unit_zero (S := S1x64) _ hz]
  simp only [View.readAt_eq_ld, h1.read_unread, h2.read_unread, h3.read_unread,
    View.ld_unit_zero (S := S5000x64) hz, View.ld_unit_zero (S := S64x64) hz, View.ld_unit_zero (S := S1x64) hz]

end Pieces

/-! ## What the three outputs' buffers hold after each point, over the stored values -/

section Outs

variable {F : FTy → Type} [FloatOps F]
variable (V : (c : Dev nD) → (b : Ref sig .tc) → Buf (Elt F) ((c : Thread nD τ).loc b))

/-- At the first point the accumulators start from the zero rows the point itself stores. -/
theorem outs_first (c : Dev nD) (t : Fin cfg0.N) (h0 : t.val % 20 = 0) :
    outsAt0 V c t.val t.isLt
      = (k0_pay3 (iblk0 V c 0 t) (iblk0 V c 1 t) (iblk0 V c 2 t),
         k0_pay4 (iblk0 V c 0 t) (iblk0 V c 1 t) (iblk0 V c 2 t) k0_pay1,
         k0_pay5 (iblk0 V c 0 t) (iblk0 V c 1 t) (iblk0 V c 2 t) k0_pay2) := by
  refine (outsAt0_A V c t h0).trans ?_
  exact congrArg₂ Prod.mk
    (out_A_3 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t))
    (congrArg₂ Prod.mk
      (out_A_4 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t))
      (out_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t)))

/-- At every later point they continue from what the point before left. -/
theorem outs_later (c : Dev nD) (t : Fin cfg0.N) (h0 : ¬t.val % 20 = 0) :
    outsAt0 V c t.val t.isLt
      = (k0_pay3 (iblk0 V c 0 t) (iblk0 V c 1 t) (iblk0 V c 2 t),
         k0_pay4 (iblk0 V c 0 t) (iblk0 V c 1 t) (iblk0 V c 2 t) (outsAt0 V c (t.val - 1) (Nat.lt_of_le_of_lt (Nat.sub_le _ _) t.isLt)).2.1,
         k0_pay5 (iblk0 V c 0 t) (iblk0 V c 1 t) (iblk0 V c 2 t) (outsAt0 V c (t.val - 1) (Nat.lt_of_le_of_lt (Nat.sub_le _ _) t.isLt)).2.2) := by
  refine (outsAt0_B V c t h0).trans ?_
  exact congrArg₂ Prod.mk
    (out_B_3 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2)
    (congrArg₂ Prod.mk
      (out_B_4 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2)
      (out_B_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2))

/-- The dense layer's block is stored at every point alike. -/
theorem outs_h (c : Dev nD) (t : Fin cfg0.N) :
    (outsAt0 V c t.val t.isLt).1 = k0_pay3 (iblk0 V c 0 t) (iblk0 V c 1 t) (iblk0 V c 2 t) := by
  by_cases h0 : t.val % 20 = 0
  · rw [outs_first V c t h0]
  · rw [outs_later V c t h0]

end Outs

variable (V : (c : Dev nD) → (b : Ref sig .tc) → Buf (Elt Ideal) ((c : Thread nD τ).loc b))

/-! ## The windows' blocks as rows of the arrays -/

/-- The index maps over the grid: point t's block of the node matrix (input or output) is block row t, and the weights,
    the bias row and the two accumulator rows are always their one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- Position (r, k) of the node block at point t is row 5000 t + r of the node matrix. -/
theorem blk0_apply (c : Dev nD) (t : Fin cfg0.N) (r : Fin 5000) (k : Fin 64) (i : Fin 100000)
    (hi : i.val = 5000 * t.val + r.val) :
    (iblk0 V c 0 t : Vec Ideal S5000x64 .f32) (ix2 r k) = (V c main_v14 : NodeIdx → EReal) (ix2 i k) := by
  obtain ⟨e0, e1, -⟩ := idx_facts t
  unfold iblk0
  rw [View.read_apply]
  show V c main_v14 _ = V c main_v14 _
  refine congrArg (V c main_v14) (funext fun a => Fin.ext ?_)
  match a with
  | ⟨0, _⟩ => show win0_0.index t (0 : Fin 2) * 5000 + 1 * r.val = i.val; rw [e0, hi]; omega
  | ⟨1, _⟩ => show win0_0.index t (1 : Fin 2) * 64 + 1 * k.val = k.val; rw [e1]; omega

/-- The weights' block at every point is the whole 64 x 64 matrix. -/
theorem blk1_apply (c : Dev nD) (t : Fin cfg0.N) (k j : Fin 64) :
    (iblk0 V c 1 t : Vec Ideal S64x64 .f32) (ix2 k j) = (V c main_arg2 : WeightIdx → EReal) (ix2 k j) := by
  obtain ⟨-, -, e0, e1, -⟩ := idx_facts t
  unfold iblk0
  rw [View.read_apply]
  show V c main_arg2 _ = V c main_arg2 _
  refine congrArg (V c main_arg2) (funext fun a => Fin.ext ?_)
  match a with
  | ⟨0, _⟩ => show win0_1.index t (0 : Fin 2) * 64 + 1 * k.val = k.val; rw [e0]; omega
  | ⟨1, _⟩ => show win0_1.index t (1 : Fin 2) * 64 + 1 * j.val = j.val; rw [e1]; omega

/-- The bias' block at every point is the whole 1 x 64 row. -/
theorem blk2_apply (c : Dev nD) (t : Fin cfg0.N) (j : Fin 64) :
    (iblk0 V c 2 t : Vec Ideal S1x64 .f32) (ix2 0 j) = (V c main_v15 : RowIdx → EReal) (ix2 0 j) := by
  obtain ⟨-, -, -, -, e0, e1, -⟩ := idx_facts t
  unfold iblk0
  rw [View.read_apply]
  show V c main_v15 _ = V c main_v15 _
  refine congrArg (V c main_v15) (funext fun a => Fin.ext ?_)
  match a with
  | ⟨0, _⟩ => show win0_2.index t (0 : Fin 2) * 1 + 1 * 0 = 0; rw [e0]
  | ⟨1, _⟩ => show win0_2.index t (1 : Fin 2) * 64 + 1 * j.val = j.val; rw [e1]; omega

/-! ## The dense layer's rows: output 3 -/

/-- Entry (r, j) of the block stored at point t is the dense layer at row 5000 t + r, column j. -/
theorem h_blk (c : Dev nD) (t : Fin cfg0.N) (s : Fin 20) (hs : s.val = t.val) (r : Fin 5000) (j : Fin 64) :
    k0_pay3 (F := Ideal) (iblk0 V c 0 t) (iblk0 V c 1 t) (iblk0 V c 2 t) (ix2 r j)
      = dense (V c main_v14) (V c main_arg2) (V c main_v15) (rowOf s r) j := by
  refine (pay3_apply (iblk0 V c 0 t) (iblk0 V c 1 t) (iblk0 V c 2 t) r j).trans ?_
  unfold dense
  refine congrArg₂ (· + ·) (Finset.sum_congr rfl fun k _ => congrArg₂ (· * ·) ?_ ?_) ?_
  · exact blk0_apply V c t r k (rowOf s r) (by rw [rowOf_val, hs])
  · exact blk1_apply V c t k j
  · exact blk2_apply V c t j

/-- The dense layer over the whole node matrix, as the contents of a 100000 x 64 array. -/
def hArr (c : Dev nD) : NodeIdx → EReal := fun i =>
  dense (V c main_v14) (V c main_arg2) (V c main_v15) ⟨(i 0).val, idx2_lt0 i⟩ ⟨(i 1).val, idx2_lt1 i⟩

theorem hArr_apply (c : Dev nD) (i : Fin 100000) (j : Fin 64) :
    hArr V c (ix2 i j) = dense (V c main_v14) (V c main_arg2) (V c main_v15) i j := rfl

/-- The block stored at point t, at a position y, is the whole-matrix dense layer at the entry i that position
    occupies: row 5000 t + y₀, column y₁. -/
theorem h_blk_at (c : Dev nD) (t : Fin cfg0.N) (y : S5000x64.Idx) (i : NodeIdx)
    (h0 : (i 0).val = 5000 * t.val + (y 0).val) (h1 : (i 1).val = (y 1).val) :
    k0_pay3 (F := Ideal) (iblk0 V c 0 t) (iblk0 V c 1 t) (iblk0 V c 2 t) y = hArr V c i := by
  have hN : cfg0.N = 20 := N_0
  have ht : t.val < 20 := by have := t.isLt; omega
  obtain ⟨r, j, rfl⟩ : ∃ (r : Fin 5000) (j : Fin 64), y = ix2 r j := ⟨y 0, y 1, eq_ix2 y⟩
  obtain ⟨p, q, rfl⟩ : ∃ (p : Fin 100000) (q : Fin 64), i = ix2 p q := ⟨i 0, i 1, eq_ix2 i⟩
  obtain rfl : q = j := Fin.ext h1
  obtain rfl : p = rowOf ⟨t.val, ht⟩ r := Fin.ext h0
  exact h_blk V c t ⟨t.val, ht⟩ rfl r q

/-- What point t writes back of output 3 is block row t of the dense layer. -/
theorem flushed3_eq (c : Dev nD) (t : Fin cfg0.N) :
    (dat0 (F := Ideal) V c).flushed 3 t = ((cfg0.win 3).blk t).view.read (Elt Ideal) (hArr V c) := by
  obtain ⟨-, -, -, -, -, -, e0, e1, -⟩ := idx_facts t
  show (cfg0.win 3).cut (grid0.coords t) ((dat0 V c).after 3 t) = _
  rw [after0_3, outs_h]
  funext y
  show k0_pay3 (F := Ideal) (iblk0 V c 0 t) (iblk0 V c 1 t) (iblk0 V c 2 t) y = hArr V c (((cfg0.win 3).blk t).view.emb y)
  refine h_blk_at V c t y _ ?_ ?_
  · show win0_3.index t (0 : Fin 2) * 5000 + 1 * (y 0).val = 5000 * t.val + (y 0).val
    rw [e0]; omega
  · show win0_3.index t (1 : Fin 2) * 64 + 1 * (y 1).val = (y 1).val
    rw [e1]; omega

/-- An entry of the 100000 x 64 array is in point t's block when each coordinate is in the block's range. -/
theorem mem_blk3 (t : Fin cfg0.N) (i : S100000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v16_0).slice (win0_3.rect t)).set ↔ _
  rw [View.set_slice_whole, Rect.mem_set_unit]
  exact Iff.rfl

/-- Row i is written by point i / 5000. -/
theorem cover3 (i : S100000x64.Idx) :
    ∃ t : Fin cfg0.N, (cfg0.win 3).flush t = true ∧ i ∈ ((cfg0.win 3).blk t).view.set := by
  have hN : cfg0.N = 20 := N_0
  have hi0 : (i 0).val < 100000 := (i 0).isLt
  have hi1 : (i 1).val < 64 := (i 1).isLt
  obtain ⟨t, ht⟩ : ∃ t : Fin cfg0.N, t.val = (i 0).val / 5000 := ⟨⟨(i 0).val / 5000, by omega⟩, rfl⟩
  obtain ⟨-, -, -, -, -, -, e0, e1, -⟩ := idx_facts t
  refine ⟨t, flush0_3 t, ?_⟩
  rw [mem_blk3]
  intro a
  match a with
  | ⟨0, _⟩ =>
    show win0_3.index t (0 : Fin 2) * 5000 ≤ (i 0).val ∧ (i 0).val < win0_3.index t (0 : Fin 2) * 5000 + 5000
    rw [e0, ht]; omega
  | ⟨1, _⟩ =>
    show win0_3.index t (1 : Fin 2) * 64 ≤ (i 1).val ∧ (i 1).val < win0_3.index t (1 : Fin 2) * 64 + 64
    rw [e1]; omega

/-- So output 3's array ends holding the dense layer of the whole node matrix. -/
theorem arr3_eq (c : Dev nD) : (dat0 (F := Ideal) V c).arrAt 3 cfg0.N = hArr V c :=
  (dat0 (F := Ideal) V c).arrAt_eq_of_cover 3 (hArr V c) (fun t _ => flushed3_eq V c t) cover3

theorem region0_h (c : Dev nD) (i : Fin 100000) (j : Fin 64) :
    ((Gen.dat0 (F := Ideal) V c).arrAt 3 cfg0.N : NodeIdx → EReal) (ix2 i j)
      = dense (V c main_v14) (V c main_arg2) (V c main_v15) i j :=
  congrFun (arr3_eq V c) (ix2 i j)

/-! ## The two running sums: outputs 4 and 5 -/

/-- Column j of the dense layer summed over the 5000 rows of block n (zero past the last block). -/
def colSum (c : Dev nD) (n : ℕ) (j : Fin 64) : EReal :=
  if h : n < 20 then ∑ r : Fin 5000, dense (V c main_v14) (V c main_arg2) (V c main_v15) (rowOf ⟨n, h⟩ r) j else 0

/-- The same with every entry squared. -/
def colSumSq (c : Dev nD) (n : ℕ) (j : Fin 64) : EReal :=
  if h : n < 20 then ∑ r : Fin 5000, dense (V c main_v14) (V c main_arg2) (V c main_v15) (rowOf ⟨n, h⟩ r) j
    * dense (V c main_v14) (V c main_arg2) (V c main_v15) (rowOf ⟨n, h⟩ r) j else 0

theorem blk_colSum (c : Dev nD) (t : Fin cfg0.N) (j : Fin 64) :
    ∑ r : Fin 5000, k0_pay3 (F := Ideal) (iblk0 V c 0 t) (iblk0 V c 1 t) (iblk0 V c 2 t) (ix2 r j) = colSum V c t.val j := by
  have hN : cfg0.N = 20 := N_0
  have ht : t.val < 20 := by have := t.isLt; omega
  unfold colSum
  rw [dif_pos ht]
  exact Finset.sum_congr rfl fun r _ => h_blk V c t ⟨t.val, ht⟩ rfl r j

theorem blk_colSumSq (c : Dev nD) (t : Fin cfg0.N) (j : Fin 64) :
    ∑ r : Fin 5000, k0_pay3 (F := Ideal) (iblk0 V c 0 t) (iblk0 V c 1 t) (iblk0 V c 2 t) (ix2 r j) * k0_pay3 (F := Ideal) (iblk0 V c 0 t) (iblk0 V c 1 t) (iblk0 V c 2 t) (ix2 r j)
      = colSumSq V c t.val j := by
  have hN : cfg0.N = 20 := N_0
  have ht : t.val < 20 := by have := t.isLt; omega
  unfold colSumSq
  rw [dif_pos ht]
  exact Finset.sum_congr rfl fun r _ => congrArg₂ (· * ·) (h_blk V c t ⟨t.val, ht⟩ rfl r j) (h_blk V c t ⟨t.val, ht⟩ rfl r j)

/-- After point n the two accumulators hold, at column j, the sums over the blocks 0 … n of the block's column sum
    and of its column sum of squares: the first point starts from the zero rows it stores, each later one adds its
    block's sums to what the point before left. -/
theorem acc_inv (c : Dev nD) : ∀ (n : ℕ) (h : n < cfg0.N) (j : Fin 64),
    (outsAt0 V c n h).2.1 (ix2 0 j) = ∑ s ∈ Finset.range (n + 1), colSum V c s j
      ∧ (outsAt0 V c n h).2.2 (ix2 0 j) = ∑ s ∈ Finset.range (n + 1), colSumSq V c s j
  | 0, h, j => by
    rw [show outsAt0 V c 0 h = _ from outs_first V c ⟨0, h⟩ rfl]
    rw [Finset.sum_range_one, Finset.sum_range_one]
    constructor
    · refine (pay4_apply (iblk0 V c 0 ⟨0, h⟩) (iblk0 V c 1 ⟨0, h⟩) (iblk0 V c 2 ⟨0, h⟩) (k0_pay1 (F := Ideal)) j).trans ?_
      rw [pay1_apply, zero_add]
      exact blk_colSum V c ⟨0, h⟩ j
    · refine (pay5_apply (iblk0 V c 0 ⟨0, h⟩) (iblk0 V c 1 ⟨0, h⟩) (iblk0 V c 2 ⟨0, h⟩) (k0_pay2 (F := Ideal)) j).trans ?_
      rw [pay2_apply, zero_add]
      exact blk_colSumSq V c ⟨0, h⟩ j
  | n + 1, h, j => by
    have hN : cfg0.N = 20 := N_0
    have hB : ¬(⟨n + 1, h⟩ : Fin cfg0.N).val % 20 = 0 := by dsimp only; omega
    obtain ⟨ih1, ih2⟩ := acc_inv c n (Nat.lt_of_succ_lt h) j
    rw [show outsAt0 V c (n + 1) h = _ from outs_later V c ⟨n + 1, h⟩ hB]
    rw [Finset.sum_range_succ _ (n + 1), Finset.sum_range_succ _ (n + 1)]
    constructor
    · refine (pay4_apply (iblk0 V c 0 ⟨n + 1, h⟩) (iblk0 V c 1 ⟨n + 1, h⟩) (iblk0 V c 2 ⟨n + 1, h⟩) _ j).trans ?_
      exact congrArg₂ (· + ·) ih1 (blk_colSum V c ⟨n + 1, h⟩ j)
    · refine (pay5_apply (iblk0 V c 0 ⟨n + 1, h⟩) (iblk0 V c 1 ⟨n + 1, h⟩) (iblk0 V c 2 ⟨n + 1, h⟩) _ j).trans ?_
      exact congrArg₂ (· + ·) ih2 (blk_colSumSq V c ⟨n + 1, h⟩ j)

theorem lastLt : 19 < cfg0.N := by rw [show cfg0.N = 20 from N_0]; decide

/-- What the accumulators' buffers hold after the last point. -/
abbrev last4 (c : Dev nD) : Vec Ideal S1x64 .f32 := (outsAt0 V c 19 lastLt).2.1
abbrev last5 (c : Dev nD) : Vec Ideal S1x64 .f32 := (outsAt0 V c 19 lastLt).2.2

/-- Output 4 is written back once, after the last point; its one block is the whole 1 x 64 array. -/
theorem flushed4_eq (c : Dev nD) (t : Fin cfg0.N) (hf : (cfg0.win 4).flush t = true) :
    (dat0 (F := Ideal) V c).flushed 4 t = ((cfg0.win 4).blk t).view.read (Elt Ideal) (last4 V c) := by
  have hN : cfg0.N = 20 := N_0
  have h19 : t.val = 19 := by have := (flush0_4 t).mp hf; have := t.isLt; omega
  obtain rfl : t = ⟨19, lastLt⟩ := Fin.ext h19
  obtain ⟨-, -, -, -, -, -, -, -, e0, e1, -⟩ := idx_facts (⟨19, lastLt⟩ : Fin cfg0.N)
  show (cfg0.win 4).cut (grid0.coords ⟨19, lastLt⟩) ((dat0 V c).after 4 ⟨19, lastLt⟩) = _
  rw [after0_4]
  have hz' : (fun a => win0_4.index ⟨19, lastLt⟩ a * main_v16_1.ty.shape.size a) = fun _ => 0 :=
    funext fun a => by
      match a with
      | ⟨0, _⟩ => show win0_4.index ⟨19, lastLt⟩ (0 : Fin 2) * 1 = 0; rw [e0]
      | ⟨1, _⟩ => show win0_4.index ⟨19, lastLt⟩ (1 : Fin 2) * 64 = 0; rw [e1]
  exact (Memref.read_access_unit_zero (Elt Ideal) main_v16_1 hz' (fun a => by rw [congrFun hz' a]; simp) (last4 V c)).symm

theorem flushed5_eq (c : Dev nD) (t : Fin cfg0.N) (hf : (cfg0.win 5).flush t = true) :
    (dat0 (F := Ideal) V c).flushed 5 t = ((cfg0.win 5).blk t).view.read (Elt Ideal) (last5 V c) := by
  have hN : cfg0.N = 20 := N_0
  have h19 : t.val = 19 := by have := (flush0_5 t).mp hf; have := t.isLt; omega
  obtain rfl : t = ⟨19, lastLt⟩ := Fin.ext h19
  obtain ⟨-, -, -, -, -, -, -, -, -, -, e0, e1⟩ := idx_facts (⟨19, lastLt⟩ : Fin cfg0.N)
  show (cfg0.win 5).cut (grid0.coords ⟨19, lastLt⟩) ((dat0 V c).after 5 ⟨19, lastLt⟩) = _
  rw [after0_5]
  have hz' : (fun a => win0_5.index ⟨19, lastLt⟩ a * main_v16_2.ty.shape.size a) = fun _ => 0 :=
    funext fun a => by
      match a with
      | ⟨0, _⟩ => show win0_5.index ⟨19, lastLt⟩ (0 : Fin 2) * 1 = 0; rw [e0]
      | ⟨1, _⟩ => show win0_5.index ⟨19, lastLt⟩ (1 : Fin 2) * 64 = 0; rw [e1]
  exact (Memref.read_access_unit_zero (Elt Ideal) main_v16_2 hz' (fun a => by rw [congrFun hz' a]; simp) (last5 V c)).symm

/-- The last point's block covers the whole 1 x 64 array. -/
theorem cover4 (i : S1x64.Idx) :
    ∃ t : Fin cfg0.N, (cfg0.win 4).flush t = true ∧ i ∈ ((cfg0.win 4).blk t).view.set := by
  obtain ⟨-, -, -, -, -, -, -, -, e0, e1, -⟩ := idx_facts (⟨19, lastLt⟩ : Fin cfg0.N)
  refine ⟨⟨19, lastLt⟩, (flush0_4 _).mpr rfl, ?_⟩
  show i ∈ ((View.whole main_v16_1).slice (win0_4.rect ⟨19, lastLt⟩)).set
  rw [View.set_slice_whole, Rect.mem_set_unit]
  intro a
  have h0 : (i 0 : Nat) < 1 := (i 0).isLt
  have h1 : (i 1 : Nat) < 64 := (i 1).isLt
  match a with
  | ⟨0, _⟩ =>
    show win0_4.index ⟨19, lastLt⟩ (0 : Fin 2) * 1 ≤ (i 0 : Nat) ∧ (i 0 : Nat) < win0_4.index ⟨19, lastLt⟩ (0 : Fin 2) * 1 + 1
    rw [e0]; omega
  | ⟨1, _⟩ =>
    show win0_4.index ⟨19, lastLt⟩ (1 : Fin 2) * 64 ≤ (i 1 : Nat) ∧ (i 1 : Nat) < win0_4.index ⟨19, lastLt⟩ (1 : Fin 2) * 64 + 64
    rw [e1]; omega

theorem cover5 (i : S1x64.Idx) :
    ∃ t : Fin cfg0.N, (cfg0.win 5).flush t = true ∧ i ∈ ((cfg0.win 5).blk t).view.set := by
  obtain ⟨-, -, -, -, -, -, -, -, -, -, e0, e1⟩ := idx_facts (⟨19, lastLt⟩ : Fin cfg0.N)
  refine ⟨⟨19, lastLt⟩, (flush0_5 _).mpr rfl, ?_⟩
  show i ∈ ((View.whole main_v16_2).slice (win0_5.rect ⟨19, lastLt⟩)).set
  rw [View.set_slice_whole, Rect.mem_set_unit]
  intro a
  have h0 : (i 0 : Nat) < 1 := (i 0).isLt
  have h1 : (i 1 : Nat) < 64 := (i 1).isLt
  match a with
  | ⟨0, _⟩ =>
    show win0_5.index ⟨19, lastLt⟩ (0 : Fin 2) * 1 ≤ (i 0 : Nat) ∧ (i 0 : Nat) < win0_5.index ⟨19, lastLt⟩ (0 : Fin 2) * 1 + 1
    rw [e0]; omega
  | ⟨1, _⟩ =>
    show win0_5.index ⟨19, lastLt⟩ (1 : Fin 2) * 64 ≤ (i 1 : Nat) ∧ (i 1 : Nat) < win0_5.index ⟨19, lastLt⟩ (1 : Fin 2) * 64 + 64
    rw [e1]; omega

/-- So the two accumulator arrays end holding what their buffers held after the last point. -/
theorem arr4_eq (c : Dev nD) : (dat0 (F := Ideal) V c).arrAt 4 cfg0.N = last4 V c :=
  (dat0 (F := Ideal) V c).arrAt_eq_of_cover 4 (last4 V c) (flushed4_eq V c) cover4

theorem arr5_eq (c : Dev nD) : (dat0 (F := Ideal) V c).arrAt 5 cfg0.N = last5 V c :=
  (dat0 (F := Ideal) V c).arrAt_eq_of_cover 5 (last5 V c) (flushed5_eq V c) cover5

/-- The sum over the blocks 0 … 19 of a per-block quantity is the sum over the twenty blocks. -/
theorem sum_blocks (f : ℕ → EReal) : ∑ s ∈ Finset.range (19 + 1), f s = ∑ t : Fin 20, f t.val :=
  Finset.sum_range f

theorem region0_sum (c : Dev nD) (j : Fin 64) :
    ((Gen.dat0 (F := Ideal) V c).arrAt 4 cfg0.N : RowIdx → EReal) (ix2 0 j)
      = ∑ t : Fin 20, ∑ r : Fin 5000, dense (V c main_v14) (V c main_arg2) (V c main_v15) (rowOf t r) j := by
  refine (congrFun (arr4_eq V c) (ix2 0 j)).trans ?_
  refine ((acc_inv V c 19 lastLt j).1).trans ?_
  rw [sum_blocks]
  refine Finset.sum_congr rfl fun t _ => ?_
  unfold colSum
  rw [dif_pos t.isLt]

theorem region0_sumsq (c : Dev nD) (j : Fin 64) :
    ((Gen.dat0 (F := Ideal) V c).arrAt 5 cfg0.N : RowIdx → EReal) (ix2 0 j)
      = ∑ t : Fin 20, ∑ r : Fin 5000, dense (V c main_v14) (V c main_arg2) (V c main_v15) (rowOf t r) j
          * dense (V c main_v14) (V c main_arg2) (V c main_v15) (rowOf t r) j := by
  refine (congrFun (arr5_eq V c) (ix2 0 j)).trans ?_
  refine ((acc_inv V c 19 lastLt j).2).trans ?_
  rw [sum_blocks]
  refine Finset.sum_congr rfl fun t _ => ?_
  unfold colSumSq
  rw [dif_pos t.isLt]

end Cert.KernelIdeal.StatsRegion

end
-- ==== Proof.LibVarianceByDivision.lean ====
import proofs.«149663_j27539330301987_1_alg».proof.Proof.LibBatchMoments
import Idealize.ShloMosaic.PureOps.Ideal
import Mathlib.Tactic.FieldSimp

/-!
# The biased variance of a finite family of reals, its means taken by division by the count

On the extended reals, for a finite family `X` all of whose members are real numbers and the real number `N` of its
members (not zero), with `μ = (∑ X i) / N`:

  `(∑ X i²) / N − μ² = (∑ (X i − μ)²) / N`

(`variance_by_division`; `variance_by_division₂` for a family indexed by two coordinates and summed coordinate by
coordinate), and this common value is a real number that is not negative (`variance_by_division_nonneg`,
`variance_by_division_nonneg₂`).  The division is the extended reals' `Ideal.div`, which by a nonzero real is the
product with its reciprocal; the identity is the reals' `∑ (xᵢ − μ)² = ∑ xᵢ² − N μ²`, and it is finiteness that lets
the extended reals' sums, products and differences be the reals' here.

Also: a quotient of a real number by a nonzero real is real (`isReal_div`), the reciprocal square root of a positive
real is a positive real (`rsqrt_of_pos`), and a double sum of reals is real (`isReal_sum₂`).
-/

namespace Cert.LibVarianceByDivision

open Finset Idealize.ShloMosaic Cert.LibBatchMoments

/-- A real number divided by a nonzero real is a real number. -/
theorem isReal_div {x : EReal} (hx : IsReal x) {y : ℝ} (hy : y ≠ 0) : IsReal (Ideal.div x (y : EReal)) := by
  rw [Ideal.div_coe hy]
  exact hx.mul (isReal_coe _)

/-- The reciprocal square root of a positive real is a positive real. -/
theorem rsqrt_of_pos {r : ℝ} (hr : 0 < r) : ∃ s : ℝ, 0 < s ∧ Ideal.rsqrt (r : EReal) = (s : EReal) := by
  refine ⟨(Real.sqrt r)⁻¹, inv_pos.mpr (Real.sqrt_pos.mpr hr), ?_⟩
  rw [Ideal.rsqrt_coe, if_neg (not_lt.mpr hr.le), if_neg hr.ne']

theorem isReal_rsqrt_of_pos {r : ℝ} (hr : 0 < r) : IsReal (Ideal.rsqrt (r : EReal)) := by
  obtain ⟨s, _, hs⟩ := rsqrt_of_pos hr
  exact ⟨s, hs⟩

variable {ι α β : Type*}

/-- A sum over two coordinates of real numbers is a real number. -/
theorem isReal_sum₂ [Fintype α] [Fintype β] (Y : α → β → EReal) (hY : ∀ a b, IsReal (Y a b)) :
    IsReal (∑ a, ∑ b, Y a b) :=
  isReal_sum _ _ fun a _ => isReal_sum _ _ fun b _ => hY a b

variable [Fintype ι]

/-- THE TWO SPELLINGS OF A BIASED VARIANCE AGREE on a family of real numbers, the means taken by division by the
    number of members: the mean of the squares less the squared mean is the mean of the squared deviations. -/
theorem variance_by_division (X : ι → EReal) (hX : ∀ i, IsReal (X i)) (N : ℝ) (hN : N = (Fintype.card ι : ℝ))
    (hN0 : N ≠ 0) (μ : EReal) (hμ : μ = Ideal.div (∑ i, X i) (N : EReal)) :
    Ideal.div (∑ i, X i * X i) (N : EReal) - μ * μ = Ideal.div (∑ i, (X i - μ) * (X i - μ)) (N : EReal) := by
  obtain ⟨x, rfl⟩ : ∃ x : ι → ℝ, X = fun i => (x i : EReal) :=
    ⟨fun i => (hX i).choose, funext fun i => (hX i).choose_spec⟩
  have hc : (1 / N) * (Fintype.card ι : ℝ) = 1 := by rw [← hN]; field_simp
  rw [Ideal.div_coe hN0] at hμ
  have hμ' : μ = (((∑ i, x i) * (1 / N) : ℝ) : EReal) := by
    rw [hμ, coe_sum, EReal.coe_mul]
  subst hμ'
  rw [Ideal.div_coe hN0, Ideal.div_coe hN0]
  have e1 := coe_sum_sq_dev x ((∑ i, x i) * (1 / N))
  have e2 : (∑ i, ((x i : ℝ) : EReal) * ((x i : ℝ) : EReal)) = ((∑ i, x i * x i : ℝ) : EReal) := by
    rw [← coe_sum]
    exact Finset.sum_congr rfl fun i _ => by rw [← EReal.coe_mul]
  simp only [] at e1 ⊢
  rw [e1, e2, ← EReal.coe_mul, ← EReal.coe_mul, ← EReal.coe_mul, ← EReal.coe_sub,
    real_variance x (1 / N) hc _ _ _ rfl rfl rfl]

/-- That variance is a real number, and not negative. -/
theorem variance_by_division_nonneg (X : ι → EReal) (hX : ∀ i, IsReal (X i)) (N : ℝ) (hN : N = (Fintype.card ι : ℝ))
    (hN0 : N ≠ 0) (μ : EReal) (hμ : μ = Ideal.div (∑ i, X i) (N : EReal)) :
    ∃ v : ℝ, 0 ≤ v ∧ Ideal.div (∑ i, (X i - μ) * (X i - μ)) (N : EReal) = (v : EReal) := by
  have hc : (1 / N) * (Fintype.card ι : ℝ) = 1 := by rw [← hN]; field_simp
  rw [Ideal.div_coe hN0] at hμ
  rw [Ideal.div_coe hN0]
  exact variance_isReal_nonneg X hX (1 / N) hc μ hμ

variable [Fintype α] [Fintype β]

/-- The same for a family indexed by two coordinates, its sums taken coordinate by coordinate. -/
theorem variance_by_division₂ (Y : α → β → EReal) (hY : ∀ a b, IsReal (Y a b)) (N : ℝ)
    (hN : N = ((Fintype.card α * Fintype.card β : ℕ) : ℝ)) (hN0 : N ≠ 0) (μ : EReal)
    (hμ : μ = Ideal.div (∑ a, ∑ b, Y a b) (N : EReal)) :
    Ideal.div (∑ a, ∑ b, Y a b * Y a b) (N : EReal) - μ * μ
      = Ideal.div (∑ a, ∑ b, (Y a b - μ) * (Y a b - μ)) (N : EReal) := by
  have h := variance_by_division (fun p : α × β => Y p.1 p.2) (fun p => hY p.1 p.2) N
    (by rw [hN, Fintype.card_prod]) hN0 μ (by rw [hμ, Fintype.sum_prod_type])
  simpa only [Fintype.sum_prod_type] using h

theorem variance_by_division_nonneg₂ (Y : α → β → EReal) (hY : ∀ a b, IsReal (Y a b)) (N : ℝ)
    (hN : N = ((Fintype.card α * Fintype.card β : ℕ) : ℝ)) (hN0 : N ≠ 0) (μ : EReal)
    (hμ : μ = Ideal.div (∑ a, ∑ b, Y a b) (N : EReal)) :
    ∃ v : ℝ, 0 ≤ v ∧ Ideal.div (∑ a, ∑ b, (Y a b - μ) * (Y a b - μ)) (N : EReal) = (v : EReal) := by
  have h := variance_by_division_nonneg (fun p : α × β => Y p.1 p.2) (fun p => hY p.1 p.2) N
    (by rw [hN, Fintype.card_prod]) hN0 μ (by rw [hμ, Fintype.sum_prod_type])
  simpa only [Fintype.sum_prod_type] using h

end Cert.LibVarianceByDivision
-- ==== Proof.BatchNormLaw.lean ====
/-
  The algebra that joins the two programs, on the extended reals; no program is imported.

  A column of the pre-activation matrix is a family `Y a b` of real numbers (`a` the row block, `b` the row inside
  it), `N` their number.  One program normalises an entry `y` as  y * (γ * r) + (β - μ * (γ * r))  with
  r = rsqrt (E[Y²] - μ² + ε); the other as  (y - μ) * r' * γ + β  with r' = rsqrt (E[(Y - μ)²] + ε).  The two
  variances agree because every `Y a b` is a real number (on the extended reals the identity fails at the
  infinities), the variance is a non-negative real, so that with ε a positive real the reciprocal square root is a
  real number, and then the two affine forms agree by distributivity — again a law of the reals only.
-/
import proofs.«149663_j27539330301987_1_alg».proof.Proof.LibVarianceByDivision

noncomputable section

namespace Cert.BatchNormLaw

open Finset Idealize.ShloMosaic Cert.LibBatchMoments Cert.LibVarianceByDivision

/-- For real numbers, scaling then shifting by the folded mean is centring then scaling. -/
theorem affine_two_ways {y μ r γ β : EReal} (hy : IsReal y) (hμ : IsReal μ) (hr : IsReal r) (hγ : IsReal γ)
    (hβ : IsReal β) : y * (γ * r) + (β - μ * (γ * r)) = (y - μ) * r * γ + β := by
  obtain ⟨y, rfl⟩ := hy
  obtain ⟨μ, rfl⟩ := hμ
  obtain ⟨r, rfl⟩ := hr
  obtain ⟨γ, rfl⟩ := hγ
  obtain ⟨β, rfl⟩ := hβ
  simp only [← EReal.coe_mul, ← EReal.coe_sub, ← EReal.coe_add]
  congr 1
  ring

variable {α β : Type} [Fintype α] [Fintype β]

/-- The mean of a doubly indexed family of real numbers, by division by their number, is a real number. -/
theorem isReal_mean (Y : α → β → EReal) (hY : ∀ a b, IsReal (Y a b)) (N : ℝ) (hN0 : N ≠ 0) :
    IsReal (Ideal.div (∑ a, ∑ b, Y a b) (N : EReal)) :=
  isReal_div (isReal_sum₂ Y hY) hN0

/-- THE NORMALISED ENTRY TWO WAYS.  `μ` the mean, the first program's variance the mean of the squares less the
    squared mean, the second's the mean of the squared deviations; `ε` a positive real; `γ`, `βv`, `y` real. -/
theorem normalised_two_ways (Y : α → β → EReal) (hY : ∀ a b, IsReal (Y a b)) (N : ℝ)
    (hN : N = ((Fintype.card α * Fintype.card β : ℕ) : ℝ)) (hN0 : N ≠ 0) (μ : EReal)
    (hμ : μ = Ideal.div (∑ a, ∑ b, Y a b) (N : EReal)) (ε γ βv y : EReal)
    (hε : ∃ e : ℝ, 0 < e ∧ ε = (e : EReal)) (hγ : IsReal γ) (hβ : IsReal βv) (hy : IsReal y) :
    max (y * (γ * Ideal.rsqrt (Ideal.div (∑ a, ∑ b, Y a b * Y a b) (N : EReal) - μ * μ + ε))
          + (βv - μ * (γ * Ideal.rsqrt (Ideal.div (∑ a, ∑ b, Y a b * Y a b) (N : EReal) - μ * μ + ε)))) 0
      = max ((y - μ) * Ideal.rsqrt (Ideal.div (∑ a, ∑ b, (Y a b - μ) * (Y a b - μ)) (N : EReal) + ε) * γ + βv) 0 := by
  rw [variance_by_division₂ Y hY N hN hN0 μ hμ]
  obtain ⟨v, hv0, hv⟩ := variance_by_division_nonneg₂ Y hY N hN hN0 μ hμ
  obtain ⟨e, he0, rfl⟩ := hε
  rw [hv, ← EReal.coe_add]
  have hr : IsReal (Ideal.rsqrt ((v + e : ℝ) : EReal)) := isReal_rsqrt_of_pos (by linarith)
  have hμr : IsReal μ := hμ ▸ isReal_mean Y hY N hN0
  rw [affine_two_ways hy hμr hr hγ hβ]

/-- The small number added to the variance, the f32 nearest to 10⁻⁵, is a positive real. -/
theorem eps_pos : ∃ e : ℝ, 0 < e ∧ Ideal.ofBits .f32 0x3727C5AC#32 = (e : EReal) := by
  refine ⟨_, ?_, by simp [Ideal.ofBits, Ideal.ieee, -EReal.coe_mul]; rfl⟩
  norm_num

/-- The divisor, the f32 pattern of 100000, is the real number 100000. -/
theorem count_eq : Ideal.ofBits .f32 0x47C35000#32 = ((100000 : ℝ) : EReal) := by
  simp [Ideal.ofBits, Ideal.ieee, -EReal.coe_mul]; norm_num

end Cert.BatchNormLaw

end
-- ==== Proof.KernelRead.lean ====
/-
  The kernel program's 1 x 64 rows read at a column, on the extended reals: a 64-vector laid out as a row reads the
  vector; the mean row divides a row of totals by 100000; the scale row is γ · rsqrt (E[h²] − E[h]² + ε) and the shift
  row β − E[h] · scale.
-/
import proofs.«149663_j27539330301987_1_alg».proof.Proof.KernelTerms
import proofs.«149663_j27539330301987_1_alg».proof.Proof.BatchNormLaw
import Idealize.ShloMosaic.Lib.ValueLayout
import Idealize.ShloMosaic.Lib.ValueIdx
import Idealize.ShloMosaic.PureOps.Ideal.Laws

noncomputable section

namespace Cert.KernelIdeal.Read

open Cert.KernelIdeal Cert.KernelIdeal.Terms
open Idealize.ShloMosaic Idealize.ShloMosaic.ValueIdx

theorem biasRow_apply (b : FVec Ideal S64 .f32) (j : Fin 64) : biasRow b (ix2 (0 : Fin 1) j) = b (ix1 j) := by
  unfold biasRow
  exact shapeCast_a_1a_apply b _ 0 j

theorem meanRow_apply (s : FVec Ideal S1x64 .f32) (j : Fin 64) :
    meanRow s (ix2 (0 : Fin 1) j) = Ideal.div (s (ix2 (0 : Fin 1) j)) ((100000 : ℝ) : EReal) := by
  unfold meanRow
  show Ideal.div (s _) (Ideal.ofBits .f32 0x47C35000#32) = _
  rw [Cert.BatchNormLaw.count_eq]

theorem scaleRow_apply (g : FVec Ideal S64 .f32) (s q : FVec Ideal S1x64 .f32) (j : Fin 64) :
    scaleRow g s q (ix2 (0 : Fin 1) j)
      = g (ix1 j) * Ideal.rsqrt (Ideal.div (q (ix2 (0 : Fin 1) j)) ((100000 : ℝ) : EReal)
          - Ideal.div (s (ix2 (0 : Fin 1) j)) ((100000 : ℝ) : EReal) * Ideal.div (s (ix2 (0 : Fin 1) j)) ((100000 : ℝ) : EReal)
          + Ideal.ofBits .f32 0x3727C5AC#32) := by
  unfold scaleRow
  show biasRow g (ix2 (0 : Fin 1) j) * Ideal.rsqrt (meanRow q (ix2 (0 : Fin 1) j)
    - meanRow s (ix2 (0 : Fin 1) j) * meanRow s (ix2 (0 : Fin 1) j) + Ideal.ofBits .f32 0x3727C5AC#32) = _
  rw [biasRow_apply, meanRow_apply, meanRow_apply]

theorem shiftRow_apply (be g : FVec Ideal S64 .f32) (s q : FVec Ideal S1x64 .f32) (j : Fin 64) :
    shiftRow be g s q (ix2 (0 : Fin 1) j)
      = be (ix1 j) - Ideal.div (s (ix2 (0 : Fin 1) j)) ((100000 : ℝ) : EReal) * scaleRow g s q (ix2 (0 : Fin 1) j) := by
  unfold shiftRow
  show biasRow be (ix2 (0 : Fin 1) j) - meanRow s (ix2 (0 : Fin 1) j) * scaleRow g s q (ix2 (0 : Fin 1) j) = _
  rw [biasRow_apply, meanRow_apply]

end Cert.KernelIdeal.Read

end
-- ==== Proof.LibHostMatmul.lean ====
/-
  A host `dot_general` of an `[m, k]` by a `[k, n]` matrix (contracting the first operand's columns with the second's
  rows), read at an entry at the ideal values: the sum over `c : Fin k` of `A (a, c) * B (c, b)`, for arbitrary extents.
  A constant broadcast from a scalar reads that constant's value everywhere.
-/
import Idealize.ShloMosaic.Lib.Pipeline.Value
import Idealize.ShloMosaic.Lib.ValueIdx
import Idealize.ShloMosaic.PureOps.Ideal.Laws

noncomputable section

namespace Idealize.ShloMosaic.DenseLayers

open Idealize.ShloMosaic Idealize.ShloMosaic.ValueIdx

/-- A row-by-column host matrix product read at an entry. -/
theorem dotGeneral_rowcol_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A scalar constant broadcast to any shape reads the constant's value at every index. -/
theorem broadcastInDim_scalar_constant_apply {t : Shape} {φ : FTy} (w : BitVec φ.bits)
    (h : (⟨0, ![]⟩ : Shape).BroadcastsInDim t ![]) (j : t.Idx) :
    broadcastInDim t ![] h (constant (F := Ideal) ⟨0, ![]⟩ φ w) j = Ideal.ofBits φ w := rfl

end Idealize.ShloMosaic.DenseLayers

end
-- ==== Proof.RefRead.lean ====
/-
  The reference's stages read at an index, on the extended reals.  A dense layer's entry is a sum over the 64 input
  features plus the bias; the column sum is the sum over the 100000 nodes (from zero); the mean divides it by 100000;
  the variance is the mean of the squared deviations (its divisor 100000 − 0 is positive, so the guarded select keeps
  it); the normalisation centres, multiplies by rsqrt (variance + ε), scales by γ, shifts by β and rectifies.
-/
import proofs.«149663_j27539330301987_1_alg».proof.Proof.RefTerms
import proofs.«149663_j27539330301987_1_alg».proof.Proof.LibHostMatmul
import proofs.«149663_j27539330301987_1_alg».proof.Proof.BatchNormLaw
import Idealize.ShloMosaic.Lib.IdealHost
import Idealize.ShloMosaic.Lib.Pipeline.Value
import Idealize.ShloMosaic.Lib.ValueIdx
import Idealize.ShloMosaic.PureOps.Ideal.Laws

noncomputable section

namespace Cert.ReferenceIdeal.Read

open Cert.ReferenceIdeal Cert.ReferenceIdeal.Terms
open Idealize.ShloMosaic Idealize.ShloMosaic.ValueIdx Idealize.ShloMosaic.DenseLayers

/-- A 64-vector repeated down the rows reads the vector at the column. -/
theorem rows_apply (v : FVec Ideal S64 .f32) (i : Fin 100000) (j : Fin 64) : rows v (ix2 i j) = v (ix1 j) := by
  unfold rows
  rw [broadcastInDim_apply _ _ _ (ix2 i j) (ix2 (0 : Fin 1) j)
      (fun a => by match a with | ⟨0, _⟩ => rfl | ⟨1, _⟩ => rfl),
    broadcastInDim_apply _ _ _ (ix2 (0 : Fin 1) j) (ix1 j) (fun a => by match a with | ⟨0, _⟩ => rfl)]

/-- The sum over the node axis puts the node coordinate back in front of the feature coordinate. -/
theorem lift_eq (hR : S100000x64.Reduces [0] S64) (j : Fin 64) (k : Fin 100000) : hR.lift (ix1 j) k = ix2 k j := by
  funext a
  refine Fin.ext ?_
  match a with
  | ⟨0, _⟩ => rfl
  | ⟨1, _⟩ => rfl

/-- The column sum at feature `j`: the sum over the nodes. -/
theorem colSum_apply (h : FVec Ideal S100000x64 .f32) (j : Fin 64) : colSum h (ix1 j) = ∑ i : Fin 100000, h (ix2 i j) := by
  have hR : S100000x64.Reduces [0] S64 := by decide
  unfold colSum
  rw [hostReduceAdd_apply, Ideal.hostReduceAdd_single _ hR]
  show Ideal.ofBits .f32 0x00000000#32 + ∑ k : Fin 100000, h (hR.lift (ix1 j) k) = _
  rw [Ideal.ofBits_zero_f32, zero_add]
  exact Finset.sum_congr rfl fun k _ => by rw [lift_eq]

/-- A dense layer's entry. -/
theorem lin_apply (a : FVec Ideal S100000x64 .f32) (W : FVec Ideal S64x64 .f32) (b : FVec Ideal S64 .f32)
    (i : Fin 100000) (j : Fin 64) : lin a W b (ix2 i j) = (∑ k : Fin 64, a (ix2 i k) * W (ix2 k j)) + b (ix1 j) := by
  unfold lin
  rw [addf_apply, rows_apply]
  congr 1
  exact dotGeneral_rowcol_apply Facts₀.dot_S100000x64_S64x64_S100000x64_1_0_0_1_n_n_wf none a W i j

/-- The column mean at feature `j`. -/
theorem colMean_apply (h : FVec Ideal S100000x64 .f32) (j : Fin 64) :
    colMean h (ix1 j) = Ideal.div (∑ i : Fin 100000, h (ix2 i j)) ((100000 : ℝ) : EReal) := by
  unfold colMean
  show Ideal.div (colSum h (ix1 j)) (Ideal.ofBits .f32 0x47C35000#32) = _
  rw [colSum_apply, Cert.BatchNormLaw.count_eq]

/-- The variance's divisor is 100000. -/
theorem varDivisor_apply (i : S_.Idx) : varDivisor i = ((100000 : ℝ) : EReal) := by
  unfold varDivisor
  show Ideal.ofBits .f32 0x47C35000#32 - ((((0#32 : BitVec 32).toInt : ℝ)) : EReal) = _
  rw [Cert.BatchNormLaw.count_eq]
  simp

/-- A deviation from the column mean. -/
theorem deviations_apply (h : FVec Ideal S100000x64 .f32) (i : Fin 100000) (j : Fin 64) :
    deviations h (ix2 i j) = h (ix2 i j) - Ideal.div (∑ i' : Fin 100000, h (ix2 i' j)) ((100000 : ℝ) : EReal) := by
  unfold deviations
  rw [subf_apply, broadcastInDim_apply _ _ _ (ix2 i j) (ix2 (0 : Fin 1) j)
      (fun a => by match a with | ⟨0, _⟩ => rfl | ⟨1, _⟩ => rfl)]
  show _ - Ideal.div (broadcastInDim S1x64 ![1] Facts₀.bcast_S64_S1x64_1 (colSum h) (ix2 (0 : Fin 1) j))
    (Ideal.ofBits .f32 0x47C35000#32) = _
  rw [broadcastInDim_apply _ _ _ (ix2 (0 : Fin 1) j) (ix1 j) (fun a => by match a with | ⟨0, _⟩ => rfl),
    colSum_apply, Cert.BatchNormLaw.count_eq]

/-- The column variance at feature `j`: the mean of the squared deviations. -/
theorem colVar_apply (h : FVec Ideal S100000x64 .f32) (j : Fin 64) :
    colVar h (ix1 j) = Ideal.div (∑ i : Fin 100000, deviations h (ix2 i j) * deviations h (ix2 i j)) ((100000 : ℝ) : EReal) := by
  unfold colVar
  rw [select_apply]
  have hc : broadcastInDim S64 ![] Facts₀.bcast_S_S64 (cmpf .ogt varDivisor (constant (F := Ideal) S_ .f32 0x00000000#32)) (ix1 j) = 1#1 := by
    show Ideal.cmp .ogt (varDivisor _) (Ideal.ofBits .f32 0x00000000#32) = 1#1
    rw [varDivisor_apply, Ideal.ofBits_zero_f32]
    simp [Ideal.cmp]
  rw [hc]
  show Ideal.div (colSum (mulf (deviations h) (deviations h)) (ix1 j)) (varDivisor _) = _
  rw [colSum_apply, varDivisor_apply]
  rfl

/-- The normalised, rectified entry. -/
theorem bnRelu_apply (h : FVec Ideal S100000x64 .f32) (g be : FVec Ideal S64 .f32) (i : Fin 100000) (j : Fin 64) :
    bnRelu h g be (ix2 i j)
      = max ((h (ix2 i j) - colMean h (ix1 j)) * Ideal.rsqrt (colVar h (ix1 j) + Ideal.ofBits .f32 0x3727C5AC#32) * g (ix1 j)
          + be (ix1 j)) 0 := by
  unfold bnRelu
  rw [maximumf_apply, addf_apply, mulf_apply, mulf_apply, subf_apply, rows_apply, rows_apply, rows_apply, rows_apply]
  show max _ (Ideal.ofBits .f32 0x00000000#32) = _
  rw [Ideal.ofBits_zero_f32]
  rfl

end Cert.ReferenceIdeal.Read

end
-- ==== Proof.LibFiniteSums.lean ====
/-
  General lemmas on finite sums, for value proofs on the extended reals. Nothing here mentions a program.

  * `sum_split`     a sum over `Fin N`, `N = m * n`, as the double sum over `a < m`, `b < n` at position `b + n * a`
                    (an array axis cut into `m` blocks of `n`);
  * `sum_comm4`     four nested sums over finite types: the inner two move outside;
  * `sum_mul_coe`   `(∑ f) * x = ∑ (f * x)` on the extended reals for a real `x ≥ 0`, whatever the terms are
                    (infinities of both signs included): a mean's division by a positive count distributes over a sum;
  * `sum_idx1`, `sum_idx3`   a sum over a rank-1 / rank-3 index set of literal extents as the sum over its coordinates
                    (the library's `ValueIdx.sum_idx2` at the two neighbouring ranks).
-/
import Mathlib.Data.EReal.Basic
import Mathlib.Data.EReal.Operations
import Mathlib.Algebra.BigOperators.Fin
import Mathlib.Algebra.BigOperators.Intervals
import Mathlib.Logic.Equiv.Fin.Basic
import Idealize.ShloMosaic.Lib.ValueIdx

noncomputable section

open scoped BigOperators
open Idealize.ShloMosaic Idealize.ShloMosaic.ValueIdx

namespace Cert.LibFiniteSums

/-! ## Re-indexing -/

/-- A sum over `Fin N` with `N = m * n` is the double sum over `a < m`, `b < n` at position `b + n * a`. -/
theorem sum_split {M : Type*} [AddCommMonoid M] (m n N : ℕ) (h : m * n = N) (g : Fin N → M) :
    ∑ x, g x = ∑ a : Fin m, ∑ b : Fin n,
      g ⟨b.val + n * a.val, h ▸ (finProdFinEquiv (a, b)).isLt⟩ := by
  subst h
  rw [← Equiv.sum_comp finProdFinEquiv g, Fintype.sum_prod_type]
  rfl

/-- Four nested sums: the inner two move outside. -/
theorem sum_comm4 {M : Type*} [AddCommMonoid M] {α β γ δ : Type*} [Fintype α] [Fintype β] [Fintype γ] [Fintype δ]
    (X : α → β → γ → δ → M) :
    ∑ a, ∑ b, ∑ c, ∑ d, X a b c d = ∑ c, ∑ d, ∑ a, ∑ b, X a b c d := by
  calc ∑ a, ∑ b, ∑ c, ∑ d, X a b c d
      = ∑ a, ∑ c, ∑ b, ∑ d, X a b c d := Finset.sum_congr rfl fun a _ => Finset.sum_comm
    _ = ∑ c, ∑ a, ∑ b, ∑ d, X a b c d := Finset.sum_comm
    _ = ∑ c, ∑ a, ∑ d, ∑ b, X a b c d :=
        Finset.sum_congr rfl fun c _ => Finset.sum_congr rfl fun a _ => Finset.sum_comm
    _ = ∑ c, ∑ d, ∑ a, ∑ b, X a b c d := Finset.sum_congr rfl fun c _ => Finset.sum_comm

/-! ## A non-negative real factor and a finite sum -/

/-- `(∑ f) * x = ∑ (f * x)` for a real `x ≥ 0`, whatever the terms are (infinities of both signs included). -/
theorem sum_mul_coe {ι : Type*} (s : Finset ι) (f : ι → EReal) {x : ℝ} (hx : 0 ≤ x) :
    (∑ i ∈ s, f i) * (x : EReal) = ∑ i ∈ s, f i * (x : EReal) := by
  classical
  induction s using Finset.induction_on with
  | empty => simp
  | insert a s ha ih =>
    rw [Finset.sum_insert ha, Finset.sum_insert ha,
      EReal.right_distrib_of_nonneg_of_ne_top (EReal.coe_nonneg.mpr hx) (EReal.coe_ne_top x), ih]

/-! ## Sums over index sets of rank 1 and 3 -/

/-- A sum over a rank-1 index set is the sum over its one coordinate. -/
def idxEquiv1 {n : Nat} : (⟨1, ![n]⟩ : Shape).Idx ≃ Fin n where
  toFun i := i 0
  invFun a := ix1 a
  left_inv i := (eq_ix1 i).symm
  right_inv _ := rfl
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A rank-3 index set is the product of its three coordinate ranges, so a sum over it is the triple sum. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.LibFiniteSums

end
-- ==== Proof.NormalisedEq.lean ====
/-
  The normalisation, the two programs' ways, agree entry by entry.
  `H` is the pre-activation matrix (100000 x 64), every entry a real number.  One program accumulates, block of 5000
  rows by block, the column sums `S` and sums of squares `Q`, forms mean = S/100000, variance = Q/100000 − mean²,
  scale = γ·rsqrt(variance + ε), shift = β − mean·scale and emits max(H·scale + shift, 0).  The other takes the mean
  and the mean squared deviation over all 100000 rows at once and emits max((H − mean)·rsqrt(variance + ε)·γ + β, 0).
  A sum over the 100000 rows is the sum over the 20 blocks of the sums over each block's 5000 rows; with that the two
  are the two sides of the batch-normalisation law, which holds because the entries are real.
-/
import proofs.«149663_j27539330301987_1_alg».proof.Proof.KernelRead
import proofs.«149663_j27539330301987_1_alg».proof.Proof.RefRead
import proofs.«149663_j27539330301987_1_alg».proof.Proof.BlockValues
import proofs.«149663_j27539330301987_1_alg».proof.Proof.LibFiniteSums
import proofs.«149663_j27539330301987_1_alg».proof.Proof.BatchNormLaw
import proofs.«149663_j27539330301987_1_alg».proof.Proof.Spec

noncomputable section

namespace Cert.NormalisedEq

open Idealize.ShloMosaic Idealize.ShloMosaic.ValueIdx Cert.Spec Cert.LibBatchMoments
open Cert.KernelIdeal.BlockValues (affineRelu affineRelu_def)

/-- A sum over the 100000 rows, block by block. -/
theorem sum_rows {M : Type} [AddCommMonoid M] (f : Fin 100000 → M) :
    ∑ i, f i = ∑ t : Fin 20, ∑ r : Fin 5000, f (rowOf t r) := by
  rw [Cert.LibFiniteSums.sum_split 20 5000 100000 (by norm_num) f]
  refine Finset.sum_congr rfl fun t _ => Finset.sum_congr rfl fun r _ => congrArg f (Fin.ext ?_)
  show r.val + 5000 * t.val = 5000 * t.val + r.val
  omega

/-- A dense layer of real numbers is real. -/
theorem dense_isReal (A : NodeIdx → EReal) (W : WeightIdx → EReal) (b : RowIdx → EReal) (hA : ∀ x, IsReal (A x))
    (hW : ∀ x, IsReal (W x)) (hb : ∀ x, IsReal (b x)) (i : Fin 100000) (j : Fin 64) : IsReal (dense A W b i j) := by
  unfold dense
  exact (isReal_sum _ _ fun k _ => (hA _).mul (hW _)).add (hb _)

/-- THE NORMALISED ENTRY: accumulated statistics, scale and shift — against centring by the mean and the mean squared
    deviation. -/
theorem normalised_eq (H : NodeIdx → EReal) (hH : ∀ x, IsReal (H x))
    (g be : (⟨1, ![64]⟩ : Shape).Idx → EReal) (hg : ∀ x, IsReal (g x)) (hbe : ∀ x, IsReal (be x))
    (S Q : RowIdx → EReal)
    (hS : ∀ j : Fin 64, S (ix2 (0 : Fin 1) j) = ∑ t : Fin 20, ∑ r : Fin 5000, H (ix2 (rowOf t r) j))
    (hQ : ∀ j : Fin 64, Q (ix2 (0 : Fin 1) j) = ∑ t : Fin 20, ∑ r : Fin 5000, H (ix2 (rowOf t r) j) * H (ix2 (rowOf t r) j))
    (i : Fin 100000) (j : Fin 64) :
    affineRelu H (Cert.KernelIdeal.Terms.scaleRow g S Q) (Cert.KernelIdeal.Terms.shiftRow be g S Q) i j
      = Cert.ReferenceIdeal.Terms.bnRelu H g be (ix2 i j) := by
  rw [affineRelu_def, Cert.KernelIdeal.Read.shiftRow_apply, Cert.KernelIdeal.Read.scaleRow_apply, hS, hQ,
    Cert.ReferenceIdeal.Read.bnRelu_apply, Cert.ReferenceIdeal.Read.colMean_apply, Cert.ReferenceIdeal.Read.colVar_apply]
  simp only [Cert.ReferenceIdeal.Read.deviations_apply]
  simp only [sum_rows (fun i : Fin 100000 => H (ix2 i j))]
  rw [sum_rows (fun i : Fin 100000 =>
    (H (ix2 i j) - Ideal.div (∑ t : Fin 20, ∑ r : Fin 5000, H (ix2 (rowOf t r) j)) ((100000 : ℝ) : EReal))
      * (H (ix2 i j) - Ideal.div (∑ t : Fin 20, ∑ r : Fin 5000, H (ix2 (rowOf t r) j)) ((100000 : ℝ) : EReal)))]
  exact Cert.BatchNormLaw.normalised_two_ways (fun (t : Fin 20) (r : Fin 5000) => H (ix2 (rowOf t r) j))
    (fun t r => hH _) 100000 (by simp) (by norm_num) _ rfl _ _ _ _ Cert.BatchNormLaw.eps_pos (hg _) (hbe _) (hH _)

end Cert.NormalisedEq

end
-- ==== Proof.LibRowGatherScatter.lean ====
/-
  Row gather, element gather and row scatter of StableHLO, read at an index.

  The dimension numbers that `x[idx]` over the rows of a matrix, `x[idx]` over a flat array and a row-wise
  segment sum lower to, each with start indices of shape `[E, 1]` (one scalar index per gathered or scattered row):
  a gathered row is the operand's row at the start index read signed and clamped into `[0, N - 1]`; a scattered
  update row lands on the operand row whose number is the scatter index read signed and not clamped, and is dropped when
  that number is outside `[0, N)`; the column is kept in both.
-/
import Idealize.ShloMosaic.PureOps.Ideal
import Idealize.ShloMosaic.Lib.ValueIdx

noncomputable section

namespace Idealize.ShloMosaic.RowGatherScatter

open Idealize.ShloMosaic Idealize.ShloMosaic.ValueIdx

/-- A signed start index clamped into `[0, N - 1]`, as StableHLO's gather clamps it. -/
def clampRow {w : Nat} (N : Nat) (hN : 0 < N) (v : BitVec w) : Fin N := ⟨min v.toInt.toNat (N - 1), by omega⟩

/-! ## Row gather: operand `[N, D]`, start indices `[E, 1]`, result `[E, D]` -/

/-- The dimension numbers of a gather of whole rows: the result's axis 1 is the offset axis, the operand's axis 0 is
    collapsed and is the one the start index names, the slice is one row `[1, D]`. -/
abbrev rowGatherDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The start-indices index at which result index `(e, j)` of a row gather reads its one start-index component
    is `(e, 0)`. -/
theorem rowGather_siIdx {N E D : Nat}
    (wf : GatherDims.WF ⟨2, ![N, D]⟩ ⟨2, ![E, 1]⟩ ⟨2, ![E, D]⟩ [1] [0] [] [0] [] 1 ![1, D])
    (e : Fin E) (j : Fin D) (c : Fin (rowGatherDims N E D wf).startIndexMap.length) :
    (rowGatherDims N E D wf).siIdx (ix2 e j) c = ix2 e (0 : Fin 1) := by
  funext b
  refine Fin.ext ?_
  match b with
  | ⟨0, _⟩ => rfl
  | ⟨1, _⟩ =>
    have hc : c.val < 1 := c.isLt
    show c.val = 0
    omega

/-- THE ROW GATHER READ AT `(e, j)`: the operand at row "start index `idx[e, 0]` read signed and clamped into
    `[0, N - 1]`", column `j`. -/
theorem gather_rows_apply {α : Type} {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (j : Fin D) :
    Host.gather (rowGatherDims N E D wf) x idx (ix2 e j) = x (ix2 (clampRow N hN (idx (ix2 e (0 : Fin 1)))) j) := by
  unfold Host.gather
  congr 1
  funext a
  refine Fin.ext ?_
  match a with
  | ⟨0, _⟩ =>
    show (rowGatherDims N E D wf).start (ix2 e j) idx 0 + (rowGatherDims N E D wf).batchCoord (ix2 e j) 0
      + (rowGatherDims N E D wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E D wf).startIndexMap from List.mem_singleton.mpr rfl)]
    rw [rowGather_siIdx]
    rfl
  | ⟨1, _⟩ =>
    show (rowGatherDims N E D wf).start (ix2 e j) idx 1 + (rowGatherDims N E D wf).batchCoord (ix2 e j) 1
      + (rowGatherDims N E D wf).offCoord (ix2 e j) 1 = j.val
    rw [GatherDims.batchCoord_eq_zero _ _ _ List.not_mem_nil]
    have hs : (rowGatherDims N E D wf).start (ix2 e j) idx 1 = 0 := by
      unfold GatherDims.start
      rw [dif_neg (show (1 : Fin 2) ∉ [(0 : Fin 2)] by decide)]
    rw [hs]
    simp only [Nat.add_zero, Nat.zero_add]
    rfl

/-! ## Element gather: operand `[N]`, start indices `[E, 1]`, result `[E]` -/

/-- The dimension numbers of a gather of single elements of a flat array: no offset axis, the operand's one axis
    collapsed and named by the start index, the slice one element. -/
abbrev elemGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The start-indices index at which result index `e` of an element gather reads its one start-index component
    is `(e, 0)`. -/
theorem elemGather_siIdx {N E : Nat}
    (wf : GatherDims.WF ⟨1, ![N]⟩ ⟨2, ![E, 1]⟩ ⟨1, ![E]⟩ [] [0] [] [0] [] 1 ![1])
    (e : Fin E) (c : Fin (elemGatherDims N E wf).startIndexMap.length) :
    (elemGatherDims N E wf).siIdx (ix1 e) c = ix2 e (0 : Fin 1) := by
  funext b
  refine Fin.ext ?_
  match b with
  | ⟨0, _⟩ => rfl
  | ⟨1, _⟩ =>
    have hc : c.val < 1 := c.isLt
    show c.val = 0
    omega

/-- THE ELEMENT GATHER READ AT `e`: the operand at "start index `idx[e, 0]` read signed and clamped into
    `[0, N - 1]`". -/
theorem gather_elems_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (elemGatherDims N E wf) x idx (ix1 e) = x (ix1 (clampRow N hN (idx (ix2 e (0 : Fin 1))))) := by
  unfold Host.gather
  congr 1
  funext a
  obtain rfl : a = 0 := Subsingleton.elim _ _
  refine Fin.ext ?_
  show (elemGatherDims N E wf).start (ix1 e) idx 0 + (elemGatherDims N E wf).batchCoord (ix1 e) 0
    + (elemGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (elemGatherDims N E wf).startIndexMap from List.mem_singleton.mpr rfl)]
  rw [elemGather_siIdx]
  rfl

/-! ## Row scatter: operand `[N, D]`, scatter indices `[E, 1]`, updates `[E, D]` -/

/-- The dimension numbers of a scatter of whole rows: the updates' axis 1 is the window axis, the operand's axis 0 is
    inserted and is the one the scatter index names. -/
abbrev rowScatterDims (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- The scatter-indices index at which update index `(e, j)` of a row scatter reads its one start-index component
    is `(e, 0)`. -/
theorem rowScatter_siIdx {N E D : Nat}
    (wf : ScatterDims.WF ⟨2, ![N, D]⟩ ⟨2, ![E, 1]⟩ ⟨2, ![E, D]⟩ [1] [0] [0] 1)
    (e : Fin E) (j : Fin D) (c : Fin (rowScatterDims N E D wf).scatterDimsToOperandDims.length) :
    (rowScatterDims N E D wf).siIdx (ix2 e j) c = ix2 e (0 : Fin 1) := by
  funext b
  refine Fin.ext ?_
  match b with
  | ⟨0, _⟩ => rfl
  | ⟨1, _⟩ =>
    have hc : c.val < 1 := c.isLt
    show c.val = 0
    omega

/-- On the row axis the window of update `(e, j)` starts at the scatter index `idx[e, 0]` read signed. -/
theorem rowScatter_start_row {N E D w : Nat}
    (wf : ScatterDims.WF ⟨2, ![N, D]⟩ ⟨2, ![E, 1]⟩ ⟨2, ![E, D]⟩ [1] [0] [0] 1)
    (idx : IVec ⟨2, ![E, 1]⟩ w) (e : Fin E) (j : Fin D) :
    (rowScatterDims N E D wf).start (ix2 e j) idx 0 = (idx (ix2 e (0 : Fin 1))).toInt := by
  unfold ScatterDims.start
  rw [dif_pos (show (0 : Fin 2) ∈ (rowScatterDims N E D wf).scatterDimsToOperandDims from List.mem_singleton.mpr rfl)]
  rw [rowScatter_siIdx]

/-- On the column axis the window starts at `0`: the scatter index does not name that axis. -/
theorem rowScatter_start_col {N E D w : Nat}
    (wf : ScatterDims.WF ⟨2, ![N, D]⟩ ⟨2, ![E, 1]⟩ ⟨2, ![E, D]⟩ [1] [0] [0] 1)
    (idx : IVec ⟨2, ![E, 1]⟩ w) (e : Fin E) (j : Fin D) :
    (rowScatterDims N E D wf).start (ix2 e j) idx 1 = 0 := by
  unfold ScatterDims.start
  rw [dif_neg (show (1 : Fin 2) ∉ [(0 : Fin 2)] by decide)]

/-- The window coordinate of update `(e, j)` on the row axis is `0`: that axis is inserted. -/
theorem rowScatter_window_row {N E D : Nat}
    (wf : ScatterDims.WF ⟨2, ![N, D]⟩ ⟨2, ![E, 1]⟩ ⟨2, ![E, D]⟩ [1] [0] [0] 1) (e : Fin E) (j : Fin D) :
    (rowScatterDims N E D wf).window (ix2 e j) 0 = 0 := rfl

/-- The window coordinate of update `(e, j)` on the column axis is the column `j`. -/
theorem rowScatter_window_col {N E D : Nat}
    (wf : ScatterDims.WF ⟨2, ![N, D]⟩ ⟨2, ![E, 1]⟩ ⟨2, ![E, D]⟩ [1] [0] [0] 1) (e : Fin E) (j : Fin D) :
    (rowScatterDims N E D wf).window (ix2 e j) 1 = j.val := rfl

/-- WHERE A SCATTERED ROW LANDS: update row `e` lands on operand row `n` exactly when its scatter index
    `idx[e, 0]`, read signed and NOT clamped, is `n`; the column is kept. -/
theorem rowScatter_resultIdx?_eq_some {N E D w : Nat}
    (wf : ScatterDims.WF ⟨2, ![N, D]⟩ ⟨2, ![E, 1]⟩ ⟨2, ![E, D]⟩ [1] [0] [0] 1)
    (idx : IVec ⟨2, ![E, 1]⟩ w) (e : Fin E) (j : Fin D) (i : (⟨2, ![N, D]⟩ : Shape).Idx)
    (h : (rowScatterDims N E D wf).resultIdx? (ix2 e j) idx = some i) :
    ∃ n : Fin N, i = ix2 n j ∧ (idx (ix2 e (0 : Fin 1))).toInt = (n.val : Int) := by
  unfold ScatterDims.resultIdx? at h
  split at h
  · rename_i hin
    have h0 := hin 0
    rw [rowScatter_start_row, rowScatter_window_row] at h0
    have hsize : (⟨2, ![N, D]⟩ : Shape).size 0 = N := rfl
    rw [hsize] at h0
    have hi := Option.some.inj h
    refine ⟨⟨(idx (ix2 e (0 : Fin 1))).toInt.toNat, by omega⟩, ?_, by simp only; omega⟩
    rw [← hi]
    funext a
    refine Fin.ext ?_
    match a with
    | ⟨0, _⟩ =>
      show ((rowScatterDims N E D wf).start (ix2 e j) idx 0 + ((rowScatterDims N E D wf).window (ix2 e j) 0 : Nat)).toNat
        = (idx (ix2 e (0 : Fin 1))).toInt.toNat
      rw [rowScatter_start_row, rowScatter_window_row]
      simp
    | ⟨1, _⟩ =>
      show ((rowScatterDims N E D wf).start (ix2 e j) idx 1 + ((rowScatterDims N E D wf).window (ix2 e j) 1 : Nat)).toNat
        = j.val
      rw [rowScatter_start_col, rowScatter_window_col]
      simp
  · exact absurd h (by simp)

/-- The converse: when the scatter index `idx[e, 0]`, read signed, is the row number `n < N`, update
    `(e, j)` lands at `(n, j)`. -/
theorem rowScatter_resultIdx?_of_toInt {N E D w : Nat}
    (wf : ScatterDims.WF ⟨2, ![N, D]⟩ ⟨2, ![E, 1]⟩ ⟨2, ![E, D]⟩ [1] [0] [0] 1)
    (idx : IVec ⟨2, ![E, 1]⟩ w) (e : Fin E) (j : Fin D) (n : Fin N)
    (hn : (idx (ix2 e (0 : Fin 1))).toInt = (n.val : Int)) :
    (rowScatterDims N E D wf).resultIdx? (ix2 e j) idx = some (ix2 n j) := by
  have hin : ∀ a, 0 ≤ (rowScatterDims N E D wf).start (ix2 e j) idx a + (rowScatterDims N E D wf).window (ix2 e j) a ∧
      (rowScatterDims N E D wf).start (ix2 e j) idx a + (rowScatterDims N E D wf).window (ix2 e j) a
        < (⟨2, ![N, D]⟩ : Shape).size a := by
    intro a
    match a with
    | ⟨0, _⟩ =>
      have hsize : (⟨2, ![N, D]⟩ : Shape).size ⟨0, by omega⟩ = N := rfl
      have h0 : (rowScatterDims N E D wf).start (ix2 e j) idx ⟨0, by omega⟩ = (n.val : Int) :=
        (rowScatter_start_row wf idx e j).trans hn
      have h1 : (rowScatterDims N E D wf).window (ix2 e j) ⟨0, by omega⟩ = 0 := rfl
      have := n.isLt
      rw [hsize, h0, h1]
      omega
    | ⟨1, _⟩ =>
      have hsize : (⟨2, ![N, D]⟩ : Shape).size ⟨1, by omega⟩ = D := rfl
      have h0 : (rowScatterDims N E D wf).start (ix2 e j) idx ⟨1, by omega⟩ = 0 := rowScatter_start_col wf idx e j
      have h1 : (rowScatterDims N E D wf).window (ix2 e j) ⟨1, by omega⟩ = j.val := rfl
      have := j.isLt
      rw [hsize, h0, h1]
      omega
  unfold ScatterDims.resultIdx?
  rw [dif_pos hin]
  congr 1
  funext a
  refine Fin.ext ?_
  match a with
  | ⟨0, _⟩ =>
    show ((rowScatterDims N E D wf).start (ix2 e j) idx 0 + ((rowScatterDims N E D wf).window (ix2 e j) 0 : Nat)).toNat
      = n.val
    rw [rowScatter_start_row, rowScatter_window_row, hn]
    simp
  | ⟨1, _⟩ =>
    show ((rowScatterDims N E D wf).start (ix2 e j) idx 1 + ((rowScatterDims N E D wf).window (ix2 e j) 1 : Nat)).toNat
      = j.val
    rw [rowScatter_start_col, rowScatter_window_col]
    simp

/-! ## Element scatter: operand `[N]`, scatter indices `[E, 1]`, updates `[E]` -/

/-- The dimension numbers of a scatter of single elements into a flat array: no window axis, the operand's one axis
    inserted and named by the scatter index. -/
abbrev elemScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The scatter-indices index at which update index `e` of an element scatter reads its one start-index component
    is `(e, 0)`. -/
theorem elemScatter_siIdx {N E : Nat}
    (wf : ScatterDims.WF ⟨1, ![N]⟩ ⟨2, ![E, 1]⟩ ⟨1, ![E]⟩ [] [0] [0] 1)
    (e : Fin E) (c : Fin (elemScatterDims N E wf).scatterDimsToOperandDims.length) :
    (elemScatterDims N E wf).siIdx (ix1 e) c = ix2 e (0 : Fin 1) := by
  funext b
  refine Fin.ext ?_
  match b with
  | ⟨0, _⟩ => rfl
  | ⟨1, _⟩ =>
    have hc : c.val < 1 := c.isLt
    show c.val = 0
    omega

/-- The window of update `e` starts at the scatter index `idx[e, 0]` read signed. -/
theorem elemScatter_start {N E w : Nat}
    (wf : ScatterDims.WF ⟨1, ![N]⟩ ⟨2, ![E, 1]⟩ ⟨1, ![E]⟩ [] [0] [0] 1)
    (idx : IVec ⟨2, ![E, 1]⟩ w) (e : Fin E) :
    (elemScatterDims N E wf).start (ix1 e) idx 0 = (idx (ix2 e (0 : Fin 1))).toInt := by
  unfold ScatterDims.start
  rw [dif_pos (show (0 : Fin 1) ∈ (elemScatterDims N E wf).scatterDimsToOperandDims from List.mem_singleton.mpr rfl)]
  rw [elemScatter_siIdx]

/-- The window coordinate of update `e` on the one axis is `0`: that axis is inserted. -/
theorem elemScatter_window {N E : Nat}
    (wf : ScatterDims.WF ⟨1, ![N]⟩ ⟨2, ![E, 1]⟩ ⟨1, ![E]⟩ [] [0] [0] 1) (e : Fin E) :
    (elemScatterDims N E wf).window (ix1 e) 0 = 0 := rfl

/-- WHERE A SCATTERED ELEMENT LANDS: update `e` lands on operand element `n` exactly when its scatter index
    `idx[e, 0]`, read signed and NOT clamped, is `n`. -/
theorem elemScatter_resultIdx?_eq_some {N E w : Nat}
    (wf : ScatterDims.WF ⟨1, ![N]⟩ ⟨2, ![E, 1]⟩ ⟨1, ![E]⟩ [] [0] [0] 1)
    (idx : IVec ⟨2, ![E, 1]⟩ w) (e : Fin E) (i : (⟨1, ![N]⟩ : Shape).Idx)
    (h : (elemScatterDims N E wf).resultIdx? (ix1 e) idx = some i) :
    ∃ n : Fin N, i = ix1 n ∧ (idx (ix2 e (0 : Fin 1))).toInt = (n.val : Int) := by
  unfold ScatterDims.resultIdx? at h
  split at h
  · rename_i hin
    have h0 := hin 0
    rw [elemScatter_start, elemScatter_window] at h0
    have hsize : (⟨1, ![N]⟩ : Shape).size 0 = N := rfl
    rw [hsize] at h0
    have hi := Option.some.inj h
    refine ⟨⟨(idx (ix2 e (0 : Fin 1))).toInt.toNat, by omega⟩, ?_, by simp only; omega⟩
    rw [← hi]
    funext a
    obtain rfl : a = 0 := Subsingleton.elim _ _
    refine Fin.ext ?_
    show ((elemScatterDims N E wf).start (ix1 e) idx 0 + ((elemScatterDims N E wf).window (ix1 e) 0 : Nat)).toNat
      = (idx (ix2 e (0 : Fin 1))).toInt.toNat
    rw [elemScatter_start, elemScatter_window]
    simp
  · exact absurd h (by simp)

/-- The converse: when the scatter index `idx[e, 0]`, read signed, is the element number `n < N`, update
    `e` lands at `n`. -/
theorem elemScatter_resultIdx?_of_toInt {N E w : Nat}
    (wf : ScatterDims.WF ⟨1, ![N]⟩ ⟨2, ![E, 1]⟩ ⟨1, ![E]⟩ [] [0] [0] 1)
    (idx : IVec ⟨2, ![E, 1]⟩ w) (e : Fin E) (n : Fin N)
    (hn : (idx (ix2 e (0 : Fin 1))).toInt = (n.val : Int)) :
    (elemScatterDims N E wf).resultIdx? (ix1 e) idx = some (ix1 n) := by
  have hin : ∀ a, 0 ≤ (elemScatterDims N E wf).start (ix1 e) idx a + (elemScatterDims N E wf).window (ix1 e) a ∧
      (elemScatterDims N E wf).start (ix1 e) idx a + (elemScatterDims N E wf).window (ix1 e) a
        < (⟨1, ![N]⟩ : Shape).size a := by
    intro a
    obtain rfl : a = 0 := Subsingleton.elim _ _
    have hsize : (⟨1, ![N]⟩ : Shape).size 0 = N := rfl
    have h0 : (elemScatterDims N E wf).start (ix1 e) idx 0 = (n.val : Int) := (elemScatter_start wf idx e).trans hn
    have h1 : (elemScatterDims N E wf).window (ix1 e) 0 = 0 := rfl
    have := n.isLt
    rw [hsize, h0, h1]
    omega
  unfold ScatterDims.resultIdx?
  rw [dif_pos hin]
  congr 1
  funext a
  obtain rfl : a = 0 := Subsingleton.elim _ _
  refine Fin.ext ?_
  show ((elemScatterDims N E wf).start (ix1 e) idx 0 + ((elemScatterDims N E wf).window (ix1 e) 0 : Nat)).toNat = n.val
  rw [elemScatter_start, elemScatter_window, hn]
  simp

/-! ## A start index that is a row number -/

/-- A start index whose signed value is a row number `n < N` is clamped to `n` itself. -/
theorem clampRow_of_toInt {N : Nat} (hN : 0 < N) (v : BitVec 32) (n : Fin N) (h : v.toInt = (n.val : Int)) :
    clampRow N hN v = n := by
  refine Fin.ext ?_
  have hn := n.isLt
  show min v.toInt.toNat (N - 1) = n.val
  rw [h]
  simp only [Int.toNat_natCast]
  omega

/-- The signed comparison "`v < 0`" of a 32-bit word whose signed value is a natural number is the bit `0`. -/
theorem cmpi_slt_zero_of_toInt (v : BitVec 32) (n : Nat) (h : v.toInt = (n : Int)) :
    IntOp.cmpi .slt v 0#32 = 0#1 := by
  have hs : v.slt 0#32 = false := by
    simp only [BitVec.slt, h]
    simp
  show BitVec.ofBool (v.slt 0#32) = 0#1
  rw [hs]
  rfl

/-- Normalising a possibly negative index (`v < 0 → v + N`) leaves alone a word whose signed value is a natural
    number: the select takes its second operand, whatever the first is. -/
theorem select_slt_zero_of_toInt {α : Type} (v : BitVec 32) (n : Nat) (h : v.toInt = (n : Int)) (a b : α) :
    Scalar.select (IntOp.cmpi .slt v 0#32) a b = b := by
  rw [cmpi_slt_zero_of_toInt v n h]
  exact select_zero a b

/-- The normalised index as a program computes it at one element, `select (cmpi slt v 0) (addi v N) v`, is `v`
    when `v`'s signed value is a natural number. -/
theorem normalised_of_toInt (v : BitVec 32) (n : Nat) (h : v.toInt = (n : Int)) (N : BitVec 32) :
    Scalar.select (IntOp.cmpi .slt v 0#32) (IntOp.addi v N) v = v :=
  select_slt_zero_of_toInt v n h _ _

/-- The same with the sum written as the words' sum (`IntOp.addi v N` is `v + N` by definition). -/
theorem normalised_of_toInt' (v : BitVec 32) (n : Nat) (h : v.toInt = (n : Int)) (N : BitVec 32) :
    Scalar.select (IntOp.cmpi .slt v 0#32) (v + N) v = v :=
  select_slt_zero_of_toInt v n h _ _

end Idealize.ShloMosaic.RowGatherScatter

end
-- ==== Proof.LibScatterAddSum.lean ====
/-
  The accumulating float scatter on the extended reals, read at an index.

  At the exact instance a scatter-add delivers each operand element plus the sum of the update elements that land on
  it.  For a scatter of whole rows (and of single elements of a flat array) with one scalar index per update row, the
  updates landing on row `n` are those of the update rows whose index, read signed, is `n`: the sum over update
  indices becomes a sum over those update rows.
-/
import Idealize.ShloMosaic.PureOps.Ideal
import Idealize.ShloMosaic.Lib.ValueIdx
import proofs.«149663_j27539330301987_1_alg».proof.Proof.LibRowGatherScatter

noncomputable section

open scoped BigOperators

namespace Idealize.ShloMosaic.RowGatherScatter

open Idealize.ShloMosaic Idealize.ShloMosaic.ValueIdx

/-- Two rank-2 indices built from coordinates are equal only when the coordinates are. -/
theorem ix2_inj {n0 n1 : Nat} {a a' : Fin n0} {b b' : Fin n1} (h : ix2 a b = ix2 a' b') : a = a' ∧ b = b' :=
  ⟨congrFun h 0, congrFun h 1⟩

/-- Two rank-1 indices built from a coordinate are equal only when the coordinates are. -/
theorem ix1_inj {n0 : Nat} {a a' : Fin n0} (h : ix1 a = ix1 a') : a = a' := congrFun h 0

/-- THE ROW SCATTER-ADD READ AT `(n, j)`: the operand's element plus the sum, over the update rows `e` whose scatter
    index `idx[e, 0]` read signed is `n`, of the update's element `(e, j)`. -/
theorem rowScatterAdd_apply {N E D w : Nat}
    (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ w)
    (upd : (⟨2, ![E, D]⟩ : Shape).Idx → EReal) (n : Fin N) (j : Fin D) :
    Ideal.hostScatterAdd (rowScatterDims N E D wf) x idx upd (ix2 n j)
      = x (ix2 n j) + ∑ e ∈ Finset.univ.filter (fun e : Fin E => (idx (ix2 e (0 : Fin 1))).toInt = (n.val : Int)),
          upd (ix2 e j) := by
  unfold Ideal.hostScatterAdd
  congr 1
  symm
  refine Finset.sum_bij (fun e _ => ix2 e j) ?_ ?_ ?_ ?_
  · intro e he
    rw [Finset.mem_filter] at he ⊢
    exact ⟨Finset.mem_univ _, rowScatter_resultIdx?_of_toInt wf idx e j n he.2⟩
  · intro a _ b _ h
    exact (ix2_inj h).1
  · intro u hu
    rw [Finset.mem_filter] at hu
    obtain ⟨p, q, rfl⟩ : ∃ (p : Fin E) (q : Fin D), u = ix2 p q := ⟨u 0, u 1, eq_ix2 u⟩
    obtain ⟨n', hn', hidx⟩ := rowScatter_resultIdx?_eq_some wf idx p q _ hu.2
    obtain ⟨hn, hj⟩ := ix2_inj hn'
    subst hn
    subst hj
    exact ⟨p, Finset.mem_filter.mpr ⟨Finset.mem_univ _, hidx⟩, rfl⟩
  · intro e _
    rfl

/-- THE ELEMENT SCATTER-ADD READ AT `n`: the operand's element plus the sum, over the updates `e` whose scatter index
    `idx[e, 0]` read signed is `n`, of the update's element `e`. -/
theorem elemScatterAdd_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w)
    (upd : (⟨1, ![E]⟩ : Shape).Idx → EReal) (n : Fin N) :
    Ideal.hostScatterAdd (elemScatterDims N E wf) x idx upd (ix1 n)
      = x (ix1 n) + ∑ e ∈ Finset.univ.filter (fun e : Fin E => (idx (ix2 e (0 : Fin 1))).toInt = (n.val : Int)),
          upd (ix1 e) := by
  unfold Ideal.hostScatterAdd
  congr 1
  symm
  refine Finset.sum_bij (fun e _ => ix1 e) ?_ ?_ ?_ ?_
  · intro e he
    rw [Finset.mem_filter] at he ⊢
    exact ⟨Finset.mem_univ _, elemScatter_resultIdx?_of_toInt wf idx e n he.2⟩
  · intro a _ b _ h
    exact ix1_inj h
  · intro u hu
    rw [Finset.mem_filter] at hu
    obtain ⟨p, rfl⟩ : ∃ (p : Fin E), u = ix1 p := ⟨u 0, eq_ix1 u⟩
    obtain ⟨n', hn', hidx⟩ := elemScatter_resultIdx?_eq_some wf idx p _ hu.2
    have hn := ix1_inj hn'
    subst hn
    exact ⟨p, Finset.mem_filter.mpr ⟨Finset.mem_univ _, hidx⟩, rfl⟩
  · intro e _
    rfl

end Idealize.ShloMosaic.RowGatherScatter

end
-- ==== Proof.AggregateReal.lean ====
/-
  The aggregate of an array of real numbers is an array of real numbers.  An entry of the aggregate is the
  feature matrix's own entry plus the scatter-add's: zero plus the sum, over the edges whose destination is this
  row, of the gathered entry — and a gathered entry is an entry of the feature matrix (at the source row clamped
  into range).  A finite sum of real numbers is a real number.

  The kernel program's aggregate and the reference's are the same composition of the same operations.
-/
import proofs.«149663_j27539330301987_1_alg».proof.Proof.KernelTerms
import proofs.«149663_j27539330301987_1_alg».proof.Proof.RefTerms
import proofs.«149663_j27539330301987_1_alg».proof.Proof.LibScatterAddSum
import proofs.«149663_j27539330301987_1_alg».proof.Proof.LibBatchMoments
import proofs.«149663_j27539330301987_1_alg».proof.Proof.LibHostMatmul
import Idealize.ShloMosaic.PureOps.Ideal.Laws

noncomputable section

namespace Cert.AggregateReal

open Idealize.ShloMosaic Idealize.ShloMosaic.ValueIdx Idealize.ShloMosaic.RowGatherScatter Cert.LibBatchMoments

/-- The program's scatter and gather records are the row scatter and the row gather. -/
theorem scatter_rec : Cert.KernelIdeal.scatter_S100000x64_S800000x1_S800000x64_1_0_0_1
    = rowScatterDims 100000 800000 64 Cert.KernelIdeal.Facts₀.scatter_S100000x64_S800000x1_S800000x64_1_0_0_1_wf := rfl
theorem gather_rec : Cert.KernelIdeal.gather_S100000x64_S800000x1_S800000x64_1_0_n_n_0_1_164
    = rowGatherDims 100000 800000 64 Cert.KernelIdeal.Facts₀.gather_S100000x64_S800000x1_S800000x64_1_0_n_n_0_1_164_wf := rfl

/-- Scatter-adding gathered rows of a real matrix onto a real matrix gives a real matrix. -/
theorem scatterAdd_gather_isReal
    (ws : ScatterDims.WF ⟨2, ![100000, 64]⟩ ⟨2, ![800000, 1]⟩ ⟨2, ![800000, 64]⟩ [1] [0] [0] 1)
    (wg : GatherDims.WF ⟨2, ![100000, 64]⟩ ⟨2, ![800000, 1]⟩ ⟨2, ![800000, 64]⟩ [1] [0] [] [0] [] 1 ![1, 64])
    (x z : FVec Ideal ⟨2, ![100000, 64]⟩ .f32) (hx : ∀ idx, IsReal (x idx)) (hz : ∀ idx, IsReal (z idx))
    (dcol scol : IVec ⟨2, ![800000, 1]⟩ 32) (i : Fin 100000) (j : Fin 64) :
    IsReal (Host.scatterAdd (F := Ideal) (φ := .f32) (rowScatterDims 100000 800000 64 ws) z dcol
      (Host.gather (rowGatherDims 100000 800000 64 wg) x scol) (ix2 i j)) := by
  show IsReal (Ideal.hostScatterAdd (rowScatterDims 100000 800000 64 ws) z dcol
      (Host.gather (rowGatherDims 100000 800000 64 wg) x scol) (ix2 i j))
  rw [rowScatterAdd_apply]
  refine (hz _).add (isReal_sum _ _ fun e _ => ?_)
  rw [gather_rows_apply (by norm_num : 0 < 100000)]
  exact hx _

/-- Every entry real in, every entry real out. -/
theorem aggregate_isReal (x : FVec Ideal Cert.KernelIdeal.S100000x64 .f32) (hx : ∀ idx, IsReal (x idx))
    (src dst : IVec Cert.KernelIdeal.S800000 32) (i : Fin 100000) (j : Fin 64) :
    IsReal (Cert.KernelIdeal.Terms.aggregate x src dst (ix2 i j)) := by
  unfold Cert.KernelIdeal.Terms.aggregate
  rw [addf_apply, scatter_rec, gather_rec]
  refine (hx _).add ?_
  exact scatterAdd_gather_isReal _ _ x _ hx
    (fun idx => by rw [DenseLayers.broadcastInDim_scalar_constant_apply, Ideal.ofBits_zero_f32]; exact isReal_zero) _ _ i j

/-- The two programs' aggregates, and their edge rows, are the same functions. -/
theorem aggregate_eq (x : FVec Ideal Cert.KernelIdeal.S100000x64 .f32) (src dst : IVec Cert.KernelIdeal.S800000 32) :
    Cert.KernelIdeal.Terms.aggregate x src dst = Cert.ReferenceIdeal.Terms.aggregate x src dst := rfl

theorem srcRow_eq (ei : IVec Cert.KernelIdeal.S2x800000 32) :
    Cert.KernelIdeal.Terms.srcRow ei = Cert.ReferenceIdeal.Terms.srcRow ei := rfl

theorem dstRow_eq (ei : IVec Cert.KernelIdeal.S2x800000 32) :
    Cert.KernelIdeal.Terms.dstRow ei = Cert.ReferenceIdeal.Terms.dstRow ei := rfl

end Cert.AggregateReal

end
-- ==== Proof.KernelValue.lean ====
/-
  The kernel program's result is the reference's function of the arguments.
  Region 0 leaves the pre-activations H = (aggregate of the features) · W1 + b1 — the reference's first dense layer —
  and, accumulated block by block, their column sums and sums of squares.  Under the precondition the features, W1
  and b1 are real, so the aggregate and H are real; the scale and shift rows of stretch 1 then make region 1's
  max(H·scale + shift, 0) the reference's normalised and rectified H (the batch-normalisation law).  Stretch 2 takes
  the same aggregate of that matrix and region 2 the second dense layer, as the reference does: the same functions
  applied to equal arrays.
-/
import proofs.«149663_j27539330301987_1_alg».proof.Proof.HostStretches
import proofs.«149663_j27539330301987_1_alg».proof.Proof.BlockValues
import proofs.«149663_j27539330301987_1_alg».proof.Proof.StatsRegion
import proofs.«149663_j27539330301987_1_alg».proof.Proof.NormalisedEq
import proofs.«149663_j27539330301987_1_alg».proof.Proof.AggregateReal
import proofs.«149663_j27539330301987_1_alg».proof.Proof.RefRead
import proofs.«149663_j27539330301987_1_alg».proof.Proof.KernelRead

noncomputable section

namespace Cert.KernelValue

open Cert.KernelIdeal Cert.KernelIdeal.Gen Cert.KernelIdeal.Stretches
open Idealize.ShloMosaic Idealize.ShloMosaic.TcCoe Idealize.ShloMosaic.ValueIdx Idealize.SL.Sem
open Cert.Spec Cert.LibBatchMoments

/-- A dense layer with the bias laid out as a row is the reference's dense layer. -/
theorem dense_eq_lin (a : FVec Ideal S100000x64 .f32) (W : FVec Ideal S64x64 .f32) (b : FVec Ideal S64 .f32)
    (i : Fin 100000) (j : Fin 64) :
    dense a W (Cert.KernelIdeal.Terms.biasRow b) i j = Cert.ReferenceIdeal.Terms.lin a W b (ix2 i j) := by
  rw [Cert.ReferenceIdeal.Read.lin_apply]
  unfold dense
  rw [Cert.KernelIdeal.Read.biasRow_apply]

/-- A dense layer of real numbers is real. -/
theorem lin_isReal (a : FVec Ideal S100000x64 .f32) (W : FVec Ideal S64x64 .f32) (b : FVec Ideal S64 .f32)
    (ha : ∀ x, IsReal (a x)) (hW : ∀ x, IsReal (W x)) (hb : ∀ x, IsReal (b x)) (idx : S100000x64.Idx) :
    IsReal (Cert.ReferenceIdeal.Terms.lin a W b idx) := by
  obtain ⟨i, j, rfl⟩ : ∃ (i : Fin 100000) (j : Fin 64), idx = ix2 i j := ⟨idx 0, idx 1, eq_ix2 idx⟩
  rw [Cert.ReferenceIdeal.Read.lin_apply]
  exact (isReal_sum _ _ fun k _ => (ha _).mul (hW _)).add (hb _)

variable (m : (ℓ : Loc nD τ sig) → Buf (Elt Ideal) ℓ) (ρ : Dev nD → PrngReg) (c : Dev nD)

/-- The reference's pre-activations: its first dense layer of the aggregate of the features. -/
def preact : FVec Ideal S100000x64 .f32 :=
  Cert.ReferenceIdeal.Terms.lin
    (Cert.ReferenceIdeal.Terms.aggregate (m ((c : Thread nD τ).loc main_arg0)) (Cert.ReferenceIdeal.Terms.srcRow (m ((c : Thread nD τ).loc main_arg1))) (Cert.ReferenceIdeal.Terms.dstRow (m ((c : Thread nD τ).loc main_arg1)))) (m ((c : Thread nD τ).loc main_arg2)) (m ((c : Thread nD τ).loc main_arg3))

/-- Region 0's dense layer at an entry is the pre-activation there. -/
theorem dense0_eq (i : Fin 100000) (j : Fin 64) :
    dense (V1 m ρ c main_v14) (V1 m ρ c main_arg2) (V1 m ρ c main_v15) i j = preact m c (ix2 i j) := by
  rw [V1_v14, V1_arg2, V1_v15, dense_eq_lin, Cert.AggregateReal.aggregate_eq, Cert.AggregateReal.srcRow_eq,
    Cert.AggregateReal.dstRow_eq]
  rfl

/-- Region 0's first output is the pre-activation matrix. -/
theorem arr3_eq : (dat0 (F := Ideal) (V1 m ρ) c).arrAt 3 cfg0.N = preact m c := by
  funext idx
  obtain ⟨i, j, rfl⟩ : ∃ (i : Fin 100000) (j : Fin 64), idx = ix2 i j := ⟨idx 0, idx 1, eq_ix2 idx⟩
  rw [Cert.KernelIdeal.StatsRegion.region0_h, dense0_eq]

/-- Its second and third outputs are the pre-activations' column sums and sums of squares, block by block. -/
theorem arr4_eq (j : Fin 64) : @Eq EReal (((dat0 (F := Ideal) (V1 m ρ) c).arrAt 4 cfg0.N : RowIdx → EReal) (ix2 (0 : Fin 1) j))
    (∑ t : Fin 20, ∑ r : Fin 5000, preact m c (ix2 (rowOf t r) j)) := by
  rw [Cert.KernelIdeal.StatsRegion.region0_sum]
  exact Finset.sum_congr rfl fun t _ => Finset.sum_congr rfl fun r _ => dense0_eq m ρ c _ _

theorem arr5_eq (j : Fin 64) : @Eq EReal (((dat0 (F := Ideal) (V1 m ρ) c).arrAt 5 cfg0.N : RowIdx → EReal) (ix2 (0 : Fin 1) j))
    (∑ t : Fin 20, ∑ r : Fin 5000, preact m c (ix2 (rowOf t r) j) * preact m c (ix2 (rowOf t r) j)) := by
  rw [Cert.KernelIdeal.StatsRegion.region0_sumsq]
  exact Finset.sum_congr rfl fun t _ => Finset.sum_congr rfl fun r _ => by rw [dense0_eq]

/-- Under the precondition the pre-activations are real numbers. -/
theorem preact_isReal (h0 : ∀ x, IsReal ((m ((c : Thread nD τ).loc main_arg0)) x)) (h2 : ∀ x, IsReal ((m ((c : Thread nD τ).loc main_arg2)) x)) (h3 : ∀ x, IsReal ((m ((c : Thread nD τ).loc main_arg3)) x)) (idx : S100000x64.Idx) :
    IsReal (preact m c idx) := by
  unfold preact
  refine lin_isReal _ _ _ (fun y => ?_) h2 h3 idx
  obtain ⟨i, j, rfl⟩ : ∃ (i : Fin 100000) (j : Fin 64), y = ix2 i j := ⟨y 0, y 1, eq_ix2 y⟩
  rw [← Cert.AggregateReal.aggregate_eq]
  exact Cert.AggregateReal.aggregate_isReal _ h0 _ _ i j

/-- Region 1's output is the reference's normalised, rectified pre-activations. -/
theorem arr1_eq (h0 : ∀ x, IsReal ((m ((c : Thread nD τ).loc main_arg0)) x)) (h2 : ∀ x, IsReal ((m ((c : Thread nD τ).loc main_arg2)) x)) (h3 : ∀ x, IsReal ((m ((c : Thread nD τ).loc main_arg3)) x))
    (h4 : ∀ x, IsReal ((m ((c : Thread nD τ).loc main_arg4)) x)) (h5 : ∀ x, IsReal ((m ((c : Thread nD τ).loc main_arg5)) x)) :
    (dat1 (F := Ideal) (V3 m ρ) c).arrAt 3 cfg1.N = Cert.ReferenceIdeal.Terms.bnRelu (preact m c) (m ((c : Thread nD τ).loc main_arg4)) (m ((c : Thread nD τ).loc main_arg5)) := by
  funext idx
  obtain ⟨i, j, rfl⟩ : ∃ (i : Fin 100000) (j : Fin 64), idx = ix2 i j := ⟨idx 0, idx 1, eq_ix2 idx⟩
  rw [Cert.KernelIdeal.BlockValues.region1_out, V3_v16_0, V3_v27, V3_v30, arr3_eq]
  exact Cert.NormalisedEq.normalised_eq (preact m c) (preact_isReal m c h0 h2 h3) (m ((c : Thread nD τ).loc main_arg4)) (m ((c : Thread nD τ).loc main_arg5)) h4 h5 _ _
    (arr4_eq m ρ c) (arr5_eq m ρ c) i j

/-- THE RESULT: the result buffer's contents after the run are the reference's function of the arguments. -/
theorem result_eq (h0 : ∀ x, IsReal ((m ((c : Thread nD τ).loc main_arg0)) x)) (h2 : ∀ x, IsReal ((m ((c : Thread nD τ).loc main_arg2)) x)) (h3 : ∀ x, IsReal ((m ((c : Thread nD τ).loc main_arg3)) x))
    (h4 : ∀ x, IsReal ((m ((c : Thread nD τ).loc main_arg4)) x)) (h5 : ∀ x, IsReal ((m ((c : Thread nD τ).loc main_arg5)) x)) :
    W6 m ρ c (Proc.devRef .tc main_v44) = Cert.ReferenceIdeal.Terms.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  funext idx
  obtain ⟨i, j, rfl⟩ : ∃ (i : Fin 100000) (j : Fin 64), idx = ix2 i j := ⟨idx 0, idx 1, eq_ix2 idx⟩
  rw [W6_v44, Cert.KernelIdeal.BlockValues.region2_out, V5_v42, V5_arg6, V5_v43, dense_eq_lin,
    arr1_eq m ρ c h0 h2 h3 h4 h5, Cert.AggregateReal.aggregate_eq, Cert.AggregateReal.srcRow_eq,
    Cert.AggregateReal.dstRow_eq]
  rfl

end Cert.KernelValue

end
-- ==== Proof.lean ====
/-
  Two layers of graph message passing — aggregate the neighbours' rows onto each node, apply a dense layer — with a
  batch normalisation and a rectifier between them: the kernel program against its reference, on the extended reals.

  The kernel program computes the aggregates on the host and the dense parts in three kernel regions over row blocks
  of 5000 nodes: the first dense layer with its column sums and sums of squares accumulated over the twenty blocks;
  max(h·scale + shift, 0) with scale = γ·rsqrt(E[h²] − E[h]² + ε), shift = β − E[h]·scale; the second dense layer.
  The reference computes mean and mean squared deviation over all nodes at once and
  max((h − mean)·rsqrt(var + ε)·γ + β, 0).  The two agree because, under the precondition, every float argument is
  an array of real numbers: then the aggregate and the pre-activations h are real, the two variances are equal, the
  variance is non-negative so that rsqrt(var + ε) is real, and the two affine forms agree by distributivity
  (`Cert.NormalisedEq.normalised_eq`).  Everything else — the aggregate, the dense layers, a 1 x 64 row against a
  64-vector, sums block by block against sums over all rows — is the same function written twice
  (`Cert.KernelValue.result_eq`).

  Frames: the two kernel programs' are the generated frame certificates; the reference's is its run
  (`Cert.ReferenceIdeal.RefRun.run`) with the result dropped.  The idealization rewrote nothing, so `preserves` is
  trivial.
-/
import proofs.«149663_j27539330301987_1_alg».proof.Defs
import proofs.«149663_j27539330301987_1_alg».proof.Proof.Gen.Kernel
import proofs.«149663_j27539330301987_1_alg».proof.Proof.Gen.Kernel.Skeleton
import proofs.«149663_j27539330301987_1_alg».proof.Proof.Gen.Kernel.Launch
import proofs.«149663_j27539330301987_1_alg».proof.Proof.Gen.Kernel.Points
import proofs.«149663_j27539330301987_1_alg».proof.Proof.Gen.Kernel.Frame
import proofs.«149663_j27539330301987_1_alg».proof.Proof.Gen.KernelIdeal
import proofs.«149663_j27539330301987_1_alg».proof.Proof.Gen.KernelIdeal.Skeleton
import proofs.«149663_j27539330301987_1_alg».proof.Proof.Gen.KernelIdeal.Launch
import proofs.«149663_j27539330301987_1_alg».proof.Proof.Gen.KernelIdeal.Points
import proofs.«149663_j27539330301987_1_alg».proof.Proof.Gen.KernelIdeal.Frame
import proofs.«149663_j27539330301987_1_alg».proof.Proof.Gen.ReferenceIdeal
import proofs.«149663_j27539330301987_1_alg».proof.Proof.Gen.Pre_finite_inputs
import proofs.«149663_j27539330301987_1_alg».proof.Proof.KernelRun
import proofs.«149663_j27539330301987_1_alg».proof.Proof.RefRun
import proofs.«149663_j27539330301987_1_alg».proof.Proof.FiniteInputs
import proofs.«149663_j27539330301987_1_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.RefRun.run m ρ)

/-- Both programs end with the reference's function of the (agreeing) arguments in their result buffers. -/
theorem algebraic : Cert.algebraic_KernelIdeal_ReferenceIdeal := by
  intro m ρ m' ρ' hpre hagree
  refine ⟨fun c => Cert.ReferenceIdeal.Terms.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · refine (θ_run Cert.KernelIdeal.defs _ _).mono (fun r h c => ⟨(h c).1.trans ?_, (h c).2⟩)
      (Cert.KernelIdeal.RunValue.run (F := Ideal) m ρ)
    obtain ⟨h0, h2, h3, h4, h5, -, -⟩ := Cert.FiniteInputs.real_of_pre _ _ _ _ _ _ _ _ (hpre c)
    exact Cert.KernelValue.result_eq m ρ c h0 h2 h3 h4 h5
  · refine (θ_run Cert.ReferenceIdeal.defs _ _).mono (fun r h c => ⟨(h c).1.trans ?_, (h c).2⟩)
      (Cert.ReferenceIdeal.RefRun.run m' ρ')
    obtain ⟨e0, e1, e2, e3, e4, e5, e6, e7⟩ := hagree c
    rw [e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
